-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x64x2 : Shape := ⟨3, ![32, 64, 2]⟩
abbrev S32x64 : Shape := ⟨2, ![32, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x64x2 : S_.BroadcastsInDim S32x64x2 (![] : Fin 0 → Fin S32x64x2.rank)
  reducesTo_S32x64x2_S_d0_1_2 : S32x64x2.ReducesTo [0, 1, 2] S_

variable [Facts]

def fn_part1 {F : FTy → Type} [FloatOps F] (main_v13 : IVec S_ 1) (main_v16 : IVec S32x64x2 1) : IVec S_ 1 :=
  let main_c_5 : IVec S_ 1 := constantI S_ 1 1#1
  let main_v17 : IVec S_ 1 := (fun x v => Host.reduce IntOp.andi x v reducesTo_S32x64x2_S_d0_1_2 h_S_) main_v16 main_c_5
  let main_v18 : IVec S_ 1 := andi main_v13 main_v17
  main_v18

def fn {F : FTy → Type} [FloatOps F] (main_arg0 : FVec F S32x256x64x64 .f32) (main_arg1 : FVec F S32x256x64x64 .f32) (main_arg2 : FVec F S32x64x2 .f32) (main_arg3 : FVec F S32x64x2 .f32) (main_arg4 : IVec S32x64 1) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  let main_v9 : FVec F S32x64x2 .f32 := Host.absf main_arg2
  let main_cst_2 : FVec F S_ .f32 := constant S_ .f32 0x7F800000#32
  let main_v10 : FVec F S32x64x2 .f32 := broadcastInDim S32x64x2 ![] bcast_S_S32x64x2 main_cst_2
  let main_v11 : IVec S32x64x2 1 := cmpf .olt main_v9 main_v10
  let main_c_3 : IVec S_ 1 := constantI S_ 1 1#1
  let main_v12 : IVec S_ 1 := (fun x v => Host.reduce IntOp.andi x v reducesTo_S32x64x2_S_d0_1_2 h_S_) main_v11 main_c_3
  let main_v13 : IVec S_ 1 := andi main_v8 main_v12
  let main_v14 : FVec F S32x64x2 .f32 := Host.absf main_arg3
  let main_cst_4 : FVec F S_ .f32 := constant S_ .f32 0x7F800000#32
  let main_v15 : FVec F S32x64x2 .f32 := broadcastInDim S32x64x2 ![] bcast_S_S32x64x2 main_cst_4
  let main_v16 : IVec S32x64x2 1 := cmpf .olt main_v14 main_v15
  fn_part1 (F := F) main_v13 main_v16
-- ==== Kernel.lean ====
abbrev S32x256x64x64 : Shape := ⟨4, ![32, 256, 64, 64]⟩
abbrev S32x64x2 : Shape := ⟨3, ![32, 64, 2]⟩
abbrev S32x64 : Shape := ⟨2, ![32, 64]⟩
abbrev S32x256x4096 : Shape := ⟨3, ![32, 256, 4096]⟩
abbrev S32x64x1 : Shape := ⟨3, ![32, 64, 1]⟩
abbrev S_ : Shape := ⟨0, ![]⟩
abbrev S32x1x64 : Shape := ⟨3, ![32, 1, 64]⟩
abbrev S1x256x4096 : Shape := ⟨3, ![1, 256, 4096]⟩
abbrev S1x1x64 : Shape := ⟨3, ![1, 1, 64]⟩
abbrev S1x64x1 : Shape := ⟨3, ![1, 64, 1]⟩
abbrev S256x4096 : Shape := ⟨2, ![256, 4096]⟩
abbrev S4096 : Shape := ⟨1, ![4096]⟩
abbrev S1x4096 : Shape := ⟨2, ![1, 4096]⟩
abbrev S1x64 : Shape := ⟨2, ![1, 64]⟩
abbrev S64x1 : Shape := ⟨2, ![64, 1]⟩
abbrev S4096x64 : Shape := ⟨2, ![4096, 64]⟩
abbrev S256x64 : Shape := ⟨2, ![256, 64]⟩
abbrev S64x4096 : Shape := ⟨2, ![64, 4096]⟩
abbrev S64 : Shape := ⟨1, ![64]⟩

abbrev nBuf : Space → Nat
  | .hbm => 84
  | .vmem => 10
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S32x64x2, .f32⟩
  | .hbm, ⟨3, _⟩ => ⟨S32x64x2, .f32⟩
  | .hbm, ⟨4, _⟩ => ⟨S32x64, .i1⟩
  | .hbm, ⟨5, _⟩ => ⟨S32x256x4096, .f32⟩
  | .hbm, ⟨6, _⟩ => ⟨S32x256x4096, .f32⟩
  | .hbm, ⟨7, _⟩ => ⟨S32x64x1, .f32⟩
  | .hbm, ⟨8, _⟩ => ⟨S32x64, .f32⟩
  | .hbm, ⟨9, _⟩ => ⟨S_, .f32⟩
  | .hbm, ⟨10, _⟩ => ⟨S32x64, .f32⟩
  | .hbm, ⟨11, _⟩ => ⟨S32x64, .f32⟩
  | .hbm, ⟨12, _⟩ => ⟨S32x64, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S32x64, .i32⟩
  | .hbm, ⟨17, _⟩ => ⟨S32x64, .i32⟩
  | .hbm, ⟨18, _⟩ => ⟨S_, .i32⟩
  | .hbm, ⟨19, _⟩ => ⟨S32x64, .i32⟩
  | .hbm, ⟨20, _⟩ => ⟨S32x64, .i32⟩
  | .hbm, ⟨21, _⟩ => ⟨S32x64x1, .f32⟩
  | .hbm, ⟨22, _⟩ => ⟨S32x64, .f32⟩
  | .hbm, ⟨23, _⟩ => ⟨S_, .f32⟩
  | .hbm, ⟨24, _⟩ => ⟨S32x64, .f32⟩
  | .hbm, ⟨25, _⟩ => ⟨S32x64, .f32⟩
  | .hbm, ⟨26, _⟩ => ⟨S32x64, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S32x64, .i32⟩
  | .hbm, ⟨31, _⟩ => ⟨S32x64, .i32⟩
  | .hbm, ⟨32, _⟩ => ⟨S_, .i32⟩
  | .hbm, ⟨33, _⟩ => ⟨S32x64, .i32⟩
  | .hbm, ⟨34, _⟩ => ⟨S32x64, .i32⟩
  | .hbm, ⟨35, _⟩ => ⟨S_, .i32⟩
  | .hbm, ⟨36, _⟩ => ⟨S32x64, .i32⟩
  | .hbm, ⟨37, _⟩ => ⟨S32x64, .i32⟩
  | .hbm, ⟨38, _⟩ => ⟨S32x64, .i32⟩
  | .hbm, ⟨39, _⟩ => ⟨S32x1x64, .i32⟩
  | .hbm, ⟨40, _⟩ => ⟨S32x64x1, .f32⟩
  | .hbm, ⟨41, _⟩ => ⟨S32x64, .f32⟩
  | .hbm, ⟨42, _⟩ => ⟨S_, .f32⟩
  | .hbm, ⟨43, _⟩ => ⟨S32x64, .f32⟩
  | .hbm, ⟨44, _⟩ => ⟨S32x64, .f32⟩
  | .hbm, ⟨45, _⟩ => ⟨S32x64, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S32x64, .i32⟩
  | .hbm, ⟨50, _⟩ => ⟨S32x64, .i32⟩
  | .hbm, ⟨51, _⟩ => ⟨S_, .i32⟩
  | .hbm, ⟨52, _⟩ => ⟨S32x64, .i32⟩
  | .hbm, ⟨53, _⟩ => ⟨S32x64, .i32⟩
  | .hbm, ⟨54, _⟩ => ⟨S32x64x1, .f32⟩
  | .hbm, ⟨55, _⟩ => ⟨S32x64, .f32⟩
  | .hbm, ⟨56, _⟩ => ⟨S_, .f32⟩
  | .hbm, ⟨57, _⟩ => ⟨S32x64, .f32⟩
  | .hbm, ⟨58, _⟩ => ⟨S32x64, .f32⟩
  | .hbm, ⟨59, _⟩ => ⟨S32x64, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S32x64, .i32⟩
  | .hbm, ⟨64, _⟩ => ⟨S32x64, .i32⟩
  | .hbm, ⟨65, _⟩ => ⟨S_, .i32⟩
  | .hbm, ⟨66, _⟩ => ⟨S32x64, .i32⟩
  | .hbm, ⟨67, _⟩ => ⟨S32x64, .i32⟩
  | .hbm, ⟨68, _⟩ => ⟨S_, .i32⟩
  | .hbm, ⟨69, _⟩ => ⟨S32x64, .i32⟩
  | .hbm, ⟨70, _⟩ => ⟨S32x64, .i32⟩
  | .hbm, ⟨71, _⟩ => ⟨S32x64, .i32⟩
  | .hbm, ⟨72, _⟩ => ⟨S32x64x1, .i32⟩
  | .hbm, ⟨73, _⟩ => ⟨S32x64x1, .f32⟩
  | .hbm, ⟨74, _⟩ => ⟨S32x64, .f32⟩
  | .hbm, ⟨75, _⟩ => ⟨S32x64, .f32⟩
  | .hbm, ⟨76, _⟩ => ⟨S_, .f32⟩
  | .hbm, ⟨77, _⟩ => ⟨S_, .f32⟩
  | .hbm, ⟨78, _⟩ => ⟨S32x64, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x64, .i32⟩
  | .local _ .vmem, ⟨5, _⟩ => ⟨S1x1x64, .i32⟩
  | .local _ .vmem, ⟨6, _⟩ => ⟨S1x64x1, .i32⟩
  | .local _ .vmem, ⟨7, _⟩ => ⟨S1x64x1, .i32⟩
  | .local _ .vmem, ⟨8, _⟩ => ⟨S1x64x1, .f32⟩
  | .local _ .vmem, ⟨9, _⟩ => ⟨S1x64x1, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_c_7 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_8 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_9 : Ref sig .tc := ⟨.hbm, 60, rfl⟩
abbrev main_c_10 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v29 : Ref sig .tc := ⟨.hbm, 67, rfl⟩
abbrev main_c_11 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_12 : Ref sig .tc := ⟨.hbm, 76, rfl⟩
abbrev main_v37 : Ref sig .tc := ⟨.hbm, 77, rfl⟩
abbrev main_v38 : Ref sig .tc := ⟨.hbm, 78, rfl⟩
abbrev main_cst_13 : Ref sig .tc := ⟨.hbm, 79, rfl⟩
abbrev main_v39 : Ref sig .tc := ⟨.hbm, 80, rfl⟩
abbrev main_cst_14 : Ref sig .tc := ⟨.hbm, 81, rfl⟩
abbrev main_v40 : Ref sig .tc := ⟨.hbm, 82, rfl⟩
abbrev main_v41 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x256x64x64_S32x256x4096 : S32x256x64x64.ShapeCasts S32x256x4096
  slices_S32x64x2_S32x64x1_0_0_0 : S32x64x2.Slices ![0, 0, 0] S32x64x1
  shapeCasts_S32x64x1_S32x64 : S32x64x1.ShapeCasts S32x64
  bcast_S_S32x64 : S_.BroadcastsInDim S32x64 (![] : Fin 0 → Fin S32x64.rank)
  slices_S32x64x2_S32x64x1_0_0_1 : S32x64x2.Slices ![0, 0, 1] S32x64x1
  shapeCasts_S32x64_S32x1x64 : S32x64.ShapeCasts S32x1x64
  shapeCasts_S32x64_S32x64x1 : S32x64.ShapeCasts S32x64x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S4096 : S256x4096.Reduces [0] S4096
  shapeCasts_S4096_S1x4096 : S4096.ShapeCasts S1x4096
  broadcasts_S1x4096_S256x4096 : S1x4096.Broadcasts S256x4096
  bitsLt_bf16_f32 : FTy.bits .bf16 < FTy.bits .f32
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  iota_S4096x64_d0_w32 : S4096x64.Iotas .tc 32 [0]
  broadcasts_S1x64_S4096x64 : S1x64.Broadcasts S4096x64
  natLt_1_32 : 1 < 32
  reduces_S64x4096_S64 : S64x4096.Reduces [1] S64
  shapeCasts_S64_S64x1 : S64.ShapeCasts S64x1
  broadcasts_S64x1_S64x4096 : S64x1.Broadcasts S64x4096
  iota_S64x4096_d1_w32 : S64x4096.Iotas .tc 32 [1]
  shapeCasts_S64x1_S1x64x1 : S64x1.ShapeCasts S1x64x1
  reducesTo_S32x64_S_d0_1 : S32x64.ReducesTo [0, 1] S_
  h_S_ : 0 < S_.numel
  dot_S256x4096_S4096x64_S256x64_1_0_0_1_n_n_wf : DotDims.WF S256x4096 S4096x64 S256x64 [1] [0] [0] [1] [] []
  dot_S256x64_S256x4096_S64x4096_0_0_1_1_n_n_wf : DotDims.WF S256x64 S256x4096 S64x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S32x256x4096.size a
  hwx0_1 : ∀ i : grid0.Coords, EltTy.bits .f32 = 32 ∨ (Rect.block (s := S32x256x4096) S1x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S32x1x64.size a
  hwx0_2 : ∀ i : grid0.Coords, EltTy.bits .i32 = 32 ∨ (Rect.block (s := S32x1x64) S1x1x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S32x64x1.size a
  hwx0_3 : ∀ i : grid0.Coords, EltTy.bits .i32 = 32 ∨ (Rect.block (s := S32x64x1) S1x64x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S32x64x1.size a
  hwx0_4 : ∀ i : grid0.Coords, EltTy.bits .f32 = 32 ∨ (Rect.block (s := S32x64x1) S1x64x1.size (cc0_transform_4 i) (hinb0_4 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S256x4096_S64x4096_0_0_1_1_n_n : DotDims S256x64 S256x4096 S64x4096 where
  lhsContracting := [0]
  rhsContracting := [0]
  lhsNonContracting := [1]
  rhsNonContracting := [1]
  lhsBatch := []
  rhsBatch := []
  wf := dot_S256x64_S256x4096_S64x4096_0_0_1_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x64x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x64x2 : Shape := ⟨3, ![32, 64, 2]⟩
abbrev S32x64 : Shape := ⟨2, ![32, 64]⟩
abbrev S_ : Shape := ⟨0, ![]⟩
abbrev S32x64x64 : Shape := ⟨3, ![32, 64, 64]⟩
abbrev S32x1x64x64 : Shape := ⟨4, ![32, 1, 64, 64]⟩
abbrev S32x256x4096 : Shape := ⟨3, ![32, 256, 4096]⟩
abbrev S32x64x1 : Shape := ⟨3, ![32, 64, 1]⟩
abbrev S32x1x64 : Shape := ⟨3, ![32, 1, 64]⟩
abbrev S1 : Shape := ⟨1, ![1]⟩
abbrev S1x1x1 : Shape := ⟨3, ![1, 1, 1]⟩
abbrev S32x256x64 : Shape := ⟨3, ![32, 256, 64]⟩
abbrev S32x64x4096 : Shape := ⟨3, ![32, 64, 4096]⟩
abbrev S32x64x1x1 : Shape := ⟨4, ![32, 64, 1, 1]⟩
abbrev S1x1x1x1 : Shape := ⟨4, ![1, 1, 1, 1]⟩

abbrev nBuf : Space → Nat
  | .hbm => 168
  | .vmem => 0
  | .smem => 0
  | _ => 0

abbrev hbmTy0_0 (i : Nat) : BufTy := match i % 128 with
  | 0 => ⟨S32x256x64x64, .f32⟩
  | 1 => ⟨S32x256x64x64, .f32⟩
  | 2 => ⟨S32x64x2, .f32⟩
  | 3 => ⟨S32x64x2, .f32⟩
  | 4 => ⟨S32x64, .i1⟩
  | 5 => ⟨S32x256x64x64, .f32⟩
  | 6 => ⟨S_, .f32⟩
  | 7 => ⟨S32x64x64, .f32⟩
  | 8 => ⟨S32x1x64x64, .f32⟩
  | 9 => ⟨S32x1x64x64, .f32⟩
  | 10 => ⟨S_, .f32⟩
  | 11 => ⟨S32x1x64x64, .f32⟩
  | 12 => ⟨S32x1x64x64, .f32⟩
  | 13 => ⟨S32x256x64x64, .f32⟩
  | 14 => ⟨S32x256x64x64, .f32⟩
  | 15 => ⟨S32x256x4096, .f32⟩
  | 16 => ⟨S32x256x64x64, .f32⟩
  | 17 => ⟨S_, .f32⟩
  | 18 => ⟨S32x64x64, .f32⟩
  | 19 => ⟨S32x1x64x64, .f32⟩
  | 20 => ⟨S32x1x64x64, .f32⟩
  | 21 => ⟨S_, .f32⟩
  | 22 => ⟨S32x1x64x64, .f32⟩
  | 23 => ⟨S32x1x64x64, .f32⟩
  | 24 => ⟨S32x256x64x64, .f32⟩
  | 25 => ⟨S32x256x64x64, .f32⟩
  | 26 => ⟨S32x256x4096, .f32⟩
  | 27 => ⟨S32x64x1, .f32⟩
  | 28 => ⟨S32x64, .f32⟩
  | 29 => ⟨S_, .f32⟩
  | 30 => ⟨S32x64, .f32⟩
  | 31 => ⟨S32x64, .f32⟩
  | 32 => ⟨S32x64, .i32⟩
  | 33 => ⟨S_, .i32⟩
  | 34 => ⟨S_, .i32⟩
  | 35 => ⟨S_, .i32⟩
  | 36 => ⟨S32x64, .i32⟩
  | 37 => ⟨S32x64, .i32⟩
  | 38 => ⟨S_, .i32⟩
  | 39 => ⟨S32x64, .i32⟩
  | 40 => ⟨S32x64, .i32⟩
  | 41 => ⟨S32x64x1, .f32⟩
  | 42 => ⟨S32x64, .f32⟩
  | 43 => ⟨S_, .f32⟩
  | 44 => ⟨S32x64, .f32⟩
  | 45 => ⟨S32x64, .f32⟩
  | 46 => ⟨S32x64, .i32⟩
  | 47 => ⟨S_, .i32⟩
  | 48 => ⟨S_, .i32⟩
  | 49 => ⟨S_, .i32⟩
  | 50 => ⟨S32x64, .i32⟩
  | 51 => ⟨S32x64, .i32⟩
  | 52 => ⟨S_, .i32⟩
  | 53 => ⟨S32x64, .i32⟩
  | 54 => ⟨S32x64, .i32⟩
  | 55 => ⟨S_, .i32⟩
  | 56 => ⟨S32x64, .i32⟩
  | 57 => ⟨S32x64, .i32⟩
  | 58 => ⟨S32x64, .i32⟩
  | 59 => ⟨S32x64x1, .f32⟩
  | 60 => ⟨S32x64, .f32⟩
  | 61 => ⟨S_, .f32⟩
  | 62 => ⟨S32x64, .f32⟩
  | 63 => ⟨S32x64, .f32⟩
  | 64 => ⟨S32x64, .i32⟩
  | 65 => ⟨S_, .i32⟩
  | 66 => ⟨S_, .i32⟩
  | 67 => ⟨S_, .i32⟩
  | 68 => ⟨S32x64, .i32⟩
  | 69 => ⟨S32x64, .i32⟩
  | 70 => ⟨S_, .i32⟩
  | 71 => ⟨S32x64, .i32⟩
  | 72 => ⟨S32x64, .i32⟩
  | 73 => ⟨S32x64x1, .f32⟩
  | 74 => ⟨S32x64, .f32⟩
  | 75 => ⟨S_, .f32⟩
  | 76 => ⟨S32x64, .f32⟩
  | 77 => ⟨S32x64, .f32⟩
  | 78 => ⟨S32x64, .i32⟩
  | 79 => ⟨S_, .i32⟩
  | 80 => ⟨S_, .i32⟩
  | 81 => ⟨S_, .i32⟩
  | 82 => ⟨S32x64, .i32⟩
  | 83 => ⟨S32x64, .i32⟩
  | 84 => ⟨S_, .i32⟩
  | 85 => ⟨S32x64, .i32⟩
  | 86 => ⟨S32x64, .i32⟩
  | 87 => ⟨S_, .i32⟩
  | 88 => ⟨S32x64, .i32⟩
  | 89 => ⟨S32x64, .i32⟩
  | 90 => ⟨S32x64, .i32⟩
  | 91 => ⟨S32x1x64, .i32⟩
  | 92 => ⟨S_, .i32⟩
  | 93 => ⟨S32x1x64, .i32⟩
  | 94 => ⟨S32x1x64, .i1⟩
  | 95 => ⟨S_, .i32⟩
  | 96 => ⟨S32x1x64, .i32⟩
  | 97 => ⟨S32x1x64, .i32⟩
  | 98 => ⟨S32x1x64, .i32⟩
  | 99 => ⟨S32x64x1, .i32⟩
  | 100 => ⟨S1, .i32⟩
  | 101 => ⟨S_, .i32⟩
  | 102 => ⟨S32x64x1, .i32⟩
  | 103 => ⟨S32x64x1, .i1⟩
  | 104 => ⟨S1x1x1, .i32⟩
  | 105 => ⟨S32x64x1, .i32⟩
  | 106 => ⟨S32x64x1, .i1⟩
  | 107 => ⟨S32x64x1, .i1⟩
  | 108 => ⟨S_, .i1⟩
  | 109 => ⟨S32x64, .i1⟩
  | 110 => ⟨S32x256x64, .f32⟩
  | 111 => ⟨S32x256x64, .i1⟩
  | 112 => ⟨S_, .f32⟩
  | 113 => ⟨S32x256x64, .f32⟩
  | 114 => ⟨S32x256x64, .f32⟩
  | 115 => ⟨S32x64x4096, .f32⟩
  | 116 => ⟨S_, .f32⟩
  | 117 => ⟨S32x64x4096, .f32⟩
  | 118 => ⟨S32x64x4096, .f32⟩
  | 119 => ⟨S_, .f32⟩
  | 120 => ⟨S32x64, .f32⟩
  | 121 => ⟨S_, .f32⟩
  | 122 => ⟨S32x64, .f32⟩
  | 123 => ⟨S32x64, .f32⟩
  | 124 => ⟨S32x64x1, .f32⟩
  | 125 => ⟨S32x64x4096, .f32⟩
  | 126 => ⟨S32x64x4096, .f32⟩
  | 127 => ⟨S32x64x4096, .f32⟩
  | _ => ⟨S32x256x64x64, .f32⟩

abbrev hbmTy0_1 (i : Nat) : BufTy := match i % 128 with
  | 0 => ⟨S_, .f32⟩
  | 1 => ⟨S32x64, .f32⟩
  | 2 => ⟨S32x64x1, .f32⟩
  | 3 => ⟨S32x64x1, .f32⟩
  | 4 => ⟨S32x64x4096, .f32⟩
  | 5 => ⟨S32x64x4096, .f32⟩
  | 6 => ⟨S32x64x1, .i32⟩
  | 7 => ⟨S_, .i32⟩
  | 8 => ⟨S32x64x1, .i32⟩
  | 9 => ⟨S32x64x1, .i1⟩
  | 10 => ⟨S_, .i32⟩
  | 11 => ⟨S32x64x1, .i32⟩
  | 12 => ⟨S32x64x1, .i32⟩
  | 13 => ⟨S32x64x1, .i32⟩
  | 14 => ⟨S32x64x1x1, .i32⟩
  | 15 => ⟨S1, .i32⟩
  | 16 => ⟨S_, .i32⟩
  | 17 => ⟨S32x64x1x1, .i32⟩
  | 18 => ⟨S32x64x1x1, .i1⟩
  | 19 => ⟨S1x1x1x1, .i32⟩
  | 20 => ⟨S32x64x1x1, .i32⟩
  | 21 => ⟨S32x64x1x1, .i1⟩
  | 22 => ⟨S32x64x1x1, .i1⟩
  | 23 => ⟨S_, .i1⟩
  | 24 => ⟨S32x64x1, .i1⟩
  | 25 => ⟨S32x64x1, .f32⟩
  | 26 => ⟨S_, .f32⟩
  | 27 => ⟨S32x64x1, .f32⟩
  | 28 => ⟨S32x64x1, .f32⟩
  | 29 => ⟨S32x64, .f32⟩
  | 30 => ⟨S32x64, .f32⟩
  | 31 => ⟨S32x64, .f32⟩
  | 32 => ⟨S_, .f32⟩
  | 33 => ⟨S_, .f32⟩
  | 34 => ⟨S32x64, .f32⟩
  | 35 => ⟨S_, .f32⟩
  | 36 => ⟨S_, .f32⟩
  | 37 => ⟨S_, .f32⟩
  | 38 => ⟨S_, .f32⟩
  | 39 => ⟨S_, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_c_2 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_c_5 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_v23 : Ref sig .tc := ⟨.hbm, 54, rfl⟩
abbrev main_c_6 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_7 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_8 : Ref sig .tc := ⟨.hbm, 65, rfl⟩
abbrev main_c_9 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_10 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_c_11 : Ref sig .tc := ⟨.hbm, 79, rfl⟩
abbrev main_c_12 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_v38 : Ref sig .tc := ⟨.hbm, 86, rfl⟩
abbrev main_c_13 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_call6_c : Ref sig .tc := ⟨.hbm, 92, rfl⟩
abbrev main_call6_v0 : Ref sig .tc := ⟨.hbm, 93, rfl⟩
abbrev main_call6_v1 : Ref sig .tc := ⟨.hbm, 94, rfl⟩
abbrev main_call6_c_0 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_v5 : Ref sig .tc := ⟨.hbm, 99, rfl⟩
abbrev main_call6_c_1 : Ref sig .tc := ⟨.hbm, 100, rfl⟩
abbrev main_call6_c_2 : Ref sig .tc := ⟨.hbm, 101, rfl⟩
abbrev main_call6_v6 : Ref sig .tc := ⟨.hbm, 102, rfl⟩
abbrev main_call6_v7 : Ref sig .tc := ⟨.hbm, 103, rfl⟩
abbrev main_call6_v8 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_c_3 : Ref sig .tc := ⟨.hbm, 108, rfl⟩
abbrev main_call6_v12 : Ref sig .tc := ⟨.hbm, 109, rfl⟩
abbrev main_call6_v13 : Ref sig .tc := ⟨.hbm, 110, rfl⟩
abbrev main_call6_v14 : Ref sig .tc := ⟨.hbm, 111, rfl⟩
abbrev main_call6_cst : Ref sig .tc := ⟨.hbm, 112, rfl⟩
abbrev main_call6_v15 : Ref sig .tc := ⟨.hbm, 113, rfl⟩
abbrev main_v43 : Ref sig .tc := ⟨.hbm, 114, rfl⟩
abbrev main_v44 : Ref sig .tc := ⟨.hbm, 115, rfl⟩
abbrev main_cst_14 : Ref sig .tc := ⟨.hbm, 116, rfl⟩
abbrev main_v45 : Ref sig .tc := ⟨.hbm, 117, rfl⟩
abbrev main_v46 : Ref sig .tc := ⟨.hbm, 118, rfl⟩
abbrev main_call7_cst : Ref sig .tc := ⟨.hbm, 119, rfl⟩
abbrev main_call7_v0 : Ref sig .tc := ⟨.hbm, 120, rfl⟩
abbrev main_call7_cst_0 : Ref sig .tc := ⟨.hbm, 121, rfl⟩
abbrev main_call7_v1 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_call7_v5 : Ref sig .tc := ⟨.hbm, 126, rfl⟩
abbrev main_call7_v6 : Ref sig .tc := ⟨.hbm, 127, rfl⟩
abbrev main_call7_cst_1 : Ref sig .tc := ⟨.hbm, 128, rfl⟩
abbrev main_call7_v7 : Ref sig .tc := ⟨.hbm, 129, rfl⟩
abbrev main_call7_v8 : Ref sig .tc := ⟨.hbm, 130, rfl⟩
abbrev main_call7_v9 : Ref sig .tc := ⟨.hbm, 131, rfl⟩
abbrev main_call7_v10 : Ref sig .tc := ⟨.hbm, 132, rfl⟩
abbrev main_v47 : Ref sig .tc := ⟨.hbm, 133, rfl⟩
abbrev main_v48 : Ref sig .tc := ⟨.hbm, 134, rfl⟩
abbrev main_call8_c : Ref sig .tc := ⟨.hbm, 135, rfl⟩
abbrev main_call8_v0 : Ref sig .tc := ⟨.hbm, 136, rfl⟩
abbrev main_call8_v1 : Ref sig .tc := ⟨.hbm, 137, rfl⟩
abbrev main_call8_c_0 : Ref sig .tc := ⟨.hbm, 138, rfl⟩
abbrev main_call8_v2 : Ref sig .tc := ⟨.hbm, 139, rfl⟩
abbrev main_call8_v3 : Ref sig .tc := ⟨.hbm, 140, rfl⟩
abbrev main_call8_v4 : Ref sig .tc := ⟨.hbm, 141, rfl⟩
abbrev main_call8_v5 : Ref sig .tc := ⟨.hbm, 142, rfl⟩
abbrev main_call8_c_1 : Ref sig .tc := ⟨.hbm, 143, rfl⟩
abbrev main_call8_c_2 : Ref sig .tc := ⟨.hbm, 144, rfl⟩
abbrev main_call8_v6 : Ref sig .tc := ⟨.hbm, 145, rfl⟩
abbrev main_call8_v7 : Ref sig .tc := ⟨.hbm, 146, rfl⟩
abbrev main_call8_v8 : Ref sig .tc := ⟨.hbm, 147, rfl⟩
abbrev main_call8_v9 : Ref sig .tc := ⟨.hbm, 148, rfl⟩
abbrev main_call8_v10 : Ref sig .tc := ⟨.hbm, 149, rfl⟩
abbrev main_call8_v11 : Ref sig .tc := ⟨.hbm, 150, rfl⟩
abbrev main_call8_c_3 : Ref sig .tc := ⟨.hbm, 151, rfl⟩
abbrev main_call8_v12 : Ref sig .tc := ⟨.hbm, 152, rfl⟩
abbrev main_call8_v13 : Ref sig .tc := ⟨.hbm, 153, rfl⟩
abbrev main_call8_cst : Ref sig .tc := ⟨.hbm, 154, rfl⟩
abbrev main_call8_v14 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_cst_15 : Ref sig .tc := ⟨.hbm, 160, rfl⟩
abbrev main_v53 : Ref sig .tc := ⟨.hbm, 161, rfl⟩
abbrev main_v54 : Ref sig .tc := ⟨.hbm, 162, rfl⟩
abbrev main_cst_16 : Ref sig .tc := ⟨.hbm, 163, rfl⟩
abbrev main_v55 : Ref sig .tc := ⟨.hbm, 164, rfl⟩
abbrev main_cst_17 : Ref sig .tc := ⟨.hbm, 165, rfl⟩
abbrev main_v56 : Ref sig .tc := ⟨.hbm, 166, rfl⟩
abbrev main_v57 : Ref sig .tc := ⟨.hbm, 167, rfl⟩

abbrev nD : Nat := 1
abbrev τ : Topo := Topo.v7x

variable {F : FTy → Type} [FloatOps F]

class Facts₀ : Prop where
  reducesTo_S32x256x64x64_S32x64x64_d1 : S32x256x64x64.ReducesTo [1] S32x64x64
  h_S_ : 0 < S_.numel
  bcast_S32x64x64_S32x1x64x64_0_2_3 : S32x64x64.BroadcastsInDim S32x1x64x64 (![0, 2, 3] : Fin 3 → Fin S32x1x64x64.rank)
  bcast_S_S32x1x64x64 : S_.BroadcastsInDim S32x1x64x64 (![] : Fin 0 → Fin S32x1x64x64.rank)
  bcast_S32x1x64x64_S32x256x64x64_0_1_2_3 : S32x1x64x64.BroadcastsInDim S32x256x64x64 (![0, 1, 2, 3] : Fin 4 → Fin S32x256x64x64.rank)
  shapeCasts_S32x256x64x64_S32x256x4096 : S32x256x64x64.ShapeCasts S32x256x4096
  slices_S32x64x2_S32x64x1_0_0_0 : S32x64x2.Slices ![0, 0, 0] S32x64x1
  shapeCasts_S32x64x1_S32x64 : S32x64x1.ShapeCasts S32x64
  bcast_S_S32x64 : S_.BroadcastsInDim S32x64 (![] : Fin 0 → Fin S32x64.rank)
  slices_S32x64x2_S32x64x1_0_0_1 : S32x64x2.Slices ![0, 0, 1] S32x64x1
  bcast_S32x64_S32x1x64_0_2 : S32x64.BroadcastsInDim S32x1x64 (![0, 2] : Fin 2 → Fin S32x1x64.rank)
  bcast_S_S32x1x64 : S_.BroadcastsInDim S32x1x64 (![] : Fin 0 → Fin S32x1x64.rank)
  shapeCasts_S32x1x64_S32x64x1 : S32x1x64.ShapeCasts S32x64x1
  bcast_S_S32x64x1 : S_.BroadcastsInDim S32x64x1 (![] : Fin 0 → Fin S32x64x1.rank)
  bcast_S1_S1x1x1_2 : S1.BroadcastsInDim S1x1x1 (![2] : Fin 1 → Fin S1x1x1.rank)
  bcast_S1x1x1_S32x64x1_0_1_2 : S1x1x1.BroadcastsInDim S32x64x1 (![0, 1, 2] : Fin 3 → Fin S32x64x1.rank)
  reducesTo_S32x64x1_S32x64_d2 : S32x64x1.ReducesTo [2] S32x64
  bcast_S32x64_S32x256x64_0_2 : S32x64.BroadcastsInDim S32x256x64 (![0, 2] : Fin 2 → Fin S32x256x64.rank)
  bcast_S_S32x256x64 : S_.BroadcastsInDim S32x256x64 (![] : Fin 0 → Fin S32x256x64.rank)
  bcast_S_S32x64x4096 : S_.BroadcastsInDim S32x64x4096 (![] : Fin 0 → Fin S32x64x4096.rank)
  reducesTo_S32x64x4096_S32x64_d2 : S32x64x4096.ReducesTo [2] S32x64
  bcast_S32x64_S32x64x1_0_1 : S32x64.BroadcastsInDim S32x64x1 (![0, 1] : Fin 2 → Fin S32x64x1.rank)
  bcast_S32x64x1_S32x64x4096_0_1_2 : S32x64x1.BroadcastsInDim S32x64x4096 (![0, 1, 2] : Fin 3 → Fin S32x64x4096.rank)
  shapeCasts_S32x64x1_S32x64x1x1 : S32x64x1.ShapeCasts S32x64x1x1
  bcast_S_S32x64x1x1 : S_.BroadcastsInDim S32x64x1x1 (![] : Fin 0 → Fin S32x64x1x1.rank)
  bcast_S1_S1x1x1x1_3 : S1.BroadcastsInDim S1x1x1x1 (![3] : Fin 1 → Fin S1x1x1x1.rank)
  bcast_S1x1x1x1_S32x64x1x1_0_1_2_3 : S1x1x1x1.BroadcastsInDim S32x64x1x1 (![0, 1, 2, 3] : Fin 4 → Fin S32x64x1x1.rank)
  reducesTo_S32x64x1x1_S32x64x1_d3 : S32x64x1x1.ReducesTo [3] S32x64x1
  reducesTo_S32x64_S_d0_1 : S32x64.ReducesTo [0, 1] S_
  gather_S32x256x4096_S32x64x1_S32x256x64_1_2_0_0_2_2_12561_wf : GatherDims.WF S32x256x4096 S32x64x1 S32x256x64 [1] [2] [0] [2] [0] 2 ![1, 256, 1]
  dot_S32x256x64_S32x256x4096_S32x64x4096_1_1_2_2_0_0_wf : DotDims.WF S32x256x64 S32x256x4096 S32x64x4096 [1] [1] [2] [2] [0] [0]
  gather_S32x64x4096_S32x64x1x1_S32x64x1_n_2_01_01_2_3_111_wf : GatherDims.WF S32x64x4096 S32x64x1x1 S32x64x1 [] [2] [0, 1] [2] [0, 1] 3 ![1, 1, 1]

variable [Facts₀]

def gather_S32x256x4096_S32x64x1_S32x256x64_1_2_0_0_2_2_12561 : GatherDims S32x256x4096 S32x64x1 S32x256x64 where
  offsetDims := [1]
  collapsedSliceDims := [2]
  operandBatchingDims := [0]
  startIndicesBatchingDims := [0]
  startIndexMap := [2]
  indexVectorDim := 2
  sliceSizes := ![1, 256, 1]
  wf := gather_S32x256x4096_S32x64x1_S32x256x64_1_2_0_0_2_2_12561_wf
def dot_S32x256x64_S32x256x4096_S32x64x4096_1_1_2_2_0_0 : DotDims S32x256x64 S32x256x4096 S32x64x4096 where
  lhsContracting := [1]
  rhsContracting := [1]
  lhsNonContracting := [2]
  rhsNonContracting := [2]
  lhsBatch := [0]
  rhsBatch := [0]
  wf := dot_S32x256x64_S32x256x4096_S32x64x4096_1_1_2_2_0_0_wf
def gather_S32x64x4096_S32x64x1x1_S32x64x1_n_2_01_01_2_3_111 : GatherDims S32x64x4096 S32x64x1x1 S32x64x1 where
  offsetDims := []
  collapsedSliceDims := [2]
  operandBatchingDims := [0, 1]
  startIndicesBatchingDims := [0, 1]
  startIndexMap := [2]
  indexVectorDim := 3
  sliceSizes := ![1, 1, 1]
  wf := gather_S32x64x4096_S32x64x1x1_S32x64x1_n_2_01_01_2_3_111_wf

class Facts : Prop extends Facts₀ where

variable [Facts]
-- ==== Proof.RefStages.lean ====
/-
  The reference program, one operation at a time.

  Each definition below is the value one host operation of the reference writes, as a function of the arguments it
  depends on, in program order: the two feature arrays scaled to unit channel vectors and flattened, the source and the
  target cell words, the gathered queries, the logits, their log-softmax, the gathered log-probabilities, the masked
  mean. Where a later proof reads a stage at an index, the lemma beside the stage says which entries of its operands
  that entry is made of: a layout operation reads its operand at an index computed from the literal shapes, a sum over
  one axis is the initial value plus the sum over that axis's coordinates, and the contraction of the queries with the
  target features over the channels is a sum over the 256 channels.
-/
import proofs.«121640_j13554916786246_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.RefStages

open Cert.ReferenceIdeal Cert.ReferenceIdeal.Gen Idealize.ShloMosaic Idealize.ShloMosaic.TcCoe Idealize.SL.Sem Idealize.ShloMosaic.StableHlo

variable {F : FTy → Type} [FloatOps F]

-- @norm's %0 = stablehlo.multiply %arg0, %arg0 : tensor<32x256x64x64xf32>, in %0 = func.call @norm(…) (record main_call0)
def val_main_call0_v0 (x0 : (⟨S32x256x64x64, .f32⟩ : BufTy).Contents (Elt F)) : (⟨S32x256x64x64, .f32⟩ : BufTy).Contents (Elt F) :=
  mulf (x0) (x0)
theorem val_main_call0_v0_apply (x0 : (⟨S32x256x64x64, .f32⟩ : BufTy).Contents (Elt F)) (i : S32x256x64x64.Idx) :
    val_main_call0_v0 (F := F) x0 i = FloatOps.mulf (x0 i) (x0 i) := rfl

-- @norm's %cst = stablehlo.constant dense<0.000000e+00> : tensor<f32>, in %0 = func.call @norm(…) (record main_call0)
def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

-- @norm's %1 = stablehlo.reduce(%0 init: %cst) applies stablehlo.add across dimensions = [1] : (tensor<32x256x64x64xf32>, tensor<f32>) -> tensor<32x64x64xf32> {, in %0 = func.call @norm(…) (record main_call0)
def val_main_call0_v1 (x0 : (⟨S32x256x64x64, .f32⟩ : BufTy).Contents (Elt F)) : (⟨S32x64x64, .f32⟩ : BufTy).Contents (Elt F) :=
  Host.reduceAdd (val_main_call0_v0 (F := F) x0) (val_main_call0_cst (F := F)) reducesTo_S32x256x64x64_S32x64x64_d1 h_S_
abbrev idx_main_call0_v1 (i : S32x64x64.Idx) (k : Fin 256) : S32x256x64x64.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩
/-- Stated at `F := Ideal`, where the host's float sum is this sum; at a bit-exact instance it is an opaque function of its operand. -/
theorem val_main_call0_v1_apply (x0 : (⟨S32x256x64x64, .f32⟩ : BufTy).Contents (Elt Ideal)) (i : S32x64x64.Idx) :
    val_main_call0_v1 (F := Ideal) x0 i = (val_main_call0_cst (F := Ideal)) (Shape.Idx.first h_S_) + ∑ k : Fin 256, (val_main_call0_v0 (F := Ideal) x0) (idx_main_call0_v1 i k) := by
  unfold val_main_call0_v1
  generalize val_main_call0_v0 (F := Ideal) x0 = y0
  simp only [Host.reduceAdd, Ideal.hostReduceAdd_def]
  rw [Ideal.hostReduceAdd_single reducesTo_S32x256x64x64_S32x64x64_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- @norm's %2 = stablehlo.broadcast_in_dim %1, dims = [0, 2, 3] : (tensor<32x64x64xf32>) -> tensor<32x1x64x64xf32>, in %0 = func.call @norm(…) (record main_call0)
def val_main_call0_v2 (x0 : (⟨S32x256x64x64, .f32⟩ : BufTy).Contents (Elt F)) : (⟨S32x1x64x64, .f32⟩ : BufTy).Contents (Elt F) :=
  broadcastInDim S32x1x64x64 ![0, 2, 3] bcast_S32x64x64_S32x1x64x64_0_2_3 (val_main_call0_v1 (F := F) x0)
abbrev idx_main_call0_v2 (i : S32x1x64x64.Idx) : S32x64x64.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_call0_v2_apply (x0 : (⟨S32x256x64x64, .f32⟩ : BufTy).Contents (Elt F)) (i : S32x1x64x64.Idx) :
    val_main_call0_v2 (F := F) x0 i = val_main_call0_v1 (F := F) x0 (idx_main_call0_v2 i) := by
  unfold val_main_call0_v2
  generalize val_main_call0_v1 (F := F) x0 = y
  exact broadcastInDim_apply _ bcast_S32x64x64_S32x1x64x64_0_2_3 y i (idx_main_call0_v2 i) (fun a => match a with
    | ⟨0, _⟩ => by show (i 0).val = if (32 : Nat) = 1 then 0 else (i 0).val; rw [if_neg (by decide)]
    | ⟨1, _⟩ => by show (i 2).val = if (64 : Nat) = 1 then 0 else (i 2).val; rw [if_neg (by decide)]
    | ⟨2, _⟩ => by show (i 3).val = if (64 : Nat) = 1 then 0 else (i 3).val; rw [if_neg (by decide)])

-- %0 = func.call @norm(…) (record main_call0) result 0: @norm's %3 = stablehlo.sqrt %2 : tensor<32x1x64x64xf32>
def val_main_v0 (x0 : (⟨S32x256x64x64, .f32⟩ : BufTy).Contents (Elt F)) : (⟨S32x1x64x64, .f32⟩ : BufTy).Contents (Elt F) :=
  Host.sqrt (val_main_call0_v2 (F := F) x0)
theorem val_main_v0_apply (x0 : (⟨S32x256x64x64, .f32⟩ : BufTy).Contents (Elt F)) (i : S32x1x64x64.Idx) :
    val_main_v0 (F := F) x0 i = FloatOps.hostUnary .sqrt (val_main_call0_v2 (F := F) x0 i) := rfl

-- %cst = stablehlo.constant dense<9.99999996E-13> : tensor<f32>
def val_main_cst : (⟨S_, .f32⟩ : BufTy).Contents (Elt F) :=
  constant S_ .f32 0x2B8CBCCC#32
theorem val_main_cst_apply (i : S_.Idx) :
    val_main_cst (F := F) i = FloatOps.ofBits .f32 0x2B8CBCCC#32 := rfl

-- %1 = stablehlo.broadcast_in_dim %cst, dims = [] : (tensor<f32>) -> tensor<32x1x64x64xf32>
def val_main_v1 : (⟨S32x1x64x64, .f32⟩ : BufTy).Contents (Elt F) :=
  broadcastInDim S32x1x64x64 ![] bcast_S_S32x1x64x64 (val_main_cst (F := F))
abbrev idx_main_v1 (i : S32x1x64x64.Idx) : S_.Idx := fun a => a.elim0
theorem val_main_v1_apply (i : S32x1x64x64.Idx) :
    val_main_v1 (F := F) i = val_main_cst (F := F) (idx_main_v1 i) := by
  unfold val_main_v1
  generalize val_main_cst (F := F) = y
  exact broadcastInDim_apply _ bcast_S_S32x1x64x64 y i (idx_main_v1 i) (fun a => a.elim0)

-- %2 = stablehlo.maximum %0, %1 : tensor<32x1x64x64xf32>
def val_main_v2 (x0 : (⟨S32x256x64x64, .f32⟩ : BufTy).Contents (Elt F)) : (⟨S32x1x64x64, .f32⟩ : BufTy).Contents (Elt F) :=
  maximumf (val_main_v0 (F := F) x0) (val_main_v1 (F := F))
theorem val_main_v2_apply (x0 : (⟨S32x256x64x64, .f32⟩ : BufTy).Contents (Elt F)) (i : S32x1x64x64.Idx) :
    val_main_v2 (F := F) x0 i = FloatOps.maximumf (val_main_v0 (F := F) x0 i) (val_main_v1 (F := F) i) := rfl

-- %3 = stablehlo.broadcast_in_dim %2, dims = [0, 1, 2, 3] : (tensor<32x1x64x64xf32>) -> tensor<32x256x64x64xf32>
def val_main_v3 (x0 : (⟨S32x256x64x64, .f32⟩ : BufTy).Contents (Elt F)) : (⟨S32x256x64x64, .f32⟩ : BufTy).Contents (Elt F) :=
  broadcastInDim S32x256x64x64 ![0, 1, 2, 3] bcast_S32x1x64x64_S32x256x64x64_0_1_2_3 (val_main_v2 (F := F) x0)
abbrev idx_main_v3 (i : S32x256x64x64.Idx) : S32x1x64x64.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_v3_apply (x0 : (⟨S32x256x64x64, .f32⟩ : BufTy).Contents (Elt F)) (i : S32x256x64x64.Idx) :
    val_main_v3 (F := F) x0 i = val_main_v2 (F := F) x0 (idx_main_v3 i) := by
  unfold val_main_v3
  generalize val_main_v2 (F := F) x0 = y
  exact broadcastInDim_apply _ bcast_S32x1x64x64_S32x256x64x64_0_1_2_3 y i (idx_main_v3 i) (fun a => match a with
    | ⟨0, _⟩ => by show (i 0).val = if (32 : Nat) = 1 then 0 else (i 0).val; rw [if_neg (by decide)]
    | ⟨1, _⟩ => by show 0 = if (1 : Nat) = 1 then 0 else (i 1).val; rw [if_pos rfl]
    | ⟨2, _⟩ => by show (i 2).val = if (64 : Nat) = 1 then 0 else (i 2).val; rw [if_neg (by decide)]
    | ⟨3, _⟩ => by show (i 3).val = if (64 : Nat) = 1 then 0 else (i 3).val; rw [if_neg (by decide)])

-- %4 = stablehlo.divide %arg0, %3 : tensor<32x256x64x64xf32>
def val_main_v4 (x0 : (⟨S32x256x64x64, .f32⟩ : BufTy).Contents (Elt F)) : (⟨S32x256x64x64, .f32⟩ : BufTy).Contents (Elt F) :=
  Host.divf (x0) (val_main_v3 (F := F) x0)
theorem val_main_v4_apply (x0 : (⟨S32x256x64x64, .f32⟩ : BufTy).Contents (Elt F)) (i : S32x256x64x64.Idx) :
    val_main_v4 (F := F) x0 i = FloatOps.hostDivf (x0 i) (val_main_v3 (F := F) x0 i) := rfl

-- %5 = stablehlo.reshape %4 : (tensor<32x256x64x64xf32>) -> tensor<32x256x4096xf32>
def val_main_v5 (x0 : (⟨S32x256x64x64, .f32⟩ : BufTy).Contents (Elt F)) : (⟨S32x256x4096, .f32⟩ : BufTy).Contents (Elt F) :=
  shapeCast _ (val_main_v4 (F := F) x0) shapeCasts_S32x256x64x64_S32x256x4096
abbrev idx_main_v5 (i : S32x256x4096.Idx) : S32x256x64x64.Idx := fun a => match a with
  | ⟨0, _⟩ => ⟨(((i 0).val * 256 + (i 1).val) * 4096 + (i 2).val) / 1048576, by have h0 : (i 0).val < 32 := (i 0).isLt; have h1 : (i 1).val < 256 := (i 1).isLt; have h2 : (i 2).val < 4096 := (i 2).isLt; show (((i 0).val * 256 + (i 1).val) * 4096 + (i 2).val) / 1048576 < 32; omega⟩
  | ⟨1, _⟩ => ⟨(((i 0).val * 256 + (i 1).val) * 4096 + (i 2).val) / 4096 % 256, by have h0 : (i 0).val < 32 := (i 0).isLt; have h1 : (i 1).val < 256 := (i 1).isLt; have h2 : (i 2).val < 4096 := (i 2).isLt; show (((i 0).val * 256 + (i 1).val) * 4096 + (i 2).val) / 4096 % 256 < 256; omega⟩
  | ⟨2, _⟩ => ⟨(((i 0).val * 256 + (i 1).val) * 4096 + (i 2).val) / 64 % 64, by have h0 : (i 0).val < 32 := (i 0).isLt; have h1 : (i 1).val < 256 := (i 1).isLt; have h2 : (i 2).val < 4096 := (i 2).isLt; show (((i 0).val * 256 + (i 1).val) * 4096 + (i 2).val) / 64 % 64 < 64; omega⟩
  | ⟨3, _⟩ => ⟨(((i 0).val * 256 + (i 1).val) * 4096 + (i 2).val) % 64, by have h0 : (i 0).val < 32 := (i 0).isLt; have h1 : (i 1).val < 256 := (i 1).isLt; have h2 : (i 2).val < 4096 := (i 2).isLt; show (((i 0).val * 256 + (i 1).val) * 4096 + (i 2).val) % 64 < 64; omega⟩
theorem val_main_v5_apply (x0 : (⟨S32x256x64x64, .f32⟩ : BufTy).Contents (Elt F)) (i : S32x256x4096.Idx) :
    val_main_v5 (F := F) x0 i = val_main_v4 (F := F) x0 (idx_main_v5 i) := by
  unfold val_main_v5
  generalize val_main_v4 (F := F) x0 = y
  exact shapeCast_apply y shapeCasts_S32x256x64x64_S32x256x4096 i (idx_main_v5 i)
    (by rewrite [Shape.rowMajor_val_four, Shape.rowMajor_val_three]; have h0 : (i 0).val < 32 := (i 0).isLt; have h1 : (i 1).val < 256 := (i 1).isLt; have h2 : (i 2).val < 4096 := (i 2).isLt; show (((((i 0).val * 256 + (i 1).val) * 4096 + (i 2).val) / 1048576 * 256 + (((i 0).val * 256 + (i 1).val) * 4096 + (i 2).val) / 4096 % 256) * 64 + (((i 0).val * 256 + (i 1).val) * 4096 + (i 2).val) / 64 % 64) * 64 + (((i 0).val * 256 + (i 1).val) * 4096 + (i 2).val) % 64 = ((i 0).val * 256 + (i 1).val) * 4096 + (i 2).val; omega)

-- @norm's %0 = stablehlo.multiply %arg0, %arg0 : tensor<32x256x64x64xf32>, in %6 = func.call @norm(…) (record main_call1)
def val_main_call1_v0 (x1 : (⟨S32x256x64x64, .f32⟩ : BufTy).Contents (Elt F)) : (⟨S32x256x64x64, .f32⟩ : BufTy).Contents (Elt F) :=
  mulf (x1) (x1)
theorem val_main_call1_v0_apply (x1 : (⟨S32x256x64x64, .f32⟩ : BufTy).Contents (Elt F)) (i : S32x256x64x64.Idx) :
    val_main_call1_v0 (F := F) x1 i = FloatOps.mulf (x1 i) (x1 i) := rfl

-- @norm's %cst = stablehlo.constant dense<0.000000e+00> : tensor<f32>, in %6 = func.call @norm(…) (record main_call1)
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

-- @norm's %1 = stablehlo.reduce(%0 init: %cst) applies stablehlo.add across dimensions = [1] : (tensor<32x256x64x64xf32>, tensor<f32>) -> tensor<32x64x64xf32> {, in %6 = func.call @norm(…) (record main_call1)
def val_main_call1_v1 (x1 : (⟨S32x256x64x64, .f32⟩ : BufTy).Contents (Elt F)) : (⟨S32x64x64, .f32⟩ : BufTy).Contents (Elt F) :=
  Host.reduceAdd (val_main_call1_v0 (F := F) x1) (val_main_call1_cst (F := F)) reducesTo_S32x256x64x64_S32x64x64_d1 h_S_
abbrev idx_main_call1_v1 (i : S32x64x64.Idx) (k : Fin 256) : S32x256x64x64.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩
/-- Stated at `F := Ideal`, where the host's float sum is this sum; at a bit-exact instance it is an opaque function of its operand. -/
theorem val_main_call1_v1_apply (x1 : (⟨S32x256x64x64, .f32⟩ : BufTy).Contents (Elt Ideal)) (i : S32x64x64.Idx) :
    val_main_call1_v1 (F := Ideal) x1 i = (val_main_call1_cst (F := Ideal)) (Shape.Idx.first h_S_) + ∑ k : Fin 256, (val_main_call1_v0 (F := Ideal) x1) (idx_main_call1_v1 i k) := by
  unfold val_main_call1_v1
  generalize val_main_call1_v0 (F := Ideal) x1 = y0
  simp only [Host.reduceAdd, Ideal.hostReduceAdd_def]
  rw [Ideal.hostReduceAdd_single reducesTo_S32x256x64x64_S32x64x64_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- @norm's %2 = stablehlo.broadcast_in_dim %1, dims = [0, 2, 3] : (tensor<32x64x64xf32>) -> tensor<32x1x64x64xf32>, in %6 = func.call @norm(…) (record main_call1)
def val_main_call1_v2 (x1 : (⟨S32x256x64x64, .f32⟩ : BufTy).Contents (Elt F)) : (⟨S32x1x64x64, .f32⟩ : BufTy).Contents (Elt F) :=
  broadcastInDim S32x1x64x64 ![0, 2, 3] bcast_S32x64x64_S32x1x64x64_0_2_3 (val_main_call1_v1 (F := F) x1)
abbrev idx_main_call1_v2 (i : S32x1x64x64.Idx) : S32x64x64.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_call1_v2_apply (x1 : (⟨S32x256x64x64, .f32⟩ : BufTy).Contents (Elt F)) (i : S32x1x64x64.Idx) :
    val_main_call1_v2 (F := F) x1 i = val_main_call1_v1 (F := F) x1 (idx_main_call1_v2 i) := by
  unfold val_main_call1_v2
  generalize val_main_call1_v1 (F := F) x1 = y
  exact broadcastInDim_apply _ bcast_S32x64x64_S32x1x64x64_0_2_3 y i (idx_main_call1_v2 i) (fun a => match a with
    | ⟨0, _⟩ => by show (i 0).val = if (32 : Nat) = 1 then 0 else (i 0).val; rw [if_neg (by decide)]
    | ⟨1, _⟩ => by show (i 2).val = if (64 : Nat) = 1 then 0 else (i 2).val; rw [if_neg (by decide)]
    | ⟨2, _⟩ => by show (i 3).val = if (64 : Nat) = 1 then 0 else (i 3).val; rw [if_neg (by decide)])

-- %6 = func.call @norm(…) (record main_call1) result 0: @norm's %3 = stablehlo.sqrt %2 : tensor<32x1x64x64xf32>
def val_main_v6 (x1 : (⟨S32x256x64x64, .f32⟩ : BufTy).Contents (Elt F)) : (⟨S32x1x64x64, .f32⟩ : BufTy).Contents (Elt F) :=
  Host.sqrt (val_main_call1_v2 (F := F) x1)
theorem val_main_v6_apply (x1 : (⟨S32x256x64x64, .f32⟩ : BufTy).Contents (Elt F)) (i : S32x1x64x64.Idx) :
    val_main_v6 (F := F) x1 i = FloatOps.hostUnary .sqrt (val_main_call1_v2 (F := F) x1 i) := rfl

-- %cst_0 = stablehlo.constant dense<9.99999996E-13> : tensor<f32>
def val_main_cst_0 : (⟨S_, .f32⟩ : BufTy).Contents (Elt F) :=
  constant S_ .f32 0x2B8CBCCC#32
theorem val_main_cst_0_apply (i : S_.Idx) :
    val_main_cst_0 (F := F) i = FloatOps.ofBits .f32 0x2B8CBCCC#32 := rfl

-- %7 = stablehlo.broadcast_in_dim %cst_0, dims = [] : (tensor<f32>) -> tensor<32x1x64x64xf32>
def val_main_v7 : (⟨S32x1x64x64, .f32⟩ : BufTy).Contents (Elt F) :=
  broadcastInDim S32x1x64x64 ![] bcast_S_S32x1x64x64 (val_main_cst_0 (F := F))
abbrev idx_main_v7 (i : S32x1x64x64.Idx) : S_.Idx := fun a => a.elim0
theorem val_main_v7_apply (i : S32x1x64x64.Idx) :
    val_main_v7 (F := F) i = val_main_cst_0 (F := F) (idx_main_v7 i) := by
  unfold val_main_v7
  generalize val_main_cst_0 (F := F) = y
  exact broadcastInDim_apply _ bcast_S_S32x1x64x64 y i (idx_main_v7 i) (fun a => a.elim0)

-- %8 = stablehlo.maximum %6, %7 : tensor<32x1x64x64xf32>
def val_main_v8 (x1 : (⟨S32x256x64x64, .f32⟩ : BufTy).Contents (Elt F)) : (⟨S32x1x64x64, .f32⟩ : BufTy).Contents (Elt F) :=
  maximumf (val_main_v6 (F := F) x1) (val_main_v7 (F := F))
theorem val_main_v8_apply (x1 : (⟨S32x256x64x64, .f32⟩ : BufTy).Contents (Elt F)) (i : S32x1x64x64.Idx) :
    val_main_v8 (F := F) x1 i = FloatOps.maximumf (val_main_v6 (F := F) x1 i) (val_main_v7 (F := F) i) := rfl

-- %9 = stablehlo.broadcast_in_dim %8, dims = [0, 1, 2, 3] : (tensor<32x1x64x64xf32>) -> tensor<32x256x64x64xf32>
def val_main_v9 (x1 : (⟨S32x256x64x64, .f32⟩ : BufTy).Contents (Elt F)) : (⟨S32x256x64x64, .f32⟩ : BufTy).Contents (Elt F) :=
  broadcastInDim S32x256x64x64 ![0, 1, 2, 3] bcast_S32x1x64x64_S32x256x64x64_0_1_2_3 (val_main_v8 (F := F) x1)
abbrev idx_main_v9 (i : S32x256x64x64.Idx) : S32x1x64x64.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_v9_apply (x1 : (⟨S32x256x64x64, .f32⟩ : BufTy).Contents (Elt F)) (i : S32x256x64x64.Idx) :
    val_main_v9 (F := F) x1 i = val_main_v8 (F := F) x1 (idx_main_v9 i) := by
  unfold val_main_v9
  generalize val_main_v8 (F := F) x1 = y
  exact broadcastInDim_apply _ bcast_S32x1x64x64_S32x256x64x64_0_1_2_3 y i (idx_main_v9 i) (fun a => match a with
    | ⟨0, _⟩ => by show (i 0).val = if (32 : Nat) = 1 then 0 else (i 0).val; rw [if_neg (by decide)]
    | ⟨1, _⟩ => by show 0 = if (1 : Nat) = 1 then 0 else (i 1).val; rw [if_pos rfl]
    | ⟨2, _⟩ => by show (i 2).val = if (64 : Nat) = 1 then 0 else (i 2).val; rw [if_neg (by decide)]
    | ⟨3, _⟩ => by show (i 3).val = if (64 : Nat) = 1 then 0 else (i 3).val; rw [if_neg (by decide)])

-- %10 = stablehlo.divide %arg1, %9 : tensor<32x256x64x64xf32>
def val_main_v10 (x1 : (⟨S32x256x64x64, .f32⟩ : BufTy).Contents (Elt F)) : (⟨S32x256x64x64, .f32⟩ : BufTy).Contents (Elt F) :=
  Host.divf (x1) (val_main_v9 (F := F) x1)
theorem val_main_v10_apply (x1 : (⟨S32x256x64x64, .f32⟩ : BufTy).Contents (Elt F)) (i : S32x256x64x64.Idx) :
    val_main_v10 (F := F) x1 i = FloatOps.hostDivf (x1 i) (val_main_v9 (F := F) x1 i) := rfl

-- %11 = stablehlo.reshape %10 : (tensor<32x256x64x64xf32>) -> tensor<32x256x4096xf32>
def val_main_v11 (x1 : (⟨S32x256x64x64, .f32⟩ : BufTy).Contents (Elt F)) : (⟨S32x256x4096, .f32⟩ : BufTy).Contents (Elt F) :=
  shapeCast _ (val_main_v10 (F := F) x1) shapeCasts_S32x256x64x64_S32x256x4096
abbrev idx_main_v11 (i : S32x256x4096.Idx) : S32x256x64x64.Idx := fun a => match a with
  | ⟨0, _⟩ => ⟨(((i 0).val * 256 + (i 1).val) * 4096 + (i 2).val) / 1048576, by have h0 : (i 0).val < 32 := (i 0).isLt; have h1 : (i 1).val < 256 := (i 1).isLt; have h2 : (i 2).val < 4096 := (i 2).isLt; show (((i 0).val * 256 + (i 1).val) * 4096 + (i 2).val) / 1048576 < 32; omega⟩
  | ⟨1, _⟩ => ⟨(((i 0).val * 256 + (i 1).val) * 4096 + (i 2).val) / 4096 % 256, by have h0 : (i 0).val < 32 := (i 0).isLt; have h1 : (i 1).val < 256 := (i 1).isLt; have h2 : (i 2).val < 4096 := (i 2).isLt; show (((i 0).val * 256 + (i 1).val) * 4096 + (i 2).val) / 4096 % 256 < 256; omega⟩
  | ⟨2, _⟩ => ⟨(((i 0).val * 256 + (i 1).val) * 4096 + (i 2).val) / 64 % 64, by have h0 : (i 0).val < 32 := (i 0).isLt; have h1 : (i 1).val < 256 := (i 1).isLt; have h2 : (i 2).val < 4096 := (i 2).isLt; show (((i 0).val * 256 + (i 1).val) * 4096 + (i 2).val) / 64 % 64 < 64; omega⟩
  | ⟨3, _⟩ => ⟨(((i 0).val * 256 + (i 1).val) * 4096 + (i 2).val) % 64, by have h0 : (i 0).val < 32 := (i 0).isLt; have h1 : (i 1).val < 256 := (i 1).isLt; have h2 : (i 2).val < 4096 := (i 2).isLt; show (((i 0).val * 256 + (i 1).val) * 4096 + (i 2).val) % 64 < 64; omega⟩
theorem val_main_v11_apply (x1 : (⟨S32x256x64x64, .f32⟩ : BufTy).Contents (Elt F)) (i : S32x256x4096.Idx) :
    val_main_v11 (F := F) x1 i = val_main_v10 (F := F) x1 (idx_main_v11 i) := by
  unfold val_main_v11
  generalize val_main_v10 (F := F) x1 = y
  exact shapeCast_apply y shapeCasts_S32x256x64x64_S32x256x4096 i (idx_main_v11 i)
    (by rewrite [Shape.rowMajor_val_four, Shape.rowMajor_val_three]; have h0 : (i 0).val < 32 := (i 0).isLt; have h1 : (i 1).val < 256 := (i 1).isLt; have h2 : (i 2).val < 4096 := (i 2).isLt; show (((((i 0).val * 256 + (i 1).val) * 4096 + (i 2).val) / 1048576 * 256 + (((i 0).val * 256 + (i 1).val) * 4096 + (i 2).val) / 4096 % 256) * 64 + (((i 0).val * 256 + (i 1).val) * 4096 + (i 2).val) / 64 % 64) * 64 + (((i 0).val * 256 + (i 1).val) * 4096 + (i 2).val) % 64 = ((i 0).val * 256 + (i 1).val) * 4096 + (i 2).val; omega)

-- %12 = stablehlo.slice %arg2 [0:32, 0:64, 0:1] : (tensor<32x64x2xf32>) -> tensor<32x64x1xf32>
def val_main_v12 (x2 : (⟨S32x64x2, .f32⟩ : BufTy).Contents (Elt F)) : (⟨S32x64x1, .f32⟩ : BufTy).Contents (Elt F) :=
  extractStridedSlice S32x64x1 ![0, 0, 0] (x2) slices_S32x64x2_S32x64x1_0_0_0
abbrev idx_main_v12 (i : S32x64x1.Idx) : S32x64x2.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩

-- %13 = stablehlo.reshape %12 : (tensor<32x64x1xf32>) -> tensor<32x64xf32>
def val_main_v13 (x2 : (⟨S32x64x2, .f32⟩ : BufTy).Contents (Elt F)) : (⟨S32x64, .f32⟩ : BufTy).Contents (Elt F) :=
  shapeCast _ (val_main_v12 (F := F) x2) shapeCasts_S32x64x1_S32x64
abbrev idx_main_v13 (i : S32x64.Idx) : S32x64x1.Idx := fun a => match a with
  | ⟨0, _⟩ => ⟨((i 0).val * 64 + (i 1).val) / 64, by have h0 : (i 0).val < 32 := (i 0).isLt; have h1 : (i 1).val < 64 := (i 1).isLt; show ((i 0).val * 64 + (i 1).val) / 64 < 32; omega⟩
  | ⟨1, _⟩ => ⟨((i 0).val * 64 + (i 1).val) / 1 % 64, by have h0 : (i 0).val < 32 := (i 0).isLt; have h1 : (i 1).val < 64 := (i 1).isLt; show ((i 0).val * 64 + (i 1).val) / 1 % 64 < 64; omega⟩
  | ⟨2, _⟩ => ⟨0, Nat.one_pos⟩

-- %cst_1 = stablehlo.constant dense<1.600000e+01> : tensor<f32>
def val_main_cst_1 : (⟨S_, .f32⟩ : BufTy).Contents (Elt F) :=
  constant S_ .f32 0x41800000#32

-- %14 = stablehlo.broadcast_in_dim %cst_1, dims = [] : (tensor<f32>) -> tensor<32x64xf32>
def val_main_v14 : (⟨S32x64, .f32⟩ : BufTy).Contents (Elt F) :=
  broadcastInDim S32x64 ![] bcast_S_S32x64 (val_main_cst_1 (F := F))
abbrev idx_main_v14 (i : S32x64.Idx) : S_.Idx := fun a => a.elim0

-- %15 = stablehlo.divide %13, %14 : tensor<32x64xf32>
def val_main_v15 (x2 : (⟨S32x64x2, .f32⟩ : BufTy).Contents (Elt F)) : (⟨S32x64, .f32⟩ : BufTy).Contents (Elt F) :=
  Host.divf (val_main_v13 (F := F) x2) (val_main_v14 (F := F))

-- %16 = stablehlo.convert %15 : (tensor<32x64xf32>) -> tensor<32x64xi32>
def val_main_v16 (x2 : (⟨S32x64x2, .f32⟩ : BufTy).Contents (Elt F)) : (⟨S32x64, .i32⟩ : BufTy).Contents (Elt F) :=
  fptosi 32 (val_main_v15 (F := F) x2)

-- %c = stablehlo.constant dense<0> : tensor<i32>
def val_main_c : (⟨S_, .i32⟩ : BufTy).Contents (Elt F) :=
  constantI S_ 32 0#32

-- %c_2 = stablehlo.constant dense<63> : tensor<i32>
def val_main_c_2 : (⟨S_, .i32⟩ : BufTy).Contents (Elt F) :=
  constantI S_ 32 63#32

-- @clip's %0 = stablehlo.convert %arg1 : tensor<i32>, in %17 = func.call @clip(…) (record main_call2)
def val_main_call2_v0 : (⟨S_, .i32⟩ : BufTy).Contents (Elt F) :=
  id (val_main_c (F := F))

-- @clip's %1 = stablehlo.broadcast_in_dim %0, dims = [] : (tensor<i32>) -> tensor<32x64xi32>, in %17 = func.call @clip(…) (record main_call2)
def val_main_call2_v1 : (⟨S32x64, .i32⟩ : BufTy).Contents (Elt F) :=
  broadcastInDim S32x64 ![] bcast_S_S32x64 (val_main_call2_v0 (F := F))
abbrev idx_main_call2_v1 (i : S32x64.Idx) : S_.Idx := fun a => a.elim0

-- @clip's %2 = stablehlo.maximum %1, %arg0 : tensor<32x64xi32>, in %17 = func.call @clip(…) (record main_call2)
def val_main_call2_v2 (x2 : (⟨S32x64x2, .f32⟩ : BufTy).Contents (Elt F)) : (⟨S32x64, .i32⟩ : BufTy).Contents (Elt F) :=
  maxsi (val_main_call2_v1 (F := F)) (val_main_v16 (F := F) x2)

-- @clip's %3 = stablehlo.convert %arg2 : tensor<i32>, in %17 = func.call @clip(…) (record main_call2)
def val_main_call2_v3 : (⟨S_, .i32⟩ : BufTy).Contents (Elt F) :=
  id (val_main_c_2 (F := F))

-- @clip's %4 = stablehlo.broadcast_in_dim %3, dims = [] : (tensor<i32>) -> tensor<32x64xi32>, in %17 = func.call @clip(…) (record main_call2)
def val_main_call2_v4 : (⟨S32x64, .i32⟩ : BufTy).Contents (Elt F) :=
  broadcastInDim S32x64 ![] bcast_S_S32x64 (val_main_call2_v3 (F := F))
abbrev idx_main_call2_v4 (i : S32x64.Idx) : S_.Idx := fun a => a.elim0

-- %17 = func.call @clip(…) (record main_call2) result 0: @clip's %5 = stablehlo.minimum %4, %2 : tensor<32x64xi32>
def val_main_v17 (x2 : (⟨S32x64x2, .f32⟩ : BufTy).Contents (Elt F)) : (⟨S32x64, .i32⟩ : BufTy).Contents (Elt F) :=
  minsi (val_main_call2_v4 (F := F)) (val_main_call2_v2 (F := F) x2)

-- %18 = stablehlo.slice %arg2 [0:32, 0:64, 1:2] : (tensor<32x64x2xf32>) -> tensor<32x64x1xf32>
def val_main_v18 (x2 : (⟨S32x64x2, .f32⟩ : BufTy).Contents (Elt F)) : (⟨S32x64x1, .f32⟩ : BufTy).Contents (Elt F) :=
  extractStridedSlice S32x64x1 ![0, 0, 1] (x2) slices_S32x64x2_S32x64x1_0_0_1
abbrev idx_main_v18 (i : S32x64x1.Idx) : S32x64x2.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩

-- %19 = stablehlo.reshape %18 : (tensor<32x64x1xf32>) -> tensor<32x64xf32>
def val_main_v19 (x2 : (⟨S32x64x2, .f32⟩ : BufTy).Contents (Elt F)) : (⟨S32x64, .f32⟩ : BufTy).Contents (Elt F) :=
  shapeCast _ (val_main_v18 (F := F) x2) shapeCasts_S32x64x1_S32x64
abbrev idx_main_v19 (i : S32x64.Idx) : S32x64x1.Idx := fun a => match a with
  | ⟨0, _⟩ => ⟨((i 0).val * 64 + (i 1).val) / 64, by have h0 : (i 0).val < 32 := (i 0).isLt; have h1 : (i 1).val < 64 := (i 1).isLt; show ((i 0).val * 64 + (i 1).val) / 64 < 32; omega⟩
  | ⟨1, _⟩ => ⟨((i 0).val * 64 + (i 1).val) / 1 % 64, by have h0 : (i 0).val < 32 := (i 0).isLt; have h1 : (i 1).val < 64 := (i 1).isLt; show ((i 0).val * 64 + (i 1).val) / 1 % 64 < 64; omega⟩
  | ⟨2, _⟩ => ⟨0, Nat.one_pos⟩

-- %cst_3 = stablehlo.constant dense<1.600000e+01> : tensor<f32>
def val_main_cst_3 : (⟨S_, .f32⟩ : BufTy).Contents (Elt F) :=
  constant S_ .f32 0x41800000#32

-- %20 = stablehlo.broadcast_in_dim %cst_3, dims = [] : (tensor<f32>) -> tensor<32x64xf32>
def val_main_v20 : (⟨S32x64, .f32⟩ : BufTy).Contents (Elt F) :=
  broadcastInDim S32x64 ![] bcast_S_S32x64 (val_main_cst_3 (F := F))
abbrev idx_main_v20 (i : S32x64.Idx) : S_.Idx := fun a => a.elim0

-- %21 = stablehlo.divide %19, %20 : tensor<32x64xf32>
def val_main_v21 (x2 : (⟨S32x64x2, .f32⟩ : BufTy).Contents (Elt F)) : (⟨S32x64, .f32⟩ : BufTy).Contents (Elt F) :=
  Host.divf (val_main_v19 (F := F) x2) (val_main_v20 (F := F))

-- %22 = stablehlo.convert %21 : (tensor<32x64xf32>) -> tensor<32x64xi32>
def val_main_v22 (x2 : (⟨S32x64x2, .f32⟩ : BufTy).Contents (Elt F)) : (⟨S32x64, .i32⟩ : BufTy).Contents (Elt F) :=
  fptosi 32 (val_main_v21 (F := F) x2)

-- %c_4 = stablehlo.constant dense<0> : tensor<i32>
def val_main_c_4 : (⟨S_, .i32⟩ : BufTy).Contents (Elt F) :=
  constantI S_ 32 0#32

-- %c_5 = stablehlo.constant dense<63> : tensor<i32>
def val_main_c_5 : (⟨S_, .i32⟩ : BufTy).Contents (Elt F) :=
  constantI S_ 32 63#32

-- @clip's %0 = stablehlo.convert %arg1 : tensor<i32>, in %23 = func.call @clip(…) (record main_call3)
def val_main_call3_v0 : (⟨S_, .i32⟩ : BufTy).Contents (Elt F) :=
  id (val_main_c_4 (F := F))

-- @clip's %1 = stablehlo.broadcast_in_dim %0, dims = [] : (tensor<i32>) -> tensor<32x64xi32>, in %23 = func.call @clip(…) (record main_call3)
def val_main_call3_v1 : (⟨S32x64, .i32⟩ : BufTy).Contents (Elt F) :=
  broadcastInDim S32x64 ![] bcast_S_S32x64 (val_main_call3_v0 (F := F))
abbrev idx_main_call3_v1 (i : S32x64.Idx) : S_.Idx := fun a => a.elim0

-- @clip's %2 = stablehlo.maximum %1, %arg0 : tensor<32x64xi32>, in %23 = func.call @clip(…) (record main_call3)
def val_main_call3_v2 (x2 : (⟨S32x64x2, .f32⟩ : BufTy).Contents (Elt F)) : (⟨S32x64, .i32⟩ : BufTy).Contents (Elt F) :=
  maxsi (val_main_call3_v1 (F := F)) (val_main_v22 (F := F) x2)

-- @clip's %3 = stablehlo.convert %arg2 : tensor<i32>, in %23 = func.call @clip(…) (record main_call3)
def val_main_call3_v3 : (⟨S_, .i32⟩ : BufTy).Contents (Elt F) :=
  id (val_main_c_5 (F := F))

-- @clip's %4 = stablehlo.broadcast_in_dim %3, dims = [] : (tensor<i32>) -> tensor<32x64xi32>, in %23 = func.call @clip(…) (record main_call3)
def val_main_call3_v4 : (⟨S32x64, .i32⟩ : BufTy).Contents (Elt F) :=
  broadcastInDim S32x64 ![] bcast_S_S32x64 (val_main_call3_v3 (F := F))
abbrev idx_main_call3_v4 (i : S32x64.Idx) : S_.Idx := fun a => a.elim0

-- %23 = func.call @clip(…) (record main_call3) result 0: @clip's %5 = stablehlo.minimum %4, %2 : tensor<32x64xi32>
def val_main_v23 (x2 : (⟨S32x64x2, .f32⟩ : BufTy).Contents (Elt F)) : (⟨S32x64, .i32⟩ : BufTy).Contents (Elt F) :=
  minsi (val_main_call3_v4 (F := F)) (val_main_call3_v2 (F := F) x2)

-- %c_6 = stablehlo.constant dense<64> : tensor<i32>
def val_main_c_6 : (⟨S_, .i32⟩ : BufTy).Contents (Elt F) :=
  constantI S_ 32 64#32

-- %24 = stablehlo.broadcast_in_dim %c_6, dims = [] : (tensor<i32>) -> tensor<32x64xi32>
def val_main_v24 : (⟨S32x64, .i32⟩ : BufTy).Contents (Elt F) :=
  broadcastInDim S32x64 ![] bcast_S_S32x64 (val_main_c_6 (F := F))
abbrev idx_main_v24 (i : S32x64.Idx) : S_.Idx := fun a => a.elim0

-- %25 = stablehlo.multiply %23, %24 : tensor<32x64xi32>
def val_main_v25 (x2 : (⟨S32x64x2, .f32⟩ : BufTy).Contents (Elt F)) : (⟨S32x64, .i32⟩ : BufTy).Contents (Elt F) :=
  muli (val_main_v23 (F := F) x2) (val_main_v24 (F := F))

-- %26 = stablehlo.add %25, %17 : tensor<32x64xi32>
def val_main_v26 (x2 : (⟨S32x64x2, .f32⟩ : BufTy).Contents (Elt F)) : (⟨S32x64, .i32⟩ : BufTy).Contents (Elt F) :=
  addi (val_main_v25 (F := F) x2) (val_main_v17 (F := F) x2)

-- %27 = stablehlo.slice %arg3 [0:32, 0:64, 0:1] : (tensor<32x64x2xf32>) -> tensor<32x64x1xf32>
def val_main_v27 (x3 : (⟨S32x64x2, .f32⟩ : BufTy).Contents (Elt F)) : (⟨S32x64x1, .f32⟩ : BufTy).Contents (Elt F) :=
  extractStridedSlice S32x64x1 ![0, 0, 0] (x3) slices_S32x64x2_S32x64x1_0_0_0
abbrev idx_main_v27 (i : S32x64x1.Idx) : S32x64x2.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩

-- %28 = stablehlo.reshape %27 : (tensor<32x64x1xf32>) -> tensor<32x64xf32>
def val_main_v28 (x3 : (⟨S32x64x2, .f32⟩ : BufTy).Contents (Elt F)) : (⟨S32x64, .f32⟩ : BufTy).Contents (Elt F) :=
  shapeCast _ (val_main_v27 (F := F) x3) shapeCasts_S32x64x1_S32x64
abbrev idx_main_v28 (i : S32x64.Idx) : S32x64x1.Idx := fun a => match a with
  | ⟨0, _⟩ => ⟨((i 0).val * 64 + (i 1).val) / 64, by have h0 : (i 0).val < 32 := (i 0).isLt; have h1 : (i 1).val < 64 := (i 1).isLt; show ((i 0).val * 64 + (i 1).val) / 64 < 32; omega⟩
  | ⟨1, _⟩ => ⟨((i 0).val * 64 + (i 1).val) / 1 % 64, by have h0 : (i 0).val < 32 := (i 0).isLt; have h1 : (i 1).val < 64 := (i 1).isLt; show ((i 0).val * 64 + (i 1).val) / 1 % 64 < 64; omega⟩
  | ⟨2, _⟩ => ⟨0, Nat.one_pos⟩

-- %cst_7 = stablehlo.constant dense<1.600000e+01> : tensor<f32>
def val_main_cst_7 : (⟨S_, .f32⟩ : BufTy).Contents (Elt F) :=
  constant S_ .f32 0x41800000#32

-- %29 = stablehlo.broadcast_in_dim %cst_7, dims = [] : (tensor<f32>) -> tensor<32x64xf32>
def val_main_v29 : (⟨S32x64, .f32⟩ : BufTy).Contents (Elt F) :=
  broadcastInDim S32x64 ![] bcast_S_S32x64 (val_main_cst_7 (F := F))
abbrev idx_main_v29 (i : S32x64.Idx) : S_.Idx := fun a => a.elim0

-- %30 = stablehlo.divide %28, %29 : tensor<32x64xf32>
def val_main_v30 (x3 : (⟨S32x64x2, .f32⟩ : BufTy).Contents (Elt F)) : (⟨S32x64, .f32⟩ : BufTy).Contents (Elt F) :=
  Host.divf (val_main_v28 (F := F) x3) (val_main_v29 (F := F))

-- %31 = stablehlo.convert %30 : (tensor<32x64xf32>) -> tensor<32x64xi32>
def val_main_v31 (x3 : (⟨S32x64x2, .f32⟩ : BufTy).Contents (Elt F)) : (⟨S32x64, .i32⟩ : BufTy).Contents (Elt F) :=
  fptosi 32 (val_main_v30 (F := F) x3)

-- %c_8 = stablehlo.constant dense<0> : tensor<i32>
def val_main_c_8 : (⟨S_, .i32⟩ : BufTy).Contents (Elt F) :=
  constantI S_ 32 0#32

-- %c_9 = stablehlo.constant dense<63> : tensor<i32>
def val_main_c_9 : (⟨S_, .i32⟩ : BufTy).Contents (Elt F) :=
  constantI S_ 32 63#32

-- @clip's %0 = stablehlo.convert %arg1 : tensor<i32>, in %32 = func.call @clip(…) (record main_call4)
def val_main_call4_v0 : (⟨S_, .i32⟩ : BufTy).Contents (Elt F) :=
  id (val_main_c_8 (F := F))

-- @clip's %1 = stablehlo.broadcast_in_dim %0, dims = [] : (tensor<i32>) -> tensor<32x64xi32>, in %32 = func.call @clip(…) (record main_call4)
def val_main_call4_v1 : (⟨S32x64, .i32⟩ : BufTy).Contents (Elt F) :=
  broadcastInDim S32x64 ![] bcast_S_S32x64 (val_main_call4_v0 (F := F))
abbrev idx_main_call4_v1 (i : S32x64.Idx) : S_.Idx := fun a => a.elim0

-- @clip's %2 = stablehlo.maximum %1, %arg0 : tensor<32x64xi32>, in %32 = func.call @clip(…) (record main_call4)
def val_main_call4_v2 (x3 : (⟨S32x64x2, .f32⟩ : BufTy).Contents (Elt F)) : (⟨S32x64, .i32⟩ : BufTy).Contents (Elt F) :=
  maxsi (val_main_call4_v1 (F := F)) (val_main_v31 (F := F) x3)

-- @clip's %3 = stablehlo.convert %arg2 : tensor<i32>, in %32 = func.call @clip(…) (record main_call4)
def val_main_call4_v3 : (⟨S_, .i32⟩ : BufTy).Contents (Elt F) :=
  id (val_main_c_9 (F := F))

-- @clip's %4 = stablehlo.broadcast_in_dim %3, dims = [] : (tensor<i32>) -> tensor<32x64xi32>, in %32 = func.call @clip(…) (record main_call4)
def val_main_call4_v4 : (⟨S32x64, .i32⟩ : BufTy).Contents (Elt F) :=
  broadcastInDim S32x64 ![] bcast_S_S32x64 (val_main_call4_v3 (F := F))
abbrev idx_main_call4_v4 (i : S32x64.Idx) : S_.Idx := fun a => a.elim0

-- %32 = func.call @clip(…) (record main_call4) result 0: @clip's %5 = stablehlo.minimum %4, %2 : tensor<32x64xi32>
def val_main_v32 (x3 : (⟨S32x64x2, .f32⟩ : BufTy).Contents (Elt F)) : (⟨S32x64, .i32⟩ : BufTy).Contents (Elt F) :=
  minsi (val_main_call4_v4 (F := F)) (val_main_call4_v2 (F := F) x3)

-- %33 = stablehlo.slice %arg3 [0:32, 0:64, 1:2] : (tensor<32x64x2xf32>) -> tensor<32x64x1xf32>
def val_main_v33 (x3 : (⟨S32x64x2, .f32⟩ : BufTy).Contents (Elt F)) : (⟨S32x64x1, .f32⟩ : BufTy).Contents (Elt F) :=
  extractStridedSlice S32x64x1 ![0, 0, 1] (x3) slices_S32x64x2_S32x64x1_0_0_1
abbrev idx_main_v33 (i : S32x64x1.Idx) : S32x64x2.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩

-- %34 = stablehlo.reshape %33 : (tensor<32x64x1xf32>) -> tensor<32x64xf32>
def val_main_v34 (x3 : (⟨S32x64x2, .f32⟩ : BufTy).Contents (Elt F)) : (⟨S32x64, .f32⟩ : BufTy).Contents (Elt F) :=
  shapeCast _ (val_main_v33 (F := F) x3) shapeCasts_S32x64x1_S32x64
abbrev idx_main_v34 (i : S32x64.Idx) : S32x64x1.Idx := fun a => match a with
  | ⟨0, _⟩ => ⟨((i 0).val * 64 + (i 1).val) / 64, by have h0 : (i 0).val < 32 := (i 0).isLt; have h1 : (i 1).val < 64 := (i 1).isLt; show ((i 0).val * 64 + (i 1).val) / 64 < 32; omega⟩
  | ⟨1, _⟩ => ⟨((i 0).val * 64 + (i 1).val) / 1 % 64, by have h0 : (i 0).val < 32 := (i 0).isLt; have h1 : (i 1).val < 64 := (i 1).isLt; show ((i 0).val * 64 + (i 1).val) / 1 % 64 < 64; omega⟩
  | ⟨2, _⟩ => ⟨0, Nat.one_pos⟩

-- %cst_10 = stablehlo.constant dense<1.600000e+01> : tensor<f32>
def val_main_cst_10 : (⟨S_, .f32⟩ : BufTy).Contents (Elt F) :=
  constant S_ .f32 0x41800000#32

-- %35 = stablehlo.broadcast_in_dim %cst_10, dims = [] : (tensor<f32>) -> tensor<32x64xf32>
def val_main_v35 : (⟨S32x64, .f32⟩ : BufTy).Contents (Elt F) :=
  broadcastInDim S32x64 ![] bcast_S_S32x64 (val_main_cst_10 (F := F))
abbrev idx_main_v35 (i : S32x64.Idx) : S_.Idx := fun a => a.elim0

-- %36 = stablehlo.divide %34, %35 : tensor<32x64xf32>
def val_main_v36 (x3 : (⟨S32x64x2, .f32⟩ : BufTy).Contents (Elt F)) : (⟨S32x64, .f32⟩ : BufTy).Contents (Elt F) :=
  Host.divf (val_main_v34 (F := F) x3) (val_main_v35 (F := F))

-- %37 = stablehlo.convert %36 : (tensor<32x64xf32>) -> tensor<32x64xi32>
def val_main_v37 (x3 : (⟨S32x64x2, .f32⟩ : BufTy).Contents (Elt F)) : (⟨S32x64, .i32⟩ : BufTy).Contents (Elt F) :=
  fptosi 32 (val_main_v36 (F := F) x3)

-- %c_11 = stablehlo.constant dense<0> : tensor<i32>
def val_main_c_11 : (⟨S_, .i32⟩ : BufTy).Contents (Elt F) :=
  constantI S_ 32 0#32

-- %c_12 = stablehlo.constant dense<63> : tensor<i32>
def val_main_c_12 : (⟨S_, .i32⟩ : BufTy).Contents (Elt F) :=
  constantI S_ 32 63#32

-- @clip's %0 = stablehlo.convert %arg1 : tensor<i32>, in %38 = func.call @clip(…) (record main_call5)
def val_main_call5_v0 : (⟨S_, .i32⟩ : BufTy).Contents (Elt F) :=
  id (val_main_c_11 (F := F))

-- @clip's %1 = stablehlo.broadcast_in_dim %0, dims = [] : (tensor<i32>) -> tensor<32x64xi32>, in %38 = func.call @clip(…) (record main_call5)
def val_main_call5_v1 : (⟨S32x64, .i32⟩ : BufTy).Contents (Elt F) :=
  broadcastInDim S32x64 ![] bcast_S_S32x64 (val_main_call5_v0 (F := F))
abbrev idx_main_call5_v1 (i : S32x64.Idx) : S_.Idx := fun a => a.elim0

-- @clip's %2 = stablehlo.maximum %1, %arg0 : tensor<32x64xi32>, in %38 = func.call @clip(…) (record main_call5)
def val_main_call5_v2 (x3 : (⟨S32x64x2, .f32⟩ : BufTy).Contents (Elt F)) : (⟨S32x64, .i32⟩ : BufTy).Contents (Elt F) :=
  maxsi (val_main_call5_v1 (F := F)) (val_main_v37 (F := F) x3)

-- @clip's %3 = stablehlo.convert %arg2 : tensor<i32>, in %38 = func.call @clip(…) (record main_call5)
def val_main_call5_v3 : (⟨S_, .i32⟩ : BufTy).Contents (Elt F) :=
  id (val_main_c_12 (F := F))

-- @clip's %4 = stablehlo.broadcast_in_dim %3, dims = [] : (tensor<i32>) -> tensor<32x64xi32>, in %38 = func.call @clip(…) (record main_call5)
def val_main_call5_v4 : (⟨S32x64, .i32⟩ : BufTy).Contents (Elt F) :=
  broadcastInDim S32x64 ![] bcast_S_S32x64 (val_main_call5_v3 (F := F))
abbrev idx_main_call5_v4 (i : S32x64.Idx) : S_.Idx := fun a => a.elim0

-- %38 = func.call @clip(…) (record main_call5) result 0: @clip's %5 = stablehlo.minimum %4, %2 : tensor<32x64xi32>
def val_main_v38 (x3 : (⟨S32x64x2, .f32⟩ : BufTy).Contents (Elt F)) : (⟨S32x64, .i32⟩ : BufTy).Contents (Elt F) :=
  minsi (val_main_call5_v4 (F := F)) (val_main_call5_v2 (F := F) x3)

-- %c_13 = stablehlo.constant dense<64> : tensor<i32>
def val_main_c_13 : (⟨S_, .i32⟩ : BufTy).Contents (Elt F) :=
  constantI S_ 32 64#32

-- %39 = stablehlo.broadcast_in_dim %c_13, dims = [] : (tensor<i32>) -> tensor<32x64xi32>
def val_main_v39 : (⟨S32x64, .i32⟩ : BufTy).Contents (Elt F) :=
  broadcastInDim S32x64 ![] bcast_S_S32x64 (val_main_c_13 (F := F))
abbrev idx_main_v39 (i : S32x64.Idx) : S_.Idx := fun a => a.elim0

-- %40 = stablehlo.multiply %38, %39 : tensor<32x64xi32>
def val_main_v40 (x3 : (⟨S32x64x2, .f32⟩ : BufTy).Contents (Elt F)) : (⟨S32x64, .i32⟩ : BufTy).Contents (Elt F) :=
  muli (val_main_v38 (F := F) x3) (val_main_v39 (F := F))

-- %41 = stablehlo.add %40, %32 : tensor<32x64xi32>
def val_main_v41 (x3 : (⟨S32x64x2, .f32⟩ : BufTy).Contents (Elt F)) : (⟨S32x64, .i32⟩ : BufTy).Contents (Elt F) :=
  addi (val_main_v40 (F := F) x3) (val_main_v32 (F := F) x3)

-- %42 = stablehlo.broadcast_in_dim %26, dims = [0, 2] : (tensor<32x64xi32>) -> tensor<32x1x64xi32>
def val_main_v42 (x2 : (⟨S32x64x2, .f32⟩ : BufTy).Contents (Elt F)) : (⟨S32x1x64, .i32⟩ : BufTy).Contents (Elt F) :=
  broadcastInDim S32x1x64 ![0, 2] bcast_S32x64_S32x1x64_0_2 (val_main_v26 (F := F) x2)
abbrev idx_main_v42 (i : S32x1x64.Idx) : S32x64.Idx := fun a => match a with
  | ⟨0, _⟩ => ⟨(i 0).val, (i 0).isLt⟩
  | ⟨1, _⟩ => ⟨(i 2).val, (i 2).isLt⟩
theorem val_main_v42_apply (x2 : (⟨S32x64x2, .f32⟩ : BufTy).Contents (Elt F)) (i : S32x1x64.Idx) :
    val_main_v42 (F := F) x2 i = val_main_v26 (F := F) x2 (idx_main_v42 i) := by
  unfold val_main_v42
  generalize val_main_v26 (F := F) x2 = y
  exact broadcastInDim_apply _ bcast_S32x64_S32x1x64_0_2 y i (idx_main_v42 i) (fun a => match a with
    | ⟨0, _⟩ => by show (i 0).val = if (32 : Nat) = 1 then 0 else (i 0).val; rw [if_neg (by decide)]
    | ⟨1, _⟩ => by show (i 2).val = if (64 : Nat) = 1 then 0 else (i 2).val; rw [if_neg (by decide)])

-- @take_along_axis's %c = stablehlo.constant dense<0> : tensor<i32>, in %43 = func.call @take_along_axis(…) (record main_call6)
def val_main_call6_c : (⟨S_, .i32⟩ : BufTy).Contents (Elt F) :=
  constantI S_ 32 0#32
theorem val_main_call6_c_apply (i : S_.Idx) :
    val_main_call6_c (F := F) i = 0#32 := rfl

-- @take_along_axis's %0 = stablehlo.broadcast_in_dim %c, dims = [] : (tensor<i32>) -> tensor<32x1x64xi32>, in %43 = func.call @take_along_axis(…) (record main_call6)
def val_main_call6_v0 : (⟨S32x1x64, .i32⟩ : BufTy).Contents (Elt F) :=
  broadcastInDim S32x1x64 ![] bcast_S_S32x1x64 (val_main_call6_c (F := F))
abbrev idx_main_call6_v0 (i : S32x1x64.Idx) : S_.Idx := fun a => a.elim0
theorem val_main_call6_v0_apply (i : S32x1x64.Idx) :
    val_main_call6_v0 (F := F) i = val_main_call6_c (F := F) (idx_main_call6_v0 i) := by
  unfold val_main_call6_v0
  generalize val_main_call6_c (F := F) = y
  exact broadcastInDim_apply _ bcast_S_S32x1x64 y i (idx_main_call6_v0 i) (fun a => a.elim0)

-- @take_along_axis's %1 = stablehlo.compare LT, %arg1, %0, SIGNED : (tensor<32x1x64xi32>, tensor<32x1x64xi32>) -> tensor<32x1x64xi1>, in %43 = func.call @take_along_axis(…) (record main_call6)
def val_main_call6_v1 (x2 : (⟨S32x64x2, .f32⟩ : BufTy).Contents (Elt F)) : (⟨S32x1x64, .i1⟩ : BufTy).Contents (Elt F) :=
  cmpi .slt (val_main_v42 (F := F) x2) (val_main_call6_v0 (F := F))
theorem val_main_call6_v1_apply (x2 : (⟨S32x64x2, .f32⟩ : BufTy).Contents (Elt F)) (i : S32x1x64.Idx) :
    val_main_call6_v1 (F := F) x2 i = IntOp.cmpi .slt (val_main_v42 (F := F) x2 i) (val_main_call6_v0 (F := F) i) := rfl

-- @take_along_axis's %c_0 = stablehlo.constant dense<4096> : tensor<i32>, in %43 = func.call @take_along_axis(…) (record main_call6)
def val_main_call6_c_0 : (⟨S_, .i32⟩ : BufTy).Contents (Elt F) :=
  constantI S_ 32 4096#32

-- @take_along_axis's %2 = stablehlo.broadcast_in_dim %c_0, dims = [] : (tensor<i32>) -> tensor<32x1x64xi32>, in %43 = func.call @take_along_axis(…) (record main_call6)
def val_main_call6_v2 : (⟨S32x1x64, .i32⟩ : BufTy).Contents (Elt F) :=
  broadcastInDim S32x1x64 ![] bcast_S_S32x1x64 (val_main_call6_c_0 (F := F))
abbrev idx_main_call6_v2 (i : S32x1x64.Idx) : S_.Idx := fun a => a.elim0

-- @take_along_axis's %3 = stablehlo.add %arg1, %2 : tensor<32x1x64xi32>, in %43 = func.call @take_along_axis(…) (record main_call6)
def val_main_call6_v3 (x2 : (⟨S32x64x2, .f32⟩ : BufTy).Contents (Elt F)) : (⟨S32x1x64, .i32⟩ : BufTy).Contents (Elt F) :=
  addi (val_main_v42 (F := F) x2) (val_main_call6_v2 (F := F))

-- @take_along_axis's %4 = stablehlo.select %1, %3, %arg1 : tensor<32x1x64xi1>, tensor<32x1x64xi32>, in %43 = func.call @take_along_axis(…) (record main_call6)
def val_main_call6_v4 (x2 : (⟨S32x64x2, .f32⟩ : BufTy).Contents (Elt F)) : (⟨S32x1x64, .i32⟩ : BufTy).Contents (Elt F) :=
  select (val_main_call6_v1 (F := F) x2) (val_main_call6_v3 (F := F) x2) (val_main_v42 (F := F) x2)
theorem val_main_call6_v4_apply (x2 : (⟨S32x64x2, .f32⟩ : BufTy).Contents (Elt F)) (i : S32x1x64.Idx) :
    val_main_call6_v4 (F := F) x2 i = Scalar.select (val_main_call6_v1 (F := F) x2 i) (val_main_call6_v3 (F := F) x2 i) (val_main_v42 (F := F) x2 i) := rfl

-- @take_along_axis's %5 = stablehlo.reshape %4 : (tensor<32x1x64xi32>) -> tensor<32x64x1xi32>, in %43 = func.call @take_along_axis(…) (record main_call6)
def val_main_call6_v5 (x2 : (⟨S32x64x2, .f32⟩ : BufTy).Contents (Elt F)) : (⟨S32x64x1, .i32⟩ : BufTy).Contents (Elt F) :=
  shapeCast _ (val_main_call6_v4 (F := F) x2) shapeCasts_S32x1x64_S32x64x1
abbrev idx_main_call6_v5 (i : S32x64x1.Idx) : S32x1x64.Idx := fun a => match a with
  | ⟨0, _⟩ => ⟨(((i 0).val * 64 + (i 1).val) * 1 + (i 2).val) / 64, by have h0 : (i 0).val < 32 := (i 0).isLt; have h1 : (i 1).val < 64 := (i 1).isLt; have h2 : (i 2).val < 1 := (i 2).isLt; show (((i 0).val * 64 + (i 1).val) * 1 + (i 2).val) / 64 < 32; omega⟩
  | ⟨1, _⟩ => ⟨0, Nat.one_pos⟩
  | ⟨2, _⟩ => ⟨(((i 0).val * 64 + (i 1).val) * 1 + (i 2).val) % 64, by have h0 : (i 0).val < 32 := (i 0).isLt; have h1 : (i 1).val < 64 := (i 1).isLt; have h2 : (i 2).val < 1 := (i 2).isLt; show (((i 0).val * 64 + (i 1).val) * 1 + (i 2).val) % 64 < 64; omega⟩
theorem val_main_call6_v5_apply (x2 : (⟨S32x64x2, .f32⟩ : BufTy).Contents (Elt F)) (i : S32x64x1.Idx) :
    val_main_call6_v5 (F := F) x2 i = val_main_call6_v4 (F := F) x2 (idx_main_call6_v5 i) := by
  unfold val_main_call6_v5
  generalize val_main_call6_v4 (F := F) x2 = y
  exact shapeCast_apply y shapeCasts_S32x1x64_S32x64x1 i (idx_main_call6_v5 i)
    (by rewrite [Shape.rowMajor_val_three, Shape.rowMajor_val_three]; have h0 : (i 0).val < 32 := (i 0).isLt; have h1 : (i 1).val < 64 := (i 1).isLt; have h2 : (i 2).val < 1 := (i 2).isLt; show ((((i 0).val * 64 + (i 1).val) * 1 + (i 2).val) / 64 * 1 + 0) * 64 + (((i 0).val * 64 + (i 1).val) * 1 + (i 2).val) % 64 = ((i 0).val * 64 + (i 1).val) * 1 + (i 2).val; omega)

-- @take_along_axis's %c_1 = stablehlo.constant dense<4095> : tensor<1xi32>, in %43 = func.call @take_along_axis(…) (record main_call6)
def val_main_call6_c_1 : (⟨S1, .i32⟩ : BufTy).Contents (Elt F) :=
  constantI S1 32 4095#32
theorem val_main_call6_c_1_apply (i : S1.Idx) :
    val_main_call6_c_1 (F := F) i = 4095#32 := rfl

-- @take_along_axis's %c_2 = stablehlo.constant dense<0> : tensor<i32>, in %43 = func.call @take_along_axis(…) (record main_call6)
def val_main_call6_c_2 : (⟨S_, .i32⟩ : BufTy).Contents (Elt F) :=
  constantI S_ 32 0#32
theorem val_main_call6_c_2_apply (i : S_.Idx) :
    val_main_call6_c_2 (F := F) i = 0#32 := rfl

-- @take_along_axis's %6 = stablehlo.broadcast_in_dim %c_2, dims = [] : (tensor<i32>) -> tensor<32x64x1xi32>, in %43 = func.call @take_along_axis(…) (record main_call6)
def val_main_call6_v6 : (⟨S32x64x1, .i32⟩ : BufTy).Contents (Elt F) :=
  broadcastInDim S32x64x1 ![] bcast_S_S32x64x1 (val_main_call6_c_2 (F := F))
abbrev idx_main_call6_v6 (i : S32x64x1.Idx) : S_.Idx := fun a => a.elim0
theorem val_main_call6_v6_apply (i : S32x64x1.Idx) :
    val_main_call6_v6 (F := F) i = val_main_call6_c_2 (F := F) (idx_main_call6_v6 i) := by
  unfold val_main_call6_v6
  generalize val_main_call6_c_2 (F := F) = y
  exact broadcastInDim_apply _ bcast_S_S32x64x1 y i (idx_main_call6_v6 i) (fun a => a.elim0)

-- @take_along_axis's %7 = stablehlo.compare GE, %5, %6, SIGNED : (tensor<32x64x1xi32>, tensor<32x64x1xi32>) -> tensor<32x64x1xi1>, in %43 = func.call @take_along_axis(…) (record main_call6)
def val_main_call6_v7 (x2 : (⟨S32x64x2, .f32⟩ : BufTy).Contents (Elt F)) : (⟨S32x64x1, .i1⟩ : BufTy).Contents (Elt F) :=
  cmpi .sge (val_main_call6_v5 (F := F) x2) (val_main_call6_v6 (F := F))
theorem val_main_call6_v7_apply (x2 : (⟨S32x64x2, .f32⟩ : BufTy).Contents (Elt F)) (i : S32x64x1.Idx) :
    val_main_call6_v7 (F := F) x2 i = IntOp.cmpi .sge (val_main_call6_v5 (F := F) x2 i) (val_main_call6_v6 (F := F) i) := rfl

-- @take_along_axis's %8 = stablehlo.broadcast_in_dim %c_1, dims = [2] : (tensor<1xi32>) -> tensor<1x1x1xi32>, in %43 = func.call @take_along_axis(…) (record main_call6)
def val_main_call6_v8 : (⟨S1x1x1, .i32⟩ : BufTy).Contents (Elt F) :=
  broadcastInDim S1x1x1 ![2] bcast_S1_S1x1x1_2 (val_main_call6_c_1 (F := F))
abbrev idx_main_call6_v8 (i : S1x1x1.Idx) : S1.Idx := fun a => match a with
  | ⟨0, _⟩ => ⟨0, Nat.one_pos⟩
theorem val_main_call6_v8_apply (i : S1x1x1.Idx) :
    val_main_call6_v8 (F := F) i = val_main_call6_c_1 (F := F) (idx_main_call6_v8 i) := by
  unfold val_main_call6_v8
  generalize val_main_call6_c_1 (F := F) = y
  exact broadcastInDim_apply _ bcast_S1_S1x1x1_2 y i (idx_main_call6_v8 i) (fun a => match a with
    | ⟨0, _⟩ => by show 0 = if (1 : Nat) = 1 then 0 else (i 2).val; rw [if_pos rfl])

-- @take_along_axis's %9 = stablehlo.broadcast_in_dim %8, dims = [0, 1, 2] : (tensor<1x1x1xi32>) -> tensor<32x64x1xi32>, in %43 = func.call @take_along_axis(…) (record main_call6)
def val_main_call6_v9 : (⟨S32x64x1, .i32⟩ : BufTy).Contents (Elt F) :=
  broadcastInDim S32x64x1 ![0, 1, 2] bcast_S1x1x1_S32x64x1_0_1_2 (val_main_call6_v8 (F := F))
abbrev idx_main_call6_v9 (i : S32x64x1.Idx) : S1x1x1.Idx := fun a => match a with
  | ⟨0, _⟩ => ⟨0, Nat.one_pos⟩
  | ⟨1, _⟩ => ⟨0, Nat.one_pos⟩
  | ⟨2, _⟩ => ⟨0, Nat.one_pos⟩
theorem val_main_call6_v9_apply (i : S32x64x1.Idx) :
    val_main_call6_v9 (F := F) i = val_main_call6_v8 (F := F) (idx_main_call6_v9 i) := by
  unfold val_main_call6_v9
  generalize val_main_call6_v8 (F := F) = y
  exact broadcastInDim_apply _ bcast_S1x1x1_S32x64x1_0_1_2 y i (idx_main_call6_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

-- @take_along_axis's %10 = stablehlo.compare LE, %5, %9, SIGNED : (tensor<32x64x1xi32>, tensor<32x64x1xi32>) -> tensor<32x64x1xi1>, in %43 = func.call @take_along_axis(…) (record main_call6)
def val_main_call6_v10 (x2 : (⟨S32x64x2, .f32⟩ : BufTy).Contents (Elt F)) : (⟨S32x64x1, .i1⟩ : BufTy).Contents (Elt F) :=
  cmpi .sle (val_main_call6_v5 (F := F) x2) (val_main_call6_v9 (F := F))
theorem val_main_call6_v10_apply (x2 : (⟨S32x64x2, .f32⟩ : BufTy).Contents (Elt F)) (i : S32x64x1.Idx) :
    val_main_call6_v10 (F := F) x2 i = IntOp.cmpi .sle (val_main_call6_v5 (F := F) x2 i) (val_main_call6_v9 (F := F) i) := rfl

-- @take_along_axis's %11 = stablehlo.and %7, %10 : tensor<32x64x1xi1>, in %43 = func.call @take_along_axis(…) (record main_call6)
def val_main_call6_v11 (x2 : (⟨S32x64x2, .f32⟩ : BufTy).Contents (Elt F)) : (⟨S32x64x1, .i1⟩ : BufTy).Contents (Elt F) :=
  andi (val_main_call6_v7 (F := F) x2) (val_main_call6_v10 (F := F) x2)
theorem val_main_call6_v11_apply (x2 : (⟨S32x64x2, .f32⟩ : BufTy).Contents (Elt F)) (i : S32x64x1.Idx) :
    val_main_call6_v11 (F := F) x2 i = IntOp.andi (val_main_call6_v7 (F := F) x2 i) (val_main_call6_v10 (F := F) x2 i) := rfl

-- @take_along_axis's %c_3 = stablehlo.constant dense<true> : tensor<i1>, in %43 = func.call @take_along_axis(…) (record main_call6)
def val_main_call6_c_3 : (⟨S_, .i1⟩ : BufTy).Contents (Elt F) :=
  constantI S_ 1 1#1

-- @take_along_axis's %12 = stablehlo.reduce(%11 init: %c_3) applies stablehlo.and across dimensions = [2] : (tensor<32x64x1xi1>, tensor<i1>) -> tensor<32x64xi1> {, in %43 = func.call @take_along_axis(…) (record main_call6)
def val_main_call6_v12 (x2 : (⟨S32x64x2, .f32⟩ : BufTy).Contents (Elt F)) : (⟨S32x64, .i1⟩ : BufTy).Contents (Elt F) :=
  Host.reduce IntOp.andi (val_main_call6_v11 (F := F) x2) (val_main_call6_c_3 (F := F)) reducesTo_S32x64x1_S32x64_d2 h_S_

-- @take_along_axis's %13 = "stablehlo.gather"(%arg0, %5) <{dimension_numbers = #stablehlo.gather<offset_dims = [1], collapsed_slice_dims = [2], operand_batching_dims = [0], start_indices_batching_dims = [0], start_index_map = [2], index_vector_dim = 2>, indices_are_sorted = false, slice_sizes = array<i64: 1, 256, 1>}> : (tensor<32x256x4096xf32>, tensor<32x64x1xi32>) -> tensor<32x256x64xf32>, in %43 = func.call @take_along_axis(…) (record main_call6)
def val_main_call6_v13 (x0 : (⟨S32x256x64x64, .f32⟩ : BufTy).Contents (Elt F)) (x2 : (⟨S32x64x2, .f32⟩ : BufTy).Contents (Elt F)) : (⟨S32x256x64, .f32⟩ : BufTy).Contents (Elt F) :=
  Host.gather gather_S32x256x4096_S32x64x1_S32x256x64_1_2_0_0_2_2_12561 (val_main_v5 (F := F) x0) (val_main_call6_v5 (F := F) x2)

-- @take_along_axis's %14 = stablehlo.broadcast_in_dim %12, dims = [0, 2] : (tensor<32x64xi1>) -> tensor<32x256x64xi1>, in %43 = func.call @take_along_axis(…) (record main_call6)
def val_main_call6_v14 (x2 : (⟨S32x64x2, .f32⟩ : BufTy).Contents (Elt F)) : (⟨S32x256x64, .i1⟩ : BufTy).Contents (Elt F) :=
  broadcastInDim S32x256x64 ![0, 2] bcast_S32x64_S32x256x64_0_2 (val_main_call6_v12 (F := F) x2)
abbrev idx_main_call6_v14 (i : S32x256x64.Idx) : S32x64.Idx := fun a => match a with
  | ⟨0, _⟩ => ⟨(i 0).val, (i 0).isLt⟩
  | ⟨1, _⟩ => ⟨(i 2).val, (i 2).isLt⟩
theorem val_main_call6_v14_apply (x2 : (⟨S32x64x2, .f32⟩ : BufTy).Contents (Elt F)) (i : S32x256x64.Idx) :
    val_main_call6_v14 (F := F) x2 i = val_main_call6_v12 (F := F) x2 (idx_main_call6_v14 i) := by
  unfold val_main_call6_v14
  generalize val_main_call6_v12 (F := F) x2 = y
  exact broadcastInDim_apply _ bcast_S32x64_S32x256x64_0_2 y i (idx_main_call6_v14 i) (fun a => match a with
    | ⟨0, _⟩ => by show (i 0).val = if (32 : Nat) = 1 then 0 else (i 0).val; rw [if_neg (by decide)]
    | ⟨1, _⟩ => by show (i 2).val = if (64 : Nat) = 1 then 0 else (i 2).val; rw [if_neg (by decide)])

-- @take_along_axis's %cst = stablehlo.constant dense<0x7FC00000> : tensor<f32>, in %43 = func.call @take_along_axis(…) (record main_call6)
def val_main_call6_cst : (⟨S_, .f32⟩ : BufTy).Contents (Elt F) :=
  constant S_ .f32 0x7FC00000#32

-- @take_along_axis's %15 = stablehlo.broadcast_in_dim %cst, dims = [] : (tensor<f32>) -> tensor<32x256x64xf32>, in %43 = func.call @take_along_axis(…) (record main_call6)
def val_main_call6_v15 : (⟨S32x256x64, .f32⟩ : BufTy).Contents (Elt F) :=
  broadcastInDim S32x256x64 ![] bcast_S_S32x256x64 (val_main_call6_cst (F := F))
abbrev idx_main_call6_v15 (i : S32x256x64.Idx) : S_.Idx := fun a => a.elim0

-- %43 = func.call @take_along_axis(…) (record main_call6) result 0: @take_along_axis's %16 = stablehlo.select %14, %13, %15 : tensor<32x256x64xi1>, tensor<32x256x64xf32>
def val_main_v43 (x0 : (⟨S32x256x64x64, .f32⟩ : BufTy).Contents (Elt F)) (x2 : (⟨S32x64x2, .f32⟩ : BufTy).Contents (Elt F)) : (⟨S32x256x64, .f32⟩ : BufTy).Contents (Elt F) :=
  select (val_main_call6_v14 (F := F) x2) (val_main_call6_v13 (F := F) x0 x2) (val_main_call6_v15 (F := F))
theorem val_main_v43_apply (x0 : (⟨S32x256x64x64, .f32⟩ : BufTy).Contents (Elt F)) (x2 : (⟨S32x64x2, .f32⟩ : BufTy).Contents (Elt F)) (i : S32x256x64.Idx) :
    val_main_v43 (F := F) x0 x2 i = Scalar.select (val_main_call6_v14 (F := F) x2 i) (val_main_call6_v13 (F := F) x0 x2 i) (val_main_call6_v15 (F := F) i) := rfl

-- %44 = stablehlo.dot_general %43, %11, batching_dims = [0] x [0], contracting_dims = [1] x [1], precision = [DEFAULT, DEFAULT] : (tensor<32x256x64xf32>, tensor<32x256x4096xf32>) -> tensor<32x64x4096xf32>
def val_main_v44 (x0 x1 : (⟨S32x256x64x64, .f32⟩ : BufTy).Contents (Elt F)) (x2 : (⟨S32x64x2, .f32⟩ : BufTy).Contents (Elt F)) : (⟨S32x64x4096, .f32⟩ : BufTy).Contents (Elt F) :=
  Host.dotGeneral dot_S32x256x64_S32x256x4096_S32x64x4096_1_1_2_2_0_0 none (val_main_v43 (F := F) x0 x2) (val_main_v11 (F := F) x1)
theorem lhs_main_v44_0 (i : S32x64x4096.Idx) (q : dot_S32x256x64_S32x256x4096_S32x64x4096_1_1_2_2_0_0.contr.Idx) :
    (dot_S32x256x64_S32x256x4096_S32x64x4096_1_1_2_2_0_0.lhsIdx i q 0).val = (i 0).val := by
  unfold DotDims.lhsIdx
  rw [dif_pos (show (0 : Fin S32x256x64.rank) ∈ dot_S32x256x64_S32x256x4096_S32x64x4096_1_1_2_2_0_0.lhsBatch by decide)]
  rfl
theorem lhs_main_v44_1 (i : S32x64x4096.Idx) (q : dot_S32x256x64_S32x256x4096_S32x64x4096_1_1_2_2_0_0.contr.Idx) :
    (dot_S32x256x64_S32x256x4096_S32x64x4096_1_1_2_2_0_0.lhsIdx i q 1).val = (q ⟨0, by decide⟩).val :=
  dot_S32x256x64_S32x256x4096_S32x64x4096_1_1_2_2_0_0.lhsIdx_val_of_single rfl i q
theorem lhs_main_v44_2 (i : S32x64x4096.Idx) (q : dot_S32x256x64_S32x256x4096_S32x64x4096_1_1_2_2_0_0.contr.Idx) :
    (dot_S32x256x64_S32x256x4096_S32x64x4096_1_1_2_2_0_0.lhsIdx i q 2).val = (i 1).val := by
  unfold DotDims.lhsIdx
  rw [dif_neg (show ¬(2 : Fin S32x256x64.rank) ∈ dot_S32x256x64_S32x256x4096_S32x64x4096_1_1_2_2_0_0.lhsBatch by decide), dif_pos (show (2 : Fin S32x256x64.rank) ∈ dot_S32x256x64_S32x256x4096_S32x64x4096_1_1_2_2_0_0.lhsNonContracting by decide)]
  rfl
theorem rhs_main_v44_0 (i : S32x64x4096.Idx) (q : dot_S32x256x64_S32x256x4096_S32x64x4096_1_1_2_2_0_0.contr.Idx) :
    (dot_S32x256x64_S32x256x4096_S32x64x4096_1_1_2_2_0_0.rhsIdx i q 0).val = (i 0).val := by
  unfold DotDims.rhsIdx
  rw [dif_pos (show (0 : Fin S32x256x4096.rank) ∈ dot_S32x256x64_S32x256x4096_S32x64x4096_1_1_2_2_0_0.rhsBatch by decide)]
  rfl
theorem rhs_main_v44_1 (i : S32x64x4096.Idx) (q : dot_S32x256x64_S32x256x4096_S32x64x4096_1_1_2_2_0_0.contr.Idx) :
    (dot_S32x256x64_S32x256x4096_S32x64x4096_1_1_2_2_0_0.rhsIdx i q 1).val = (q ⟨0, by decide⟩).val :=
  dot_S32x256x64_S32x256x4096_S32x64x4096_1_1_2_2_0_0.rhsIdx_val_of_single rfl i q
theorem rhs_main_v44_2 (i : S32x64x4096.Idx) (q : dot_S32x256x64_S32x256x4096_S32x64x4096_1_1_2_2_0_0.contr.Idx) :
    (dot_S32x256x64_S32x256x4096_S32x64x4096_1_1_2_2_0_0.rhsIdx i q 2).val = (i 2).val := by
  unfold DotDims.rhsIdx
  rw [dif_neg (show ¬(2 : Fin S32x256x4096.rank) ∈ dot_S32x256x64_S32x256x4096_S32x64x4096_1_1_2_2_0_0.rhsBatch by decide), dif_pos (show (2 : Fin S32x256x4096.rank) ∈ dot_S32x256x64_S32x256x4096_S32x64x4096_1_1_2_2_0_0.rhsNonContracting by decide)]
  rfl
abbrev lidx_main_v44 (i : S32x64x4096.Idx) (k : Fin 256) : S32x256x64.Idx := fun a => match a with
  | ⟨0, _⟩ => ⟨(i 0).val, (i 0).isLt⟩
  | ⟨1, _⟩ => ⟨k.val, k.isLt⟩
  | ⟨2, _⟩ => ⟨(i 1).val, (i 1).isLt⟩
abbrev ridx_main_v44 (i : S32x64x4096.Idx) (k : Fin 256) : S32x256x4096.Idx := fun a => match a with
  | ⟨0, _⟩ => ⟨(i 0).val, (i 0).isLt⟩
  | ⟨1, _⟩ => ⟨k.val, k.isLt⟩
  | ⟨2, _⟩ => ⟨(i 2).val, (i 2).isLt⟩
/-- Stated at `F := Ideal`, where the host's `dot_general` is this sum; at a bit-exact instance it is an opaque function of its operands. -/
theorem val_main_v44_apply (x0 x1 : (⟨S32x256x64x64, .f32⟩ : BufTy).Contents (Elt Ideal)) (x2 : (⟨S32x64x2, .f32⟩ : BufTy).Contents (Elt Ideal)) (i : S32x64x4096.Idx) :
    val_main_v44 (F := Ideal) x0 x1 x2 i = ∑ k : Fin 256, (val_main_v43 (F := Ideal) x0 x2) (lidx_main_v44 i k) * (val_main_v11 (F := Ideal) x1) (ridx_main_v44 i k) := by
  unfold val_main_v44
  generalize val_main_v43 (F := Ideal) x0 x2 = y0
  generalize val_main_v11 (F := Ideal) x1 = y1
  simp only [Host.dotGeneral]
  rw [Ideal.dotGeneral_apply, ← Equiv.sum_comp (ValueIdx.contrEquiv1 dot_S32x256x64_S32x256x4096_S32x64x4096_1_1_2_2_0_0 256 rfl rfl).symm]
  refine Finset.sum_congr rfl fun k _ => ?_
  have hk := ValueIdx.contrEquiv1_symm_val dot_S32x256x64_S32x256x4096_S32x64x4096_1_1_2_2_0_0 256 rfl rfl k
  have el : dot_S32x256x64_S32x256x4096_S32x64x4096_1_1_2_2_0_0.lhsIdx i ((ValueIdx.contrEquiv1 dot_S32x256x64_S32x256x4096_S32x64x4096_1_1_2_2_0_0 256 rfl rfl).symm k) = lidx_main_v44 i k := funext fun a => Fin.ext (by
    match a with
    | ⟨0, _⟩ => exact lhs_main_v44_0 _ _
    | ⟨1, _⟩ => exact (lhs_main_v44_1 _ _).trans hk
    | ⟨2, _⟩ => exact lhs_main_v44_2 _ _)
  have er : dot_S32x256x64_S32x256x4096_S32x64x4096_1_1_2_2_0_0.rhsIdx i ((ValueIdx.contrEquiv1 dot_S32x256x64_S32x256x4096_S32x64x4096_1_1_2_2_0_0 256 rfl rfl).symm k) = ridx_main_v44 i k := funext fun a => Fin.ext (by
    match a with
    | ⟨0, _⟩ => exact rhs_main_v44_0 _ _
    | ⟨1, _⟩ => exact (rhs_main_v44_1 _ _).trans hk
    | ⟨2, _⟩ => exact rhs_main_v44_2 _ _)
  rw [el, er]

-- %cst_14 = stablehlo.constant dense<0.00999999977> : tensor<f32>
def val_main_cst_14 : (⟨S_, .f32⟩ : BufTy).Contents (Elt F) :=
  constant S_ .f32 0x3C23D70A#32
theorem val_main_cst_14_apply (i : S_.Idx) :
    val_main_cst_14 (F := F) i = FloatOps.ofBits .f32 0x3C23D70A#32 := rfl

-- %45 = stablehlo.broadcast_in_dim %cst_14, dims = [] : (tensor<f32>) -> tensor<32x64x4096xf32>
def val_main_v45 : (⟨S32x64x4096, .f32⟩ : BufTy).Contents (Elt F) :=
  broadcastInDim S32x64x4096 ![] bcast_S_S32x64x4096 (val_main_cst_14 (F := F))
abbrev idx_main_v45 (i : S32x64x4096.Idx) : S_.Idx := fun a => a.elim0
theorem val_main_v45_apply (i : S32x64x4096.Idx) :
    val_main_v45 (F := F) i = val_main_cst_14 (F := F) (idx_main_v45 i) := by
  unfold val_main_v45
  generalize val_main_cst_14 (F := F) = y
  exact broadcastInDim_apply _ bcast_S_S32x64x4096 y i (idx_main_v45 i) (fun a => a.elim0)

-- %46 = stablehlo.divide %44, %45 : tensor<32x64x4096xf32>
def val_main_v46 (x0 x1 : (⟨S32x256x64x64, .f32⟩ : BufTy).Contents (Elt F)) (x2 : (⟨S32x64x2, .f32⟩ : BufTy).Contents (Elt F)) : (⟨S32x64x4096, .f32⟩ : BufTy).Contents (Elt F) :=
  Host.divf (val_main_v44 (F := F) x0 x1 x2) (val_main_v45 (F := F))
theorem val_main_v46_apply (x0 x1 : (⟨S32x256x64x64, .f32⟩ : BufTy).Contents (Elt F)) (x2 : (⟨S32x64x2, .f32⟩ : BufTy).Contents (Elt F)) (i : S32x64x4096.Idx) :
    val_main_v46 (F := F) x0 x1 x2 i = FloatOps.hostDivf (val_main_v44 (F := F) x0 x1 x2 i) (val_main_v45 (F := F) i) := rfl

-- @log_softmax's %cst = stablehlo.constant dense<0xFF800000> : tensor<f32>, in %47 = func.call @log_softmax(…) (record main_call7)
def val_main_call7_cst : (⟨S_, .f32⟩ : BufTy).Contents (Elt F) :=
  constant S_ .f32 0xFF800000#32

-- @log_softmax's %0 = stablehlo.reduce(%arg0 init: %cst) applies stablehlo.maximum across dimensions = [2] : (tensor<32x64x4096xf32>, tensor<f32>) -> tensor<32x64xf32> {, in %47 = func.call @log_softmax(…) (record main_call7)
def val_main_call7_v0 (x0 x1 : (⟨S32x256x64x64, .f32⟩ : BufTy).Contents (Elt F)) (x2 : (⟨S32x64x2, .f32⟩ : BufTy).Contents (Elt F)) : (⟨S32x64, .f32⟩ : BufTy).Contents (Elt F) :=
  Host.reduce FloatOps.maximumf (val_main_v46 (F := F) x0 x1 x2) (val_main_call7_cst (F := F)) reducesTo_S32x64x4096_S32x64_d2 h_S_

-- @log_softmax's %cst_0 = stablehlo.constant dense<0xFF800000> : tensor<f32>, in %47 = func.call @log_softmax(…) (record main_call7)
def val_main_call7_cst_0 : (⟨S_, .f32⟩ : BufTy).Contents (Elt F) :=
  constant S_ .f32 0xFF800000#32
theorem val_main_call7_cst_0_apply (i : S_.Idx) :
    val_main_call7_cst_0 (F := F) i = FloatOps.ofBits .f32 0xFF800000#32 := rfl

-- @log_softmax's %1 = stablehlo.broadcast_in_dim %cst_0, dims = [] : (tensor<f32>) -> tensor<32x64xf32>, in %47 = func.call @log_softmax(…) (record main_call7)
def val_main_call7_v1 : (⟨S32x64, .f32⟩ : BufTy).Contents (Elt F) :=
  broadcastInDim S32x64 ![] bcast_S_S32x64 (val_main_call7_cst_0 (F := F))
abbrev idx_main_call7_v1 (i : S32x64.Idx) : S_.Idx := fun a => a.elim0
theorem val_main_call7_v1_apply (i : S32x64.Idx) :
    val_main_call7_v1 (F := F) i = val_main_call7_cst_0 (F := F) (idx_main_call7_v1 i) := by
  unfold val_main_call7_v1
  generalize val_main_call7_cst_0 (F := F) = y
  exact broadcastInDim_apply _ bcast_S_S32x64 y i (idx_main_call7_v1 i) (fun a => a.elim0)

-- @log_softmax's %2 = stablehlo.maximum %1, %0 : tensor<32x64xf32>, in %47 = func.call @log_softmax(…) (record main_call7)
def val_main_call7_v2 (x0 x1 : (⟨S32x256x64x64, .f32⟩ : BufTy).Contents (Elt F)) (x2 : (⟨S32x64x2, .f32⟩ : BufTy).Contents (Elt F)) : (⟨S32x64, .f32⟩ : BufTy).Contents (Elt F) :=
  maximumf (val_main_call7_v1 (F := F)) (val_main_call7_v0 (F := F) x0 x1 x2)
theorem val_main_call7_v2_apply (x0 x1 : (⟨S32x256x64x64, .f32⟩ : BufTy).Contents (Elt F)) (x2 : (⟨S32x64x2, .f32⟩ : BufTy).Contents (Elt F)) (i : S32x64.Idx) :
    val_main_call7_v2 (F := F) x0 x1 x2 i = FloatOps.maximumf (val_main_call7_v1 (F := F) i) (val_main_call7_v0 (F := F) x0 x1 x2 i) := rfl

-- @log_softmax's %3 = stablehlo.broadcast_in_dim %2, dims = [0, 1] : (tensor<32x64xf32>) -> tensor<32x64x1xf32>, in %47 = func.call @log_softmax(…) (record main_call7)
def val_main_call7_v3 (x0 x1 : (⟨S32x256x64x64, .f32⟩ : BufTy).Contents (Elt F)) (x2 : (⟨S32x64x2, .f32⟩ : BufTy).Contents (Elt F)) : (⟨S32x64x1, .f32⟩ : BufTy).Contents (Elt F) :=
  broadcastInDim S32x64x1 ![0, 1] bcast_S32x64_S32x64x1_0_1 (val_main_call7_v2 (F := F) x0 x1 x2)
abbrev idx_main_call7_v3 (i : S32x64x1.Idx) : S32x64.Idx := fun a => match a with
  | ⟨0, _⟩ => ⟨(i 0).val, (i 0).isLt⟩
  | ⟨1, _⟩ => ⟨(i 1).val, (i 1).isLt⟩
theorem val_main_call7_v3_apply (x0 x1 : (⟨S32x256x64x64, .f32⟩ : BufTy).Contents (Elt F)) (x2 : (⟨S32x64x2, .f32⟩ : BufTy).Contents (Elt F)) (i : S32x64x1.Idx) :
    val_main_call7_v3 (F := F) x0 x1 x2 i = val_main_call7_v2 (F := F) x0 x1 x2 (idx_main_call7_v3 i) := by
  unfold val_main_call7_v3
  generalize val_main_call7_v2 (F := F) x0 x1 x2 = y
  exact broadcastInDim_apply _ bcast_S32x64_S32x64x1_0_1 y i (idx_main_call7_v3 i) (fun a => match a with
    | ⟨0, _⟩ => by show (i 0).val = if (32 : Nat) = 1 then 0 else (i 0).val; rw [if_neg (by decide)]
    | ⟨1, _⟩ => by show (i 1).val = if (64 : Nat) = 1 then 0 else (i 1).val; rw [if_neg (by decide)])

-- @log_softmax's %4 = stablehlo.broadcast_in_dim %3, dims = [0, 1, 2] : (tensor<32x64x1xf32>) -> tensor<32x64x4096xf32>, in %47 = func.call @log_softmax(…) (record main_call7)
def val_main_call7_v4 (x0 x1 : (⟨S32x256x64x64, .f32⟩ : BufTy).Contents (Elt F)) (x2 : (⟨S32x64x2, .f32⟩ : BufTy).Contents (Elt F)) : (⟨S32x64x4096, .f32⟩ : BufTy).Contents (Elt F) :=
  broadcastInDim S32x64x4096 ![0, 1, 2] bcast_S32x64x1_S32x64x4096_0_1_2 (val_main_call7_v3 (F := F) x0 x1 x2)
abbrev idx_main_call7_v4 (i : S32x64x4096.Idx) : S32x64x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call7_v4_apply (x0 x1 : (⟨S32x256x64x64, .f32⟩ : BufTy).Contents (Elt F)) (x2 : (⟨S32x64x2, .f32⟩ : BufTy).Contents (Elt F)) (i : S32x64x4096.Idx) :
    val_main_call7_v4 (F := F) x0 x1 x2 i = val_main_call7_v3 (F := F) x0 x1 x2 (idx_main_call7_v4 i) := by
  unfold val_main_call7_v4
  generalize val_main_call7_v3 (F := F) x0 x1 x2 = y
  exact broadcastInDim_apply _ bcast_S32x64x1_S32x64x4096_0_1_2 y i (idx_main_call7_v4 i) (fun a => match a with
    | ⟨0, _⟩ => by show (i 0).val = if (32 : Nat) = 1 then 0 else (i 0).val; rw [if_neg (by decide)]
    | ⟨1, _⟩ => by show (i 1).val = if (64 : Nat) = 1 then 0 else (i 1).val; rw [if_neg (by decide)]
    | ⟨2, _⟩ => by show 0 = if (1 : Nat) = 1 then 0 else (i 2).val; rw [if_pos rfl])

-- @log_softmax's %5 = stablehlo.subtract %arg0, %4 : tensor<32x64x4096xf32>, in %47 = func.call @log_softmax(…) (record main_call7)
def val_main_call7_v5 (x0 x1 : (⟨S32x256x64x64, .f32⟩ : BufTy).Contents (Elt F)) (x2 : (⟨S32x64x2, .f32⟩ : BufTy).Contents (Elt F)) : (⟨S32x64x4096, .f32⟩ : BufTy).Contents (Elt F) :=
  subf (val_main_v46 (F := F) x0 x1 x2) (val_main_call7_v4 (F := F) x0 x1 x2)
theorem val_main_call7_v5_apply (x0 x1 : (⟨S32x256x64x64, .f32⟩ : BufTy).Contents (Elt F)) (x2 : (⟨S32x64x2, .f32⟩ : BufTy).Contents (Elt F)) (i : S32x64x4096.Idx) :
    val_main_call7_v5 (F := F) x0 x1 x2 i = FloatOps.subf (val_main_v46 (F := F) x0 x1 x2 i) (val_main_call7_v4 (F := F) x0 x1 x2 i) := rfl

-- @log_softmax's %6 = stablehlo.exponential %5 : tensor<32x64x4096xf32>, in %47 = func.call @log_softmax(…) (record main_call7)
def val_main_call7_v6 (x0 x1 : (⟨S32x256x64x64, .f32⟩ : BufTy).Contents (Elt F)) (x2 : (⟨S32x64x2, .f32⟩ : BufTy).Contents (Elt F)) : (⟨S32x64x4096, .f32⟩ : BufTy).Contents (Elt F) :=
  Host.exp (val_main_call7_v5 (F := F) x0 x1 x2)
theorem val_main_call7_v6_apply (x0 x1 : (⟨S32x256x64x64, .f32⟩ : BufTy).Contents (Elt F)) (x2 : (⟨S32x64x2, .f32⟩ : BufTy).Contents (Elt F)) (i : S32x64x4096.Idx) :
    val_main_call7_v6 (F := F) x0 x1 x2 i = FloatOps.hostUnary .exp (val_main_call7_v5 (F := F) x0 x1 x2 i) := rfl

-- @log_softmax's %cst_1 = stablehlo.constant dense<0.000000e+00> : tensor<f32>, in %47 = func.call @log_softmax(…) (record main_call7)
def val_main_call7_cst_1 : (⟨S_, .f32⟩ : BufTy).Contents (Elt F) :=
  constant S_ .f32 0x00000000#32
theorem val_main_call7_cst_1_apply (i : S_.Idx) :
    val_main_call7_cst_1 (F := F) i = FloatOps.ofBits .f32 0x00000000#32 := rfl

-- @log_softmax's %7 = stablehlo.reduce(%6 init: %cst_1) applies stablehlo.add across dimensions = [2] : (tensor<32x64x4096xf32>, tensor<f32>) -> tensor<32x64xf32> {, in %47 = func.call @log_softmax(…) (record main_call7)
def val_main_call7_v7 (x0 x1 : (⟨S32x256x64x64, .f32⟩ : BufTy).Contents (Elt F)) (x2 : (⟨S32x64x2, .f32⟩ : BufTy).Contents (Elt F)) : (⟨S32x64, .f32⟩ : BufTy).Contents (Elt F) :=
  Host.reduceAdd (val_main_call7_v6 (F := F) x0 x1 x2) (val_main_call7_cst_1 (F := F)) reducesTo_S32x64x4096_S32x64_d2 h_S_
abbrev idx_main_call7_v7 (i : S32x64.Idx) (k : Fin 4096) : S32x64x4096.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_call7_v7_apply (x0 x1 : (⟨S32x256x64x64, .f32⟩ : BufTy).Contents (Elt Ideal)) (x2 : (⟨S32x64x2, .f32⟩ : BufTy).Contents (Elt Ideal)) (i : S32x64.Idx) :
    val_main_call7_v7 (F := Ideal) x0 x1 x2 i = (val_main_call7_cst_1 (F := Ideal)) (Shape.Idx.first h_S_) + ∑ k : Fin 4096, (val_main_call7_v6 (F := Ideal) x0 x1 x2) (idx_main_call7_v7 i k) := by
  unfold val_main_call7_v7
  generalize val_main_call7_v6 (F := Ideal) x0 x1 x2 = y0
  simp only [Host.reduceAdd, Ideal.hostReduceAdd_def]
  rw [Ideal.hostReduceAdd_single reducesTo_S32x64x4096_S32x64_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- @log_softmax's %8 = stablehlo.broadcast_in_dim %7, dims = [0, 1] : (tensor<32x64xf32>) -> tensor<32x64x1xf32>, in %47 = func.call @log_softmax(…) (record main_call7)
def val_main_call7_v8 (x0 x1 : (⟨S32x256x64x64, .f32⟩ : BufTy).Contents (Elt F)) (x2 : (⟨S32x64x2, .f32⟩ : BufTy).Contents (Elt F)) : (⟨S32x64x1, .f32⟩ : BufTy).Contents (Elt F) :=
  broadcastInDim S32x64x1 ![0, 1] bcast_S32x64_S32x64x1_0_1 (val_main_call7_v7 (F := F) x0 x1 x2)
abbrev idx_main_call7_v8 (i : S32x64x1.Idx) : S32x64.Idx := fun a => match a with
  | ⟨0, _⟩ => ⟨(i 0).val, (i 0).isLt⟩
  | ⟨1, _⟩ => ⟨(i 1).val, (i 1).isLt⟩
theorem val_main_call7_v8_apply (x0 x1 : (⟨S32x256x64x64, .f32⟩ : BufTy).Contents (Elt F)) (x2 : (⟨S32x64x2, .f32⟩ : BufTy).Contents (Elt F)) (i : S32x64x1.Idx) :
    val_main_call7_v8 (F := F) x0 x1 x2 i = val_main_call7_v7 (F := F) x0 x1 x2 (idx_main_call7_v8 i) := by
  unfold val_main_call7_v8
  generalize val_main_call7_v7 (F := F) x0 x1 x2 = y
  exact broadcastInDim_apply _ bcast_S32x64_S32x64x1_0_1 y i (idx_main_call7_v8 i) (fun a => match a with
    | ⟨0, _⟩ => by show (i 0).val = if (32 : Nat) = 1 then 0 else (i 0).val; rw [if_neg (by decide)]
    | ⟨1, _⟩ => by show (i 1).val = if (64 : Nat) = 1 then 0 else (i 1).val; rw [if_neg (by decide)])

-- @log_softmax's %9 = stablehlo.log %8 : tensor<32x64x1xf32>, in %47 = func.call @log_softmax(…) (record main_call7)
def val_main_call7_v9 (x0 x1 : (⟨S32x256x64x64, .f32⟩ : BufTy).Contents (Elt F)) (x2 : (⟨S32x64x2, .f32⟩ : BufTy).Contents (Elt F)) : (⟨S32x64x1, .f32⟩ : BufTy).Contents (Elt F) :=
  Host.log (val_main_call7_v8 (F := F) x0 x1 x2)
theorem val_main_call7_v9_apply (x0 x1 : (⟨S32x256x64x64, .f32⟩ : BufTy).Contents (Elt F)) (x2 : (⟨S32x64x2, .f32⟩ : BufTy).Contents (Elt F)) (i : S32x64x1.Idx) :
    val_main_call7_v9 (F := F) x0 x1 x2 i = FloatOps.hostUnary .log (val_main_call7_v8 (F := F) x0 x1 x2 i) := rfl

-- @log_softmax's %10 = stablehlo.broadcast_in_dim %9, dims = [0, 1, 2] : (tensor<32x64x1xf32>) -> tensor<32x64x4096xf32>, in %47 = func.call @log_softmax(…) (record main_call7)
def val_main_call7_v10 (x0 x1 : (⟨S32x256x64x64, .f32⟩ : BufTy).Contents (Elt F)) (x2 : (⟨S32x64x2, .f32⟩ : BufTy).Contents (Elt F)) : (⟨S32x64x4096, .f32⟩ : BufTy).Contents (Elt F) :=
  broadcastInDim S32x64x4096 ![0, 1, 2] bcast_S32x64x1_S32x64x4096_0_1_2 (val_main_call7_v9 (F := F) x0 x1 x2)
abbrev idx_main_call7_v10 (i : S32x64x4096.Idx) : S32x64x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call7_v10_apply (x0 x1 : (⟨S32x256x64x64, .f32⟩ : BufTy).Contents (Elt F)) (x2 : (⟨S32x64x2, .f32⟩ : BufTy).Contents (Elt F)) (i : S32x64x4096.Idx) :
    val_main_call7_v10 (F := F) x0 x1 x2 i = val_main_call7_v9 (F := F) x0 x1 x2 (idx_main_call7_v10 i) := by
  unfold val_main_call7_v10
  generalize val_main_call7_v9 (F := F) x0 x1 x2 = y
  exact broadcastInDim_apply _ bcast_S32x64x1_S32x64x4096_0_1_2 y i (idx_main_call7_v10 i) (fun a => match a with
    | ⟨0, _⟩ => by show (i 0).val = if (32 : Nat) = 1 then 0 else (i 0).val; rw [if_neg (by decide)]
    | ⟨1, _⟩ => by show (i 1).val = if (64 : Nat) = 1 then 0 else (i 1).val; rw [if_neg (by decide)]
    | ⟨2, _⟩ => by show 0 = if (1 : Nat) = 1 then 0 else (i 2).val; rw [if_pos rfl])

-- %47 = func.call @log_softmax(…) (record main_call7) result 0: @log_softmax's %11 = stablehlo.subtract %5, %10 : tensor<32x64x4096xf32>
def val_main_v47 (x0 x1 : (⟨S32x256x64x64, .f32⟩ : BufTy).Contents (Elt F)) (x2 : (⟨S32x64x2, .f32⟩ : BufTy).Contents (Elt F)) : (⟨S32x64x4096, .f32⟩ : BufTy).Contents (Elt F) :=
  subf (val_main_call7_v5 (F := F) x0 x1 x2) (val_main_call7_v10 (F := F) x0 x1 x2)
theorem val_main_v47_apply (x0 x1 : (⟨S32x256x64x64, .f32⟩ : BufTy).Contents (Elt F)) (x2 : (⟨S32x64x2, .f32⟩ : BufTy).Contents (Elt F)) (i : S32x64x4096.Idx) :
    val_main_v47 (F := F) x0 x1 x2 i = FloatOps.subf (val_main_call7_v5 (F := F) x0 x1 x2 i) (val_main_call7_v10 (F := F) x0 x1 x2 i) := rfl

-- %48 = stablehlo.broadcast_in_dim %41, dims = [0, 1] : (tensor<32x64xi32>) -> tensor<32x64x1xi32>
def val_main_v48 (x3 : (⟨S32x64x2, .f32⟩ : BufTy).Contents (Elt F)) : (⟨S32x64x1, .i32⟩ : BufTy).Contents (Elt F) :=
  broadcastInDim S32x64x1 ![0, 1] bcast_S32x64_S32x64x1_0_1 (val_main_v41 (F := F) x3)
abbrev idx_main_v48 (i : S32x64x1.Idx) : S32x64.Idx := fun a => match a with
  | ⟨0, _⟩ => ⟨(i 0).val, (i 0).isLt⟩
  | ⟨1, _⟩ => ⟨(i 1).val, (i 1).isLt⟩
theorem val_main_v48_apply (x3 : (⟨S32x64x2, .f32⟩ : BufTy).Contents (Elt F)) (i : S32x64x1.Idx) :
    val_main_v48 (F := F) x3 i = val_main_v41 (F := F) x3 (idx_main_v48 i) := by
  unfold val_main_v48
  generalize val_main_v41 (F := F) x3 = y
  exact broadcastInDim_apply _ bcast_S32x64_S32x64x1_0_1 y i (idx_main_v48 i) (fun a => match a with
    | ⟨0, _⟩ => by show (i 0).val = if (32 : Nat) = 1 then 0 else (i 0).val; rw [if_neg (by decide)]
    | ⟨1, _⟩ => by show (i 1).val = if (64 : Nat) = 1 then 0 else (i 1).val; rw [if_neg (by decide)])

-- @take_along_axis_0's %c = stablehlo.constant dense<0> : tensor<i32>, in %49 = func.call @take_along_axis_0(…) (record main_call8)
def val_main_call8_c : (⟨S_, .i32⟩ : BufTy).Contents (Elt F) :=
  constantI S_ 32 0#32
theorem val_main_call8_c_apply (i : S_.Idx) :
    val_main_call8_c (F := F) i = 0#32 := rfl

-- @take_along_axis_0's %0 = stablehlo.broadcast_in_dim %c, dims = [] : (tensor<i32>) -> tensor<32x64x1xi32>, in %49 = func.call @take_along_axis_0(…) (record main_call8)
def val_main_call8_v0 : (⟨S32x64x1, .i32⟩ : BufTy).Contents (Elt F) :=
  broadcastInDim S32x64x1 ![] bcast_S_S32x64x1 (val_main_call8_c (F := F))
abbrev idx_main_call8_v0 (i : S32x64x1.Idx) : S_.Idx := fun a => a.elim0
theorem val_main_call8_v0_apply (i : S32x64x1.Idx) :
    val_main_call8_v0 (F := F) i = val_main_call8_c (F := F) (idx_main_call8_v0 i) := by
  unfold val_main_call8_v0
  generalize val_main_call8_c (F := F) = y
  exact broadcastInDim_apply _ bcast_S_S32x64x1 y i (idx_main_call8_v0 i) (fun a => a.elim0)

-- @take_along_axis_0's %1 = stablehlo.compare LT, %arg1, %0, SIGNED : (tensor<32x64x1xi32>, tensor<32x64x1xi32>) -> tensor<32x64x1xi1>, in %49 = func.call @take_along_axis_0(…) (record main_call8)
def val_main_call8_v1 (x3 : (⟨S32x64x2, .f32⟩ : BufTy).Contents (Elt F)) : (⟨S32x64x1, .i1⟩ : BufTy).Contents (Elt F) :=
  cmpi .slt (val_main_v48 (F := F) x3) (val_main_call8_v0 (F := F))
theorem val_main_call8_v1_apply (x3 : (⟨S32x64x2, .f32⟩ : BufTy).Contents (Elt F)) (i : S32x64x1.Idx) :
    val_main_call8_v1 (F := F) x3 i = IntOp.cmpi .slt (val_main_v48 (F := F) x3 i) (val_main_call8_v0 (F := F) i) := rfl

-- @take_along_axis_0's %c_0 = stablehlo.constant dense<4096> : tensor<i32>, in %49 = func.call @take_along_axis_0(…) (record main_call8)
def val_main_call8_c_0 : (⟨S_, .i32⟩ : BufTy).Contents (Elt F) :=
  constantI S_ 32 4096#32

-- @take_along_axis_0's %2 = stablehlo.broadcast_in_dim %c_0, dims = [] : (tensor<i32>) -> tensor<32x64x1xi32>, in %49 = func.call @take_along_axis_0(…) (record main_call8)
def val_main_call8_v2 : (⟨S32x64x1, .i32⟩ : BufTy).Contents (Elt F) :=
  broadcastInDim S32x64x1 ![] bcast_S_S32x64x1 (val_main_call8_c_0 (F := F))
abbrev idx_main_call8_v2 (i : S32x64x1.Idx) : S_.Idx := fun a => a.elim0

-- @take_along_axis_0's %3 = stablehlo.add %arg1, %2 : tensor<32x64x1xi32>, in %49 = func.call @take_along_axis_0(…) (record main_call8)
def val_main_call8_v3 (x3 : (⟨S32x64x2, .f32⟩ : BufTy).Contents (Elt F)) : (⟨S32x64x1, .i32⟩ : BufTy).Contents (Elt F) :=
  addi (val_main_v48 (F := F) x3) (val_main_call8_v2 (F := F))

-- @take_along_axis_0's %4 = stablehlo.select %1, %3, %arg1 : tensor<32x64x1xi1>, tensor<32x64x1xi32>, in %49 = func.call @take_along_axis_0(…) (record main_call8)
def val_main_call8_v4 (x3 : (⟨S32x64x2, .f32⟩ : BufTy).Contents (Elt F)) : (⟨S32x64x1, .i32⟩ : BufTy).Contents (Elt F) :=
  select (val_main_call8_v1 (F := F) x3) (val_main_call8_v3 (F := F) x3) (val_main_v48 (F := F) x3)
theorem val_main_call8_v4_apply (x3 : (⟨S32x64x2, .f32⟩ : BufTy).Contents (Elt F)) (i : S32x64x1.Idx) :
    val_main_call8_v4 (F := F) x3 i = Scalar.select (val_main_call8_v1 (F := F) x3 i) (val_main_call8_v3 (F := F) x3 i) (val_main_v48 (F := F) x3 i) := rfl

-- @take_along_axis_0's %5 = stablehlo.reshape %4 : (tensor<32x64x1xi32>) -> tensor<32x64x1x1xi32>, in %49 = func.call @take_along_axis_0(…) (record main_call8)
def val_main_call8_v5 (x3 : (⟨S32x64x2, .f32⟩ : BufTy).Contents (Elt F)) : (⟨S32x64x1x1, .i32⟩ : BufTy).Contents (Elt F) :=
  shapeCast _ (val_main_call8_v4 (F := F) x3) shapeCasts_S32x64x1_S32x64x1x1
abbrev idx_main_call8_v5 (i : S32x64x1x1.Idx) : S32x64x1.Idx := fun a => match a with
  | ⟨0, _⟩ => ⟨((((i 0).val * 64 + (i 1).val) * 1 + (i 2).val) * 1 + (i 3).val) / 64, by have h0 : (i 0).val < 32 := (i 0).isLt; have h1 : (i 1).val < 64 := (i 1).isLt; have h2 : (i 2).val < 1 := (i 2).isLt; have h3 : (i 3).val < 1 := (i 3).isLt; show ((((i 0).val * 64 + (i 1).val) * 1 + (i 2).val) * 1 + (i 3).val) / 64 < 32; omega⟩
  | ⟨1, _⟩ => ⟨((((i 0).val * 64 + (i 1).val) * 1 + (i 2).val) * 1 + (i 3).val) / 1 % 64, by have h0 : (i 0).val < 32 := (i 0).isLt; have h1 : (i 1).val < 64 := (i 1).isLt; have h2 : (i 2).val < 1 := (i 2).isLt; have h3 : (i 3).val < 1 := (i 3).isLt; show ((((i 0).val * 64 + (i 1).val) * 1 + (i 2).val) * 1 + (i 3).val) / 1 % 64 < 64; omega⟩
  | ⟨2, _⟩ => ⟨0, Nat.one_pos⟩
theorem val_main_call8_v5_apply (x3 : (⟨S32x64x2, .f32⟩ : BufTy).Contents (Elt F)) (i : S32x64x1x1.Idx) :
    val_main_call8_v5 (F := F) x3 i = val_main_call8_v4 (F := F) x3 (idx_main_call8_v5 i) := by
  unfold val_main_call8_v5
  generalize val_main_call8_v4 (F := F) x3 = y
  exact shapeCast_apply y shapeCasts_S32x64x1_S32x64x1x1 i (idx_main_call8_v5 i)
    (by rewrite [Shape.rowMajor_val_three, Shape.rowMajor_val_four]; have h0 : (i 0).val < 32 := (i 0).isLt; have h1 : (i 1).val < 64 := (i 1).isLt; have h2 : (i 2).val < 1 := (i 2).isLt; have h3 : (i 3).val < 1 := (i 3).isLt; show (((((i 0).val * 64 + (i 1).val) * 1 + (i 2).val) * 1 + (i 3).val) / 64 * 64 + ((((i 0).val * 64 + (i 1).val) * 1 + (i 2).val) * 1 + (i 3).val) / 1 % 64) * 1 + 0 = (((i 0).val * 64 + (i 1).val) * 1 + (i 2).val) * 1 + (i 3).val; omega)

-- @take_along_axis_0's %c_1 = stablehlo.constant dense<4095> : tensor<1xi32>, in %49 = func.call @take_along_axis_0(…) (record main_call8)
def val_main_call8_c_1 : (⟨S1, .i32⟩ : BufTy).Contents (Elt F) :=
  constantI S1 32 4095#32
theorem val_main_call8_c_1_apply (i : S1.Idx) :
    val_main_call8_c_1 (F := F) i = 4095#32 := rfl

-- @take_along_axis_0's %c_2 = stablehlo.constant dense<0> : tensor<i32>, in %49 = func.call @take_along_axis_0(…) (record main_call8)
def val_main_call8_c_2 : (⟨S_, .i32⟩ : BufTy).Contents (Elt F) :=
  constantI S_ 32 0#32
theorem val_main_call8_c_2_apply (i : S_.Idx) :
    val_main_call8_c_2 (F := F) i = 0#32 := rfl

-- @take_along_axis_0's %6 = stablehlo.broadcast_in_dim %c_2, dims = [] : (tensor<i32>) -> tensor<32x64x1x1xi32>, in %49 = func.call @take_along_axis_0(…) (record main_call8)
def val_main_call8_v6 : (⟨S32x64x1x1, .i32⟩ : BufTy).Contents (Elt F) :=
  broadcastInDim S32x64x1x1 ![] bcast_S_S32x64x1x1 (val_main_call8_c_2 (F := F))
abbrev idx_main_call8_v6 (i : S32x64x1x1.Idx) : S_.Idx := fun a => a.elim0
theorem val_main_call8_v6_apply (i : S32x64x1x1.Idx) :
    val_main_call8_v6 (F := F) i = val_main_call8_c_2 (F := F) (idx_main_call8_v6 i) := by
  unfold val_main_call8_v6
  generalize val_main_call8_c_2 (F := F) = y
  exact broadcastInDim_apply _ bcast_S_S32x64x1x1 y i (idx_main_call8_v6 i) (fun a => a.elim0)

-- @take_along_axis_0's %7 = stablehlo.compare GE, %5, %6, SIGNED : (tensor<32x64x1x1xi32>, tensor<32x64x1x1xi32>) -> tensor<32x64x1x1xi1>, in %49 = func.call @take_along_axis_0(…) (record main_call8)
def val_main_call8_v7 (x3 : (⟨S32x64x2, .f32⟩ : BufTy).Contents (Elt F)) : (⟨S32x64x1x1, .i1⟩ : BufTy).Contents (Elt F) :=
  cmpi .sge (val_main_call8_v5 (F := F) x3) (val_main_call8_v6 (F := F))
theorem val_main_call8_v7_apply (x3 : (⟨S32x64x2, .f32⟩ : BufTy).Contents (Elt F)) (i : S32x64x1x1.Idx) :
    val_main_call8_v7 (F := F) x3 i = IntOp.cmpi .sge (val_main_call8_v5 (F := F) x3 i) (val_main_call8_v6 (F := F) i) := rfl

-- @take_along_axis_0's %8 = stablehlo.broadcast_in_dim %c_1, dims = [3] : (tensor<1xi32>) -> tensor<1x1x1x1xi32>, in %49 = func.call @take_along_axis_0(…) (record main_call8)
def val_main_call8_v8 : (⟨S1x1x1x1, .i32⟩ : BufTy).Contents (Elt F) :=
  broadcastInDim S1x1x1x1 ![3] bcast_S1_S1x1x1x1_3 (val_main_call8_c_1 (F := F))
abbrev idx_main_call8_v8 (i : S1x1x1x1.Idx) : S1.Idx := fun a => match a with
  | ⟨0, _⟩ => ⟨0, Nat.one_pos⟩
theorem val_main_call8_v8_apply (i : S1x1x1x1.Idx) :
    val_main_call8_v8 (F := F) i = val_main_call8_c_1 (F := F) (idx_main_call8_v8 i) := by
  unfold val_main_call8_v8
  generalize val_main_call8_c_1 (F := F) = y
  exact broadcastInDim_apply _ bcast_S1_S1x1x1x1_3 y i (idx_main_call8_v8 i) (fun a => match a with
    | ⟨0, _⟩ => by show 0 = if (1 : Nat) = 1 then 0 else (i 3).val; rw [if_pos rfl])

-- @take_along_axis_0's %9 = stablehlo.broadcast_in_dim %8, dims = [0, 1, 2, 3] : (tensor<1x1x1x1xi32>) -> tensor<32x64x1x1xi32>, in %49 = func.call @take_along_axis_0(…) (record main_call8)
def val_main_call8_v9 : (⟨S32x64x1x1, .i32⟩ : BufTy).Contents (Elt F) :=
  broadcastInDim S32x64x1x1 ![0, 1, 2, 3] bcast_S1x1x1x1_S32x64x1x1_0_1_2_3 (val_main_call8_v8 (F := F))
abbrev idx_main_call8_v9 (i : S32x64x1x1.Idx) : S1x1x1x1.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
theorem val_main_call8_v9_apply (i : S32x64x1x1.Idx) :
    val_main_call8_v9 (F := F) i = val_main_call8_v8 (F := F) (idx_main_call8_v9 i) := by
  unfold val_main_call8_v9
  generalize val_main_call8_v8 (F := F) = y
  exact broadcastInDim_apply _ bcast_S1x1x1x1_S32x64x1x1_0_1_2_3 y i (idx_main_call8_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl])

-- @take_along_axis_0's %10 = stablehlo.compare LE, %5, %9, SIGNED : (tensor<32x64x1x1xi32>, tensor<32x64x1x1xi32>) -> tensor<32x64x1x1xi1>, in %49 = func.call @take_along_axis_0(…) (record main_call8)
def val_main_call8_v10 (x3 : (⟨S32x64x2, .f32⟩ : BufTy).Contents (Elt F)) : (⟨S32x64x1x1, .i1⟩ : BufTy).Contents (Elt F) :=
  cmpi .sle (val_main_call8_v5 (F := F) x3) (val_main_call8_v9 (F := F))
theorem val_main_call8_v10_apply (x3 : (⟨S32x64x2, .f32⟩ : BufTy).Contents (Elt F)) (i : S32x64x1x1.Idx) :
    val_main_call8_v10 (F := F) x3 i = IntOp.cmpi .sle (val_main_call8_v5 (F := F) x3 i) (val_main_call8_v9 (F := F) i) := rfl

-- @take_along_axis_0's %11 = stablehlo.and %7, %10 : tensor<32x64x1x1xi1>, in %49 = func.call @take_along_axis_0(…) (record main_call8)
def val_main_call8_v11 (x3 : (⟨S32x64x2, .f32⟩ : BufTy).Contents (Elt F)) : (⟨S32x64x1x1, .i1⟩ : BufTy).Contents (Elt F) :=
  andi (val_main_call8_v7 (F := F) x3) (val_main_call8_v10 (F := F) x3)
theorem val_main_call8_v11_apply (x3 : (⟨S32x64x2, .f32⟩ : BufTy).Contents (Elt F)) (i : S32x64x1x1.Idx) :
    val_main_call8_v11 (F := F) x3 i = IntOp.andi (val_main_call8_v7 (F := F) x3 i) (val_main_call8_v10 (F := F) x3 i) := rfl

-- @take_along_axis_0's %c_3 = stablehlo.constant dense<true> : tensor<i1>, in %49 = func.call @take_along_axis_0(…) (record main_call8)
def val_main_call8_c_3 : (⟨S_, .i1⟩ : BufTy).Contents (Elt F) :=
  constantI S_ 1 1#1

-- @take_along_axis_0's %12 = stablehlo.reduce(%11 init: %c_3) applies stablehlo.and across dimensions = [3] : (tensor<32x64x1x1xi1>, tensor<i1>) -> tensor<32x64x1xi1> {, in %49 = func.call @take_along_axis_0(…) (record main_call8)
def val_main_call8_v12 (x3 : (⟨S32x64x2, .f32⟩ : BufTy).Contents (Elt F)) : (⟨S32x64x1, .i1⟩ : BufTy).Contents (Elt F) :=
  Host.reduce IntOp.andi (val_main_call8_v11 (F := F) x3) (val_main_call8_c_3 (F := F)) reducesTo_S32x64x1x1_S32x64x1_d3 h_S_

-- @take_along_axis_0's %13 = "stablehlo.gather"(%arg0, %5) <{dimension_numbers = #stablehlo.gather<collapsed_slice_dims = [2], operand_batching_dims = [0, 1], start_indices_batching_dims = [0, 1], start_index_map = [2], index_vector_dim = 3>, indices_are_sorted = false, slice_sizes = array<i64: 1, 1, 1>}> : (tensor<32x64x4096xf32>, tensor<32x64x1x1xi32>) -> tensor<32x64x1xf32>, in %49 = func.call @take_along_axis_0(…) (record main_call8)
def val_main_call8_v13 (x0 x1 : (⟨S32x256x64x64, .f32⟩ : BufTy).Contents (Elt F)) (x2 x3 : (⟨S32x64x2, .f32⟩ : BufTy).Contents (Elt F)) : (⟨S32x64x1, .f32⟩ : BufTy).Contents (Elt F) :=
  Host.gather gather_S32x64x4096_S32x64x1x1_S32x64x1_n_2_01_01_2_3_111 (val_main_v47 (F := F) x0 x1 x2) (val_main_call8_v5 (F := F) x3)

-- @take_along_axis_0's %cst = stablehlo.constant dense<0x7FC00000> : tensor<f32>, in %49 = func.call @take_along_axis_0(…) (record main_call8)
def val_main_call8_cst : (⟨S_, .f32⟩ : BufTy).Contents (Elt F) :=
  constant S_ .f32 0x7FC00000#32

-- @take_along_axis_0's %14 = stablehlo.broadcast_in_dim %cst, dims = [] : (tensor<f32>) -> tensor<32x64x1xf32>, in %49 = func.call @take_along_axis_0(…) (record main_call8)
def val_main_call8_v14 : (⟨S32x64x1, .f32⟩ : BufTy).Contents (Elt F) :=
  broadcastInDim S32x64x1 ![] bcast_S_S32x64x1 (val_main_call8_cst (F := F))
abbrev idx_main_call8_v14 (i : S32x64x1.Idx) : S_.Idx := fun a => a.elim0

-- %49 = func.call @take_along_axis_0(…) (record main_call8) result 0: @take_along_axis_0's %15 = stablehlo.select %12, %13, %14 : tensor<32x64x1xi1>, tensor<32x64x1xf32>
def val_main_v49 (x0 x1 : (⟨S32x256x64x64, .f32⟩ : BufTy).Contents (Elt F)) (x2 x3 : (⟨S32x64x2, .f32⟩ : BufTy).Contents (Elt F)) : (⟨S32x64x1, .f32⟩ : BufTy).Contents (Elt F) :=
  select (val_main_call8_v12 (F := F) x3) (val_main_call8_v13 (F := F) x0 x1 x2 x3) (val_main_call8_v14 (F := F))
theorem val_main_v49_apply (x0 x1 : (⟨S32x256x64x64, .f32⟩ : BufTy).Contents (Elt F)) (x2 x3 : (⟨S32x64x2, .f32⟩ : BufTy).Contents (Elt F)) (i : S32x64x1.Idx) :
    val_main_v49 (F := F) x0 x1 x2 x3 i = Scalar.select (val_main_call8_v12 (F := F) x3 i) (val_main_call8_v13 (F := F) x0 x1 x2 x3 i) (val_main_call8_v14 (F := F) i) := rfl

-- %50 = stablehlo.reshape %49 : (tensor<32x64x1xf32>) -> tensor<32x64xf32>
def val_main_v50 (x0 x1 : (⟨S32x256x64x64, .f32⟩ : BufTy).Contents (Elt F)) (x2 x3 : (⟨S32x64x2, .f32⟩ : BufTy).Contents (Elt F)) : (⟨S32x64, .f32⟩ : BufTy).Contents (Elt F) :=
  shapeCast _ (val_main_v49 (F := F) x0 x1 x2 x3) shapeCasts_S32x64x1_S32x64
abbrev idx_main_v50 (i : S32x64.Idx) : S32x64x1.Idx := fun a => match a with
  | ⟨0, _⟩ => ⟨((i 0).val * 64 + (i 1).val) / 64, by have h0 : (i 0).val < 32 := (i 0).isLt; have h1 : (i 1).val < 64 := (i 1).isLt; show ((i 0).val * 64 + (i 1).val) / 64 < 32; omega⟩
  | ⟨1, _⟩ => ⟨((i 0).val * 64 + (i 1).val) / 1 % 64, by have h0 : (i 0).val < 32 := (i 0).isLt; have h1 : (i 1).val < 64 := (i 1).isLt; show ((i 0).val * 64 + (i 1).val) / 1 % 64 < 64; omega⟩
  | ⟨2, _⟩ => ⟨0, Nat.one_pos⟩
theorem val_main_v50_apply (x0 x1 : (⟨S32x256x64x64, .f32⟩ : BufTy).Contents (Elt F)) (x2 x3 : (⟨S32x64x2, .f32⟩ : BufTy).Contents (Elt F)) (i : S32x64.Idx) :
    val_main_v50 (F := F) x0 x1 x2 x3 i = val_main_v49 (F := F) x0 x1 x2 x3 (idx_main_v50 i) := by
  unfold val_main_v50
  generalize val_main_v49 (F := F) x0 x1 x2 x3 = y
  exact shapeCast_apply y shapeCasts_S32x64x1_S32x64 i (idx_main_v50 i)
    (by rewrite [Shape.rowMajor_val_three, Shape.rowMajor_val_two]; have h0 : (i 0).val < 32 := (i 0).isLt; have h1 : (i 1).val < 64 := (i 1).isLt; show (((i 0).val * 64 + (i 1).val) / 64 * 64 + ((i 0).val * 64 + (i 1).val) / 1 % 64) * 1 + 0 = (i 0).val * 64 + (i 1).val; omega)

-- %51 = stablehlo.negate %50 : tensor<32x64xf32>
def val_main_v51 (x0 x1 : (⟨S32x256x64x64, .f32⟩ : BufTy).Contents (Elt F)) (x2 x3 : (⟨S32x64x2, .f32⟩ : BufTy).Contents (Elt F)) : (⟨S32x64, .f32⟩ : BufTy).Contents (Elt F) :=
  Host.negf (val_main_v50 (F := F) x0 x1 x2 x3)
theorem val_main_v51_apply (x0 x1 : (⟨S32x256x64x64, .f32⟩ : BufTy).Contents (Elt F)) (x2 x3 : (⟨S32x64x2, .f32⟩ : BufTy).Contents (Elt F)) (i : S32x64.Idx) :
    val_main_v51 (F := F) x0 x1 x2 x3 i = FloatOps.hostNegf (val_main_v50 (F := F) x0 x1 x2 x3 i) := rfl

-- %52 = stablehlo.convert %arg4 : (tensor<32x64xi1>) -> tensor<32x64xf32>
def val_main_v52 (x4 : (⟨S32x64, .i1⟩ : BufTy).Contents (Elt F)) : (⟨S32x64, .f32⟩ : BufTy).Contents (Elt F) :=
  uitofp .f32 (x4)

-- %cst_15 = stablehlo.constant dense<0.000000e+00> : tensor<f32>
def val_main_cst_15 : (⟨S_, .f32⟩ : BufTy).Contents (Elt F) :=
  constant S_ .f32 0x00000000#32

-- %53 = stablehlo.reduce(%52 init: %cst_15) applies stablehlo.add across dimensions = [0, 1] : (tensor<32x64xf32>, tensor<f32>) -> tensor<f32> {
def val_main_v53 (x4 : (⟨S32x64, .i1⟩ : BufTy).Contents (Elt F)) : (⟨S_, .f32⟩ : BufTy).Contents (Elt F) :=
  Host.reduceAdd (val_main_v52 (F := F) x4) (val_main_cst_15 (F := F)) reducesTo_S32x64_S_d0_1 h_S_

-- %54 = stablehlo.multiply %51, %52 : tensor<32x64xf32>
def val_main_v54 (x0 x1 : (⟨S32x256x64x64, .f32⟩ : BufTy).Contents (Elt F)) (x2 x3 : (⟨S32x64x2, .f32⟩ : BufTy).Contents (Elt F)) (x4 : (⟨S32x64, .i1⟩ : BufTy).Contents (Elt F)) : (⟨S32x64, .f32⟩ : BufTy).Contents (Elt F) :=
  mulf (val_main_v51 (F := F) x0 x1 x2 x3) (val_main_v52 (F := F) x4)

-- %cst_16 = stablehlo.constant dense<0.000000e+00> : tensor<f32>
def val_main_cst_16 : (⟨S_, .f32⟩ : BufTy).Contents (Elt F) :=
  constant S_ .f32 0x00000000#32

-- %55 = stablehlo.reduce(%54 init: %cst_16) applies stablehlo.add across dimensions = [0, 1] : (tensor<32x64xf32>, tensor<f32>) -> tensor<f32> {
def val_main_v55 (x0 x1 : (⟨S32x256x64x64, .f32⟩ : BufTy).Contents (Elt F)) (x2 x3 : (⟨S32x64x2, .f32⟩ : BufTy).Contents (Elt F)) (x4 : (⟨S32x64, .i1⟩ : BufTy).Contents (Elt F)) : (⟨S_, .f32⟩ : BufTy).Contents (Elt F) :=
  Host.reduceAdd (val_main_v54 (F := F) x0 x1 x2 x3 x4) (val_main_cst_16 (F := F)) reducesTo_S32x64_S_d0_1 h_S_

-- %cst_17 = stablehlo.constant dense<1.000000e+00> : tensor<f32>
def val_main_cst_17 : (⟨S_, .f32⟩ : BufTy).Contents (Elt F) :=
  constant S_ .f32 0x3F800000#32

-- %56 = stablehlo.maximum %53, %cst_17 : tensor<f32>
def val_main_v56 (x4 : (⟨S32x64, .i1⟩ : BufTy).Contents (Elt F)) : (⟨S_, .f32⟩ : BufTy).Contents (Elt F) :=
  maximumf (val_main_v53 (F := F) x4) (val_main_cst_17 (F := F))

-- %57 = stablehlo.divide %55, %56 : tensor<f32>
def val_main_v57 (x0 x1 : (⟨S32x256x64x64, .f32⟩ : BufTy).Contents (Elt F)) (x2 x3 : (⟨S32x64x2, .f32⟩ : BufTy).Contents (Elt F)) (x4 : (⟨S32x64, .i1⟩ : BufTy).Contents (Elt F)) : (⟨S_, .f32⟩ : BufTy).Contents (Elt F) :=
  Host.divf (val_main_v55 (F := F) x0 x1 x2 x3 x4) (val_main_v56 (F := F) x4)

end Cert.RefStages

end
-- ==== Proof.LibFold.lean ====
/-
  A value stored into a typed buffer and read back is the value.

  An operation of an outlined function stores its result through a transport along its buffer's type equation, and the
  next operation reads it back through the inverse transport. Evaluating a line of such operations leaves these pairs
  nested one inside another around every intermediate value. The two transports cancel whatever the equation's proof
  is, so one rewriting pass with this fact removes them all before the value is compared with anything.
-/
import Idealize.ShloMosaic.Lib.StableHlo
import Idealize.ShloMosaic.Lib.StableHlo.Run

noncomputable section

namespace Cert.Lib.Fold

open Idealize.ShloMosaic Idealize.ShloMosaic.StableHlo

variable {sig : RefSig} {Val : EltTy → Type}

/-- A value stored into a typed buffer and read back is the value: the two transports along the buffer's type equation
    cancel. -/
theorem ofBuf_toBuf {T : BufTy} (x : TRef sig T) (v : T.Contents Val) : x.ofBuf (x.toBuf v) = v := by
  obtain ⟨r, h, hd, hu⟩ := x
  subst h
  rfl

end Cert.Lib.Fold

end
-- ==== Proof.RefOps.lean ====
/-
  The reference program's operations, in seven slices.

  The reference is a straight line of 163 host operations, each writing a buffer of its own. They are listed here in
  program order and cut into seven consecutive slices — the two feature normalisations; the source cell words; the
  target cell words; the gather of the queries; the logits and their log-softmax; the gather of the log-probabilities
  and its negation; the masked mean. For each slice the buffers it writes are listed, so that a buffer outside that
  list keeps its contents through the slice.
-/
import proofs.«121640_j13554916786246_2_alg».proof.Proof.Gen.ReferenceIdeal
import proofs.«121640_j13554916786246_2_alg».proof.Proof.RefStages
import Idealize.ShloMosaic.Lib.StableHlo.Run
import proofs.«121640_j13554916786246_2_alg».proof.Proof.LibFold

noncomputable section

namespace Cert.RefOps

open Cert.ReferenceIdeal Cert.ReferenceIdeal.Gen Cert.RefStages Idealize.ShloMosaic Idealize.ShloMosaic.TcCoe Idealize.SL.Sem Idealize.ShloMosaic.StableHlo

variable {F : FTy → Type} [FloatOps F]

/-- @main's 163 operations, in order (a called function's operations stand in its call's place). -/
abbrev ops : List (HloOp τ sig (Elt F)) :=
  [ TRef.binary (TRef.of (T := ⟨S32x256x64x64, .f32⟩) main_arg0) (TRef.of (T := ⟨S32x256x64x64, .f32⟩) main_arg0) (TRef.of (T := ⟨S32x256x64x64, .f32⟩) main_call0_v0) mulf,
    TRef.nullary (TRef.of (T := ⟨S_, .f32⟩) main_call0_cst) (constant S_ .f32 0x00000000#32),
    TRef.binary (TRef.of (T := ⟨S32x256x64x64, .f32⟩) main_call0_v0) (TRef.of (T := ⟨S_, .f32⟩) main_call0_cst) (TRef.of (T := ⟨S32x64x64, .f32⟩) main_call0_v1) (fun x v => Host.reduceAdd x v reducesTo_S32x256x64x64_S32x64x64_d1 h_S_),
    TRef.unary (TRef.of (T := ⟨S32x64x64, .f32⟩) main_call0_v1) (TRef.of (T := ⟨S32x1x64x64, .f32⟩) main_call0_v2) (broadcastInDim S32x1x64x64 ![0, 2, 3] bcast_S32x64x64_S32x1x64x64_0_2_3),
    TRef.unary (TRef.of (T := ⟨S32x1x64x64, .f32⟩) main_call0_v2) (TRef.of (T := ⟨S32x1x64x64, .f32⟩) main_v0) Host.sqrt,
    nullary main_cst (constant S_ .f32 0x2B8CBCCC#32),
    unary main_cst main_v1 (broadcastInDim S32x1x64x64 ![] bcast_S_S32x1x64x64 : (⟨S_, .f32⟩ : BufTy).Contents (Elt F) → (⟨S32x1x64x64, .f32⟩ : BufTy).Contents (Elt F)),
    binary main_v0 main_v1 main_v2 (maximumf : (⟨S32x1x64x64, .f32⟩ : BufTy).Contents (Elt F) → (⟨S32x1x64x64, .f32⟩ : BufTy).Contents (Elt F) → (⟨S32x1x64x64, .f32⟩ : BufTy).Contents (Elt F)),
    unary main_v2 main_v3 (broadcastInDim S32x256x64x64 ![0, 1, 2, 3] bcast_S32x1x64x64_S32x256x64x64_0_1_2_3 : (⟨S32x1x64x64, .f32⟩ : BufTy).Contents (Elt F) → (⟨S32x256x64x64, .f32⟩ : BufTy).Contents (Elt F)),
    binary main_arg0 main_v3 main_v4 (Host.divf : (⟨S32x256x64x64, .f32⟩ : BufTy).Contents (Elt F) → (⟨S32x256x64x64, .f32⟩ : BufTy).Contents (Elt F) → (⟨S32x256x64x64, .f32⟩ : BufTy).Contents (Elt F)),
    reshape main_v4 main_v5 rfl shapeCasts_S32x256x64x64_S32x256x4096,
    TRef.binary (TRef.of (T := ⟨S32x256x64x64, .f32⟩) main_arg1) (TRef.of (T := ⟨S32x256x64x64, .f32⟩) main_arg1) (TRef.of (T := ⟨S32x256x64x64, .f32⟩) main_call1_v0) mulf,
    TRef.nullary (TRef.of (T := ⟨S_, .f32⟩) main_call1_cst) (constant S_ .f32 0x00000000#32),
    TRef.binary (TRef.of (T := ⟨S32x256x64x64, .f32⟩) main_call1_v0) (TRef.of (T := ⟨S_, .f32⟩) main_call1_cst) (TRef.of (T := ⟨S32x64x64, .f32⟩) main_call1_v1) (fun x v => Host.reduceAdd x v reducesTo_S32x256x64x64_S32x64x64_d1 h_S_),
    TRef.unary (TRef.of (T := ⟨S32x64x64, .f32⟩) main_call1_v1) (TRef.of (T := ⟨S32x1x64x64, .f32⟩) main_call1_v2) (broadcastInDim S32x1x64x64 ![0, 2, 3] bcast_S32x64x64_S32x1x64x64_0_2_3),
    TRef.unary (TRef.of (T := ⟨S32x1x64x64, .f32⟩) main_call1_v2) (TRef.of (T := ⟨S32x1x64x64, .f32⟩) main_v6) Host.sqrt,
    nullary main_cst_0 (constant S_ .f32 0x2B8CBCCC#32),
    unary main_cst_0 main_v7 (broadcastInDim S32x1x64x64 ![] bcast_S_S32x1x64x64 : (⟨S_, .f32⟩ : BufTy).Contents (Elt F) → (⟨S32x1x64x64, .f32⟩ : BufTy).Contents (Elt F)),
    binary main_v6 main_v7 main_v8 (maximumf : (⟨S32x1x64x64, .f32⟩ : BufTy).Contents (Elt F) → (⟨S32x1x64x64, .f32⟩ : BufTy).Contents (Elt F) → (⟨S32x1x64x64, .f32⟩ : BufTy).Contents (Elt F)),
    unary main_v8 main_v9 (broadcastInDim S32x256x64x64 ![0, 1, 2, 3] bcast_S32x1x64x64_S32x256x64x64_0_1_2_3 : (⟨S32x1x64x64, .f32⟩ : BufTy).Contents (Elt F) → (⟨S32x256x64x64, .f32⟩ : BufTy).Contents (Elt F)),
    binary main_arg1 main_v9 main_v10 (Host.divf : (⟨S32x256x64x64, .f32⟩ : BufTy).Contents (Elt F) → (⟨S32x256x64x64, .f32⟩ : BufTy).Contents (Elt F) → (⟨S32x256x64x64, .f32⟩ : BufTy).Contents (Elt F)),
    reshape main_v10 main_v11 rfl shapeCasts_S32x256x64x64_S32x256x4096,
    unary main_arg2 main_v12 ((extractStridedSlice S32x64x1 ![0, 0, 0] · slices_S32x64x2_S32x64x1_0_0_0) : (⟨S32x64x2, .f32⟩ : BufTy).Contents (Elt F) → (⟨S32x64x1, .f32⟩ : BufTy).Contents (Elt F)),
    reshape main_v12 main_v13 rfl shapeCasts_S32x64x1_S32x64,
    nullary main_cst_1 (constant S_ .f32 0x41800000#32),
    unary main_cst_1 main_v14 (broadcastInDim S32x64 ![] bcast_S_S32x64 : (⟨S_, .f32⟩ : BufTy).Contents (Elt F) → (⟨S32x64, .f32⟩ : BufTy).Contents (Elt F)),
    binary main_v13 main_v14 main_v15 (Host.divf : (⟨S32x64, .f32⟩ : BufTy).Contents (Elt F) → (⟨S32x64, .f32⟩ : BufTy).Contents (Elt F) → (⟨S32x64, .f32⟩ : BufTy).Contents (Elt F)),
    unary main_v15 main_v16 (fptosi 32 : (⟨S32x64, .f32⟩ : BufTy).Contents (Elt F) → (⟨S32x64, .i32⟩ : BufTy).Contents (Elt F)),
    nullary main_c (constantI S_ 32 0#32),
    nullary main_c_2 (constantI S_ 32 63#32),
    TRef.unary (TRef.of (T := ⟨S_, .i32⟩) main_c) (TRef.of (T := ⟨S_, .i32⟩) main_call2_v0) id,
    TRef.unary (TRef.of (T := ⟨S_, .i32⟩) main_call2_v0) (TRef.of (T := ⟨S32x64, .i32⟩) main_call2_v1) (broadcastInDim S32x64 ![] bcast_S_S32x64),
    TRef.binary (TRef.of (T := ⟨S32x64, .i32⟩) main_call2_v1) (TRef.of (T := ⟨S32x64, .i32⟩) main_v16) (TRef.of (T := ⟨S32x64, .i32⟩) main_call2_v2) maxsi,
    TRef.unary (TRef.of (T := ⟨S_, .i32⟩) main_c_2) (TRef.of (T := ⟨S_, .i32⟩) main_call2_v3) id,
    TRef.unary (TRef.of (T := ⟨S_, .i32⟩) main_call2_v3) (TRef.of (T := ⟨S32x64, .i32⟩) main_call2_v4) (broadcastInDim S32x64 ![] bcast_S_S32x64),
    TRef.binary (TRef.of (T := ⟨S32x64, .i32⟩) main_call2_v4) (TRef.of (T := ⟨S32x64, .i32⟩) main_call2_v2) (TRef.of (T := ⟨S32x64, .i32⟩) main_v17) minsi,
    unary main_arg2 main_v18 ((extractStridedSlice S32x64x1 ![0, 0, 1] · slices_S32x64x2_S32x64x1_0_0_1) : (⟨S32x64x2, .f32⟩ : BufTy).Contents (Elt F) → (⟨S32x64x1, .f32⟩ : BufTy).Contents (Elt F)),
    reshape main_v18 main_v19 rfl shapeCasts_S32x64x1_S32x64,
    nullary main_cst_3 (constant S_ .f32 0x41800000#32),
    unary main_cst_3 main_v20 (broadcastInDim S32x64 ![] bcast_S_S32x64 : (⟨S_, .f32⟩ : BufTy).Contents (Elt F) → (⟨S32x64, .f32⟩ : BufTy).Contents (Elt F)),
    binary main_v19 main_v20 main_v21 (Host.divf : (⟨S32x64, .f32⟩ : BufTy).Contents (Elt F) → (⟨S32x64, .f32⟩ : BufTy).Contents (Elt F) → (⟨S32x64, .f32⟩ : BufTy).Contents (Elt F)),
    unary main_v21 main_v22 (fptosi 32 : (⟨S32x64, .f32⟩ : BufTy).Contents (Elt F) → (⟨S32x64, .i32⟩ : BufTy).Contents (Elt F)),
    nullary main_c_4 (constantI S_ 32 0#32),
    nullary main_c_5 (constantI S_ 32 63#32),
    TRef.unary (TRef.of (T := ⟨S_, .i32⟩) main_c_4) (TRef.of (T := ⟨S_, .i32⟩) main_call3_v0) id,
    TRef.unary (TRef.of (T := ⟨S_, .i32⟩) main_call3_v0) (TRef.of (T := ⟨S32x64, .i32⟩) main_call3_v1) (broadcastInDim S32x64 ![] bcast_S_S32x64),
    TRef.binary (TRef.of (T := ⟨S32x64, .i32⟩) main_call3_v1) (TRef.of (T := ⟨S32x64, .i32⟩) main_v22) (TRef.of (T := ⟨S32x64, .i32⟩) main_call3_v2) maxsi,
    TRef.unary (TRef.of (T := ⟨S_, .i32⟩) main_c_5) (TRef.of (T := ⟨S_, .i32⟩) main_call3_v3) id,
    TRef.unary (TRef.of (T := ⟨S_, .i32⟩) main_call3_v3) (TRef.of (T := ⟨S32x64, .i32⟩) main_call3_v4) (broadcastInDim S32x64 ![] bcast_S_S32x64),
    TRef.binary (TRef.of (T := ⟨S32x64, .i32⟩) main_call3_v4) (TRef.of (T := ⟨S32x64, .i32⟩) main_call3_v2) (TRef.of (T := ⟨S32x64, .i32⟩) main_v23) minsi,
    nullary main_c_6 (constantI S_ 32 64#32),
    unary main_c_6 main_v24 (broadcastInDim S32x64 ![] bcast_S_S32x64 : (⟨S_, .i32⟩ : BufTy).Contents (Elt F) → (⟨S32x64, .i32⟩ : BufTy).Contents (Elt F)),
    binary main_v23 main_v24 main_v25 (muli : (⟨S32x64, .i32⟩ : BufTy).Contents (Elt F) → (⟨S32x64, .i32⟩ : BufTy).Contents (Elt F) → (⟨S32x64, .i32⟩ : BufTy).Contents (Elt F)),
    binary main_v25 main_v17 main_v26 (addi : (⟨S32x64, .i32⟩ : BufTy).Contents (Elt F) → (⟨S32x64, .i32⟩ : BufTy).Contents (Elt F) → (⟨S32x64, .i32⟩ : BufTy).Contents (Elt F)),
    unary main_arg3 main_v27 ((extractStridedSlice S32x64x1 ![0, 0, 0] · slices_S32x64x2_S32x64x1_0_0_0) : (⟨S32x64x2, .f32⟩ : BufTy).Contents (Elt F) → (⟨S32x64x1, .f32⟩ : BufTy).Contents (Elt F)),
    reshape main_v27 main_v28 rfl shapeCasts_S32x64x1_S32x64,
    nullary main_cst_7 (constant S_ .f32 0x41800000#32),
    unary main_cst_7 main_v29 (broadcastInDim S32x64 ![] bcast_S_S32x64 : (⟨S_, .f32⟩ : BufTy).Contents (Elt F) → (⟨S32x64, .f32⟩ : BufTy).Contents (Elt F)),
    binary main_v28 main_v29 main_v30 (Host.divf : (⟨S32x64, .f32⟩ : BufTy).Contents (Elt F) → (⟨S32x64, .f32⟩ : BufTy).Contents (Elt F) → (⟨S32x64, .f32⟩ : BufTy).Contents (Elt F)),
    unary main_v30 main_v31 (fptosi 32 : (⟨S32x64, .f32⟩ : BufTy).Contents (Elt F) → (⟨S32x64, .i32⟩ : BufTy).Contents (Elt F)),
    nullary main_c_8 (constantI S_ 32 0#32),
    nullary main_c_9 (constantI S_ 32 63#32),
    TRef.unary (TRef.of (T := ⟨S_, .i32⟩) main_c_8) (TRef.of (T := ⟨S_, .i32⟩) main_call4_v0) id,
    TRef.unary (TRef.of (T := ⟨S_, .i32⟩) main_call4_v0) (TRef.of (T := ⟨S32x64, .i32⟩) main_call4_v1) (broadcastInDim S32x64 ![] bcast_S_S32x64),
    TRef.binary (TRef.of (T := ⟨S32x64, .i32⟩) main_call4_v1) (TRef.of (T := ⟨S32x64, .i32⟩) main_v31) (TRef.of (T := ⟨S32x64, .i32⟩) main_call4_v2) maxsi,
    TRef.unary (TRef.of (T := ⟨S_, .i32⟩) main_c_9) (TRef.of (T := ⟨S_, .i32⟩) main_call4_v3) id,
    TRef.unary (TRef.of (T := ⟨S_, .i32⟩) main_call4_v3) (TRef.of (T := ⟨S32x64, .i32⟩) main_call4_v4) (broadcastInDim S32x64 ![] bcast_S_S32x64),
    TRef.binary (TRef.of (T := ⟨S32x64, .i32⟩) main_call4_v4) (TRef.of (T := ⟨S32x64, .i32⟩) main_call4_v2) (TRef.of (T := ⟨S32x64, .i32⟩) main_v32) minsi,
    unary main_arg3 main_v33 ((extractStridedSlice S32x64x1 ![0, 0, 1] · slices_S32x64x2_S32x64x1_0_0_1) : (⟨S32x64x2, .f32⟩ : BufTy).Contents (Elt F) → (⟨S32x64x1, .f32⟩ : BufTy).Contents (Elt F)),
    reshape main_v33 main_v34 rfl shapeCasts_S32x64x1_S32x64,
    nullary main_cst_10 (constant S_ .f32 0x41800000#32),
    unary main_cst_10 main_v35 (broadcastInDim S32x64 ![] bcast_S_S32x64 : (⟨S_, .f32⟩ : BufTy).Contents (Elt F) → (⟨S32x64, .f32⟩ : BufTy).Contents (Elt F)),
    binary main_v34 main_v35 main_v36 (Host.divf : (⟨S32x64, .f32⟩ : BufTy).Contents (Elt F) → (⟨S32x64, .f32⟩ : BufTy).Contents (Elt F) → (⟨S32x64, .f32⟩ : BufTy).Contents (Elt F)),
    unary main_v36 main_v37 (fptosi 32 : (⟨S32x64, .f32⟩ : BufTy).Contents (Elt F) → (⟨S32x64, .i32⟩ : BufTy).Contents (Elt F)),
    nullary main_c_11 (constantI S_ 32 0#32),
    nullary main_c_12 (constantI S_ 32 63#32),
    TRef.unary (TRef.of (T := ⟨S_, .i32⟩) main_c_11) (TRef.of (T := ⟨S_, .i32⟩) main_call5_v0) id,
    TRef.unary (TRef.of (T := ⟨S_, .i32⟩) main_call5_v0) (TRef.of (T := ⟨S32x64, .i32⟩) main_call5_v1) (broadcastInDim S32x64 ![] bcast_S_S32x64),
    TRef.binary (TRef.of (T := ⟨S32x64, .i32⟩) main_call5_v1) (TRef.of (T := ⟨S32x64, .i32⟩) main_v37) (TRef.of (T := ⟨S32x64, .i32⟩) main_call5_v2) maxsi,
    TRef.unary (TRef.of (T := ⟨S_, .i32⟩) main_c_12) (TRef.of (T := ⟨S_, .i32⟩) main_call5_v3) id,
    TRef.unary (TRef.of (T := ⟨S_, .i32⟩) main_call5_v3) (TRef.of (T := ⟨S32x64, .i32⟩) main_call5_v4) (broadcastInDim S32x64 ![] bcast_S_S32x64),
    TRef.binary (TRef.of (T := ⟨S32x64, .i32⟩) main_call5_v4) (TRef.of (T := ⟨S32x64, .i32⟩) main_call5_v2) (TRef.of (T := ⟨S32x64, .i32⟩) main_v38) minsi,
    nullary main_c_13 (constantI S_ 32 64#32),
    unary main_c_13 main_v39 (broadcastInDim S32x64 ![] bcast_S_S32x64 : (⟨S_, .i32⟩ : BufTy).Contents (Elt F) → (⟨S32x64, .i32⟩ : BufTy).Contents (Elt F)),
    binary main_v38 main_v39 main_v40 (muli : (⟨S32x64, .i32⟩ : BufTy).Contents (Elt F) → (⟨S32x64, .i32⟩ : BufTy).Contents (Elt F) → (⟨S32x64, .i32⟩ : BufTy).Contents (Elt F)),
    binary main_v40 main_v32 main_v41 (addi : (⟨S32x64, .i32⟩ : BufTy).Contents (Elt F) → (⟨S32x64, .i32⟩ : BufTy).Contents (Elt F) → (⟨S32x64, .i32⟩ : BufTy).Contents (Elt F)),
    unary main_v26 main_v42 (broadcastInDim S32x1x64 ![0, 2] bcast_S32x64_S32x1x64_0_2 : (⟨S32x64, .i32⟩ : BufTy).Contents (Elt F) → (⟨S32x1x64, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S32x1x64, .i32⟩) main_call6_v0) (broadcastInDim S32x1x64 ![] bcast_S_S32x1x64),
    TRef.binary (TRef.of (T := ⟨S32x1x64, .i32⟩) main_v42) (TRef.of (T := ⟨S32x1x64, .i32⟩) main_call6_v0) (TRef.of (T := ⟨S32x1x64, .i1⟩) main_call6_v1) (cmpi .slt),
    TRef.nullary (TRef.of (T := ⟨S_, .i32⟩) main_call6_c_0) (constantI S_ 32 4096#32),
    TRef.unary (TRef.of (T := ⟨S_, .i32⟩) main_call6_c_0) (TRef.of (T := ⟨S32x1x64, .i32⟩) main_call6_v2) (broadcastInDim S32x1x64 ![] bcast_S_S32x1x64),
    TRef.binary (TRef.of (T := ⟨S32x1x64, .i32⟩) main_v42) (TRef.of (T := ⟨S32x1x64, .i32⟩) main_call6_v2) (TRef.of (T := ⟨S32x1x64, .i32⟩) main_call6_v3) addi,
    TRef.ternary (TRef.of (T := ⟨S32x1x64, .i1⟩) main_call6_v1) (TRef.of (T := ⟨S32x1x64, .i32⟩) main_call6_v3) (TRef.of (T := ⟨S32x1x64, .i32⟩) main_v42) (TRef.of (T := ⟨S32x1x64, .i32⟩) main_call6_v4) select,
    TRef.reshape (TRef.of (T := ⟨S32x1x64, .i32⟩) main_call6_v4) (TRef.of (T := ⟨S32x64x1, .i32⟩) main_call6_v5) rfl shapeCasts_S32x1x64_S32x64x1,
    TRef.nullary (TRef.of (T := ⟨S1, .i32⟩) main_call6_c_1) (constantI S1 32 4095#32),
    TRef.nullary (TRef.of (T := ⟨S_, .i32⟩) main_call6_c_2) (constantI S_ 32 0#32),
    TRef.unary (TRef.of (T := ⟨S_, .i32⟩) main_call6_c_2) (TRef.of (T := ⟨S32x64x1, .i32⟩) main_call6_v6) (broadcastInDim S32x64x1 ![] bcast_S_S32x64x1),
    TRef.binary (TRef.of (T := ⟨S32x64x1, .i32⟩) main_call6_v5) (TRef.of (T := ⟨S32x64x1, .i32⟩) main_call6_v6) (TRef.of (T := ⟨S32x64x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S32x64x1, .i32⟩) main_call6_v9) (broadcastInDim S32x64x1 ![0, 1, 2] bcast_S1x1x1_S32x64x1_0_1_2),
    TRef.binary (TRef.of (T := ⟨S32x64x1, .i32⟩) main_call6_v5) (TRef.of (T := ⟨S32x64x1, .i32⟩) main_call6_v9) (TRef.of (T := ⟨S32x64x1, .i1⟩) main_call6_v10) (cmpi .sle),
    TRef.binary (TRef.of (T := ⟨S32x64x1, .i1⟩) main_call6_v7) (TRef.of (T := ⟨S32x64x1, .i1⟩) main_call6_v10) (TRef.of (T := ⟨S32x64x1, .i1⟩) main_call6_v11) andi,
    TRef.nullary (TRef.of (T := ⟨S_, .i1⟩) main_call6_c_3) (constantI S_ 1 1#1),
    TRef.binary (TRef.of (T := ⟨S32x64x1, .i1⟩) main_call6_v11) (TRef.of (T := ⟨S_, .i1⟩) main_call6_c_3) (TRef.of (T := ⟨S32x64, .i1⟩) main_call6_v12) (fun x v => Host.reduce IntOp.andi x v reducesTo_S32x64x1_S32x64_d2 h_S_),
    TRef.binary (TRef.of (T := ⟨S32x256x4096, .f32⟩) main_v5) (TRef.of (T := ⟨S32x64x1, .i32⟩) main_call6_v5) (TRef.of (T := ⟨S32x256x64, .f32⟩) main_call6_v13) (fun x i => Host.gather gather_S32x256x4096_S32x64x1_S32x256x64_1_2_0_0_2_2_12561 x i),
    TRef.unary (TRef.of (T := ⟨S32x64, .i1⟩) main_call6_v12) (TRef.of (T := ⟨S32x256x64, .i1⟩) main_call6_v14) (broadcastInDim S32x256x64 ![0, 2] bcast_S32x64_S32x256x64_0_2),
    TRef.nullary (TRef.of (T := ⟨S_, .f32⟩) main_call6_cst) (constant S_ .f32 0x7FC00000#32),
    TRef.unary (TRef.of (T := ⟨S_, .f32⟩) main_call6_cst) (TRef.of (T := ⟨S32x256x64, .f32⟩) main_call6_v15) (broadcastInDim S32x256x64 ![] bcast_S_S32x256x64),
    TRef.ternary (TRef.of (T := ⟨S32x256x64, .i1⟩) main_call6_v14) (TRef.of (T := ⟨S32x256x64, .f32⟩) main_call6_v13) (TRef.of (T := ⟨S32x256x64, .f32⟩) main_call6_v15) (TRef.of (T := ⟨S32x256x64, .f32⟩) main_v43) select,
    binary main_v43 main_v11 main_v44 ((fun l r => Host.dotGeneral dot_S32x256x64_S32x256x4096_S32x64x4096_1_1_2_2_0_0 none l r) : (⟨S32x256x64, .f32⟩ : BufTy).Contents (Elt F) → (⟨S32x256x4096, .f32⟩ : BufTy).Contents (Elt F) → (⟨S32x64x4096, .f32⟩ : BufTy).Contents (Elt F)),
    nullary main_cst_14 (constant S_ .f32 0x3C23D70A#32),
    unary main_cst_14 main_v45 (broadcastInDim S32x64x4096 ![] bcast_S_S32x64x4096 : (⟨S_, .f32⟩ : BufTy).Contents (Elt F) → (⟨S32x64x4096, .f32⟩ : BufTy).Contents (Elt F)),
    binary main_v44 main_v45 main_v46 (Host.divf : (⟨S32x64x4096, .f32⟩ : BufTy).Contents (Elt F) → (⟨S32x64x4096, .f32⟩ : BufTy).Contents (Elt F) → (⟨S32x64x4096, .f32⟩ : BufTy).Contents (Elt F)),
    TRef.nullary (TRef.of (T := ⟨S_, .f32⟩) main_call7_cst) (constant S_ .f32 0xFF800000#32),
    TRef.binary (TRef.of (T := ⟨S32x64x4096, .f32⟩) main_v46) (TRef.of (T := ⟨S_, .f32⟩) main_call7_cst) (TRef.of (T := ⟨S32x64, .f32⟩) main_call7_v0) (fun x v => Host.reduce FloatOps.maximumf x v reducesTo_S32x64x4096_S32x64_d2 h_S_),
    TRef.nullary (TRef.of (T := ⟨S_, .f32⟩) main_call7_cst_0) (constant S_ .f32 0xFF800000#32),
    TRef.unary (TRef.of (T := ⟨S_, .f32⟩) main_call7_cst_0) (TRef.of (T := ⟨S32x64, .f32⟩) main_call7_v1) (broadcastInDim S32x64 ![] bcast_S_S32x64),
    TRef.binary (TRef.of (T := ⟨S32x64, .f32⟩) main_call7_v1) (TRef.of (T := ⟨S32x64, .f32⟩) main_call7_v0) (TRef.of (T := ⟨S32x64, .f32⟩) main_call7_v2) maximumf,
    TRef.unary (TRef.of (T := ⟨S32x64, .f32⟩) main_call7_v2) (TRef.of (T := ⟨S32x64x1, .f32⟩) main_call7_v3) (broadcastInDim S32x64x1 ![0, 1] bcast_S32x64_S32x64x1_0_1),
    TRef.unary (TRef.of (T := ⟨S32x64x1, .f32⟩) main_call7_v3) (TRef.of (T := ⟨S32x64x4096, .f32⟩) main_call7_v4) (broadcastInDim S32x64x4096 ![0, 1, 2] bcast_S32x64x1_S32x64x4096_0_1_2),
    TRef.binary (TRef.of (T := ⟨S32x64x4096, .f32⟩) main_v46) (TRef.of (T := ⟨S32x64x4096, .f32⟩) main_call7_v4) (TRef.of (T := ⟨S32x64x4096, .f32⟩) main_call7_v5) subf,
    TRef.unary (TRef.of (T := ⟨S32x64x4096, .f32⟩) main_call7_v5) (TRef.of (T := ⟨S32x64x4096, .f32⟩) main_call7_v6) Host.exp,
    TRef.nullary (TRef.of (T := ⟨S_, .f32⟩) main_call7_cst_1) (constant S_ .f32 0x00000000#32),
    TRef.binary (TRef.of (T := ⟨S32x64x4096, .f32⟩) main_call7_v6) (TRef.of (T := ⟨S_, .f32⟩) main_call7_cst_1) (TRef.of (T := ⟨S32x64, .f32⟩) main_call7_v7) (fun x v => Host.reduceAdd x v reducesTo_S32x64x4096_S32x64_d2 h_S_),
    TRef.unary (TRef.of (T := ⟨S32x64, .f32⟩) main_call7_v7) (TRef.of (T := ⟨S32x64x1, .f32⟩) main_call7_v8) (broadcastInDim S32x64x1 ![0, 1] bcast_S32x64_S32x64x1_0_1),
    TRef.unary (TRef.of (T := ⟨S32x64x1, .f32⟩) main_call7_v8) (TRef.of (T := ⟨S32x64x1, .f32⟩) main_call7_v9) Host.log,
    TRef.unary (TRef.of (T := ⟨S32x64x1, .f32⟩) main_call7_v9) (TRef.of (T := ⟨S32x64x4096, .f32⟩) main_call7_v10) (broadcastInDim S32x64x4096 ![0, 1, 2] bcast_S32x64x1_S32x64x4096_0_1_2),
    TRef.binary (TRef.of (T := ⟨S32x64x4096, .f32⟩) main_call7_v5) (TRef.of (T := ⟨S32x64x4096, .f32⟩) main_call7_v10) (TRef.of (T := ⟨S32x64x4096, .f32⟩) main_v47) subf,
    unary main_v41 main_v48 (broadcastInDim S32x64x1 ![0, 1] bcast_S32x64_S32x64x1_0_1 : (⟨S32x64, .i32⟩ : BufTy).Contents (Elt F) → (⟨S32x64x1, .i32⟩ : BufTy).Contents (Elt F)),
    TRef.nullary (TRef.of (T := ⟨S_, .i32⟩) main_call8_c) (constantI S_ 32 0#32),
    TRef.unary (TRef.of (T := ⟨S_, .i32⟩) main_call8_c) (TRef.of (T := ⟨S32x64x1, .i32⟩) main_call8_v0) (broadcastInDim S32x64x1 ![] bcast_S_S32x64x1),
    TRef.binary (TRef.of (T := ⟨S32x64x1, .i32⟩) main_v48) (TRef.of (T := ⟨S32x64x1, .i32⟩) main_call8_v0) (TRef.of (T := ⟨S32x64x1, .i1⟩) main_call8_v1) (cmpi .slt),
    TRef.nullary (TRef.of (T := ⟨S_, .i32⟩) main_call8_c_0) (constantI S_ 32 4096#32),
    TRef.unary (TRef.of (T := ⟨S_, .i32⟩) main_call8_c_0) (TRef.of (T := ⟨S32x64x1, .i32⟩) main_call8_v2) (broadcastInDim S32x64x1 ![] bcast_S_S32x64x1),
    TRef.binary (TRef.of (T := ⟨S32x64x1, .i32⟩) main_v48) (TRef.of (T := ⟨S32x64x1, .i32⟩) main_call8_v2) (TRef.of (T := ⟨S32x64x1, .i32⟩) main_call8_v3) addi,
    TRef.ternary (TRef.of (T := ⟨S32x64x1, .i1⟩) main_call8_v1) (TRef.of (T := ⟨S32x64x1, .i32⟩) main_call8_v3) (TRef.of (T := ⟨S32x64x1, .i32⟩) main_v48) (TRef.of (T := ⟨S32x64x1, .i32⟩) main_call8_v4) select,
    TRef.reshape (TRef.of (T := ⟨S32x64x1, .i32⟩) main_call8_v4) (TRef.of (T := ⟨S32x64x1x1, .i32⟩) main_call8_v5) rfl shapeCasts_S32x64x1_S32x64x1x1,
    TRef.nullary (TRef.of (T := ⟨S1, .i32⟩) main_call8_c_1) (constantI S1 32 4095#32),
    TRef.nullary (TRef.of (T := ⟨S_, .i32⟩) main_call8_c_2) (constantI S_ 32 0#32),
    TRef.unary (TRef.of (T := ⟨S_, .i32⟩) main_call8_c_2) (TRef.of (T := ⟨S32x64x1x1, .i32⟩) main_call8_v6) (broadcastInDim S32x64x1x1 ![] bcast_S_S32x64x1x1),
    TRef.binary (TRef.of (T := ⟨S32x64x1x1, .i32⟩) main_call8_v5) (TRef.of (T := ⟨S32x64x1x1, .i32⟩) main_call8_v6) (TRef.of (T := ⟨S32x64x1x1, .i1⟩) main_call8_v7) (cmpi .sge),
    TRef.unary (TRef.of (T := ⟨S1, .i32⟩) main_call8_c_1) (TRef.of (T := ⟨S1x1x1x1, .i32⟩) main_call8_v8) (broadcastInDim S1x1x1x1 ![3] bcast_S1_S1x1x1x1_3),
    TRef.unary (TRef.of (T := ⟨S1x1x1x1, .i32⟩) main_call8_v8) (TRef.of (T := ⟨S32x64x1x1, .i32⟩) main_call8_v9) (broadcastInDim S32x64x1x1 ![0, 1, 2, 3] bcast_S1x1x1x1_S32x64x1x1_0_1_2_3),
    TRef.binary (TRef.of (T := ⟨S32x64x1x1, .i32⟩) main_call8_v5) (TRef.of (T := ⟨S32x64x1x1, .i32⟩) main_call8_v9) (TRef.of (T := ⟨S32x64x1x1, .i1⟩) main_call8_v10) (cmpi .sle),
    TRef.binary (TRef.of (T := ⟨S32x64x1x1, .i1⟩) main_call8_v7) (TRef.of (T := ⟨S32x64x1x1, .i1⟩) main_call8_v10) (TRef.of (T := ⟨S32x64x1x1, .i1⟩) main_call8_v11) andi,
    TRef.nullary (TRef.of (T := ⟨S_, .i1⟩) main_call8_c_3) (constantI S_ 1 1#1),
    TRef.binary (TRef.of (T := ⟨S32x64x1x1, .i1⟩) main_call8_v11) (TRef.of (T := ⟨S_, .i1⟩) main_call8_c_3) (TRef.of (T := ⟨S32x64x1, .i1⟩) main_call8_v12) (fun x v => Host.reduce IntOp.andi x v reducesTo_S32x64x1x1_S32x64x1_d3 h_S_),
    TRef.binary (TRef.of (T := ⟨S32x64x4096, .f32⟩) main_v47) (TRef.of (T := ⟨S32x64x1x1, .i32⟩) main_call8_v5) (TRef.of (T := ⟨S32x64x1, .f32⟩) main_call8_v13) (fun x i => Host.gather gather_S32x64x4096_S32x64x1x1_S32x64x1_n_2_01_01_2_3_111 x i),
    TRef.nullary (TRef.of (T := ⟨S_, .f32⟩) main_call8_cst) (constant S_ .f32 0x7FC00000#32),
    TRef.unary (TRef.of (T := ⟨S_, .f32⟩) main_call8_cst) (TRef.of (T := ⟨S32x64x1, .f32⟩) main_call8_v14) (broadcastInDim S32x64x1 ![] bcast_S_S32x64x1),
    TRef.ternary (TRef.of (T := ⟨S32x64x1, .i1⟩) main_call8_v12) (TRef.of (T := ⟨S32x64x1, .f32⟩) main_call8_v13) (TRef.of (T := ⟨S32x64x1, .f32⟩) main_call8_v14) (TRef.of (T := ⟨S32x64x1, .f32⟩) main_v49) select,
    reshape main_v49 main_v50 rfl shapeCasts_S32x64x1_S32x64,
    unary main_v50 main_v51 (Host.negf : (⟨S32x64, .f32⟩ : BufTy).Contents (Elt F) → (⟨S32x64, .f32⟩ : BufTy).Contents (Elt F)),
    unary main_arg4 main_v52 (uitofp .f32 : (⟨S32x64, .i1⟩ : BufTy).Contents (Elt F) → (⟨S32x64, .f32⟩ : BufTy).Contents (Elt F)),
    nullary main_cst_15 (constant S_ .f32 0x00000000#32),
    binary main_v52 main_cst_15 main_v53 ((fun x v => Host.reduceAdd x v reducesTo_S32x64_S_d0_1 h_S_) : (⟨S32x64, .f32⟩ : BufTy).Contents (Elt F) → (⟨S_, .f32⟩ : BufTy).Contents (Elt F) → (⟨S_, .f32⟩ : BufTy).Contents (Elt F)),
    binary main_v51 main_v52 main_v54 (mulf : (⟨S32x64, .f32⟩ : BufTy).Contents (Elt F) → (⟨S32x64, .f32⟩ : BufTy).Contents (Elt F) → (⟨S32x64, .f32⟩ : BufTy).Contents (Elt F)),
    nullary main_cst_16 (constant S_ .f32 0x00000000#32),
    binary main_v54 main_cst_16 main_v55 ((fun x v => Host.reduceAdd x v reducesTo_S32x64_S_d0_1 h_S_) : (⟨S32x64, .f32⟩ : BufTy).Contents (Elt F) → (⟨S_, .f32⟩ : BufTy).Contents (Elt F) → (⟨S_, .f32⟩ : BufTy).Contents (Elt F)),
    nullary main_cst_17 (constant S_ .f32 0x3F800000#32),
    binary main_v53 main_cst_17 main_v56 (maximumf : (⟨S_, .f32⟩ : BufTy).Contents (Elt F) → (⟨S_, .f32⟩ : BufTy).Contents (Elt F) → (⟨S_, .f32⟩ : BufTy).Contents (Elt F)),
    binary main_v55 main_v56 main_v57 (Host.divf : (⟨S_, .f32⟩ : BufTy).Contents (Elt F) → (⟨S_, .f32⟩ : BufTy).Contents (Elt F) → (⟨S_, .f32⟩ : BufTy).Contents (Elt F)) ]

/-- Slice A: operations 1 to 22. -/
abbrev opsA : List (HloOp τ sig (Elt F)) :=
  [ TRef.binary (TRef.of (T := ⟨S32x256x64x64, .f32⟩) main_arg0) (TRef.of (T := ⟨S32x256x64x64, .f32⟩) main_arg0) (TRef.of (T := ⟨S32x256x64x64, .f32⟩) main_call0_v0) mulf,
    TRef.nullary (TRef.of (T := ⟨S_, .f32⟩) main_call0_cst) (constant S_ .f32 0x00000000#32),
    TRef.binary (TRef.of (T := ⟨S32x256x64x64, .f32⟩) main_call0_v0) (TRef.of (T := ⟨S_, .f32⟩) main_call0_cst) (TRef.of (T := ⟨S32x64x64, .f32⟩) main_call0_v1) (fun x v => Host.reduceAdd x v reducesTo_S32x256x64x64_S32x64x64_d1 h_S_),
    TRef.unary (TRef.of (T := ⟨S32x64x64, .f32⟩) main_call0_v1) (TRef.of (T := ⟨S32x1x64x64, .f32⟩) main_call0_v2) (broadcastInDim S32x1x64x64 ![0, 2, 3] bcast_S32x64x64_S32x1x64x64_0_2_3),
    TRef.unary (TRef.of (T := ⟨S32x1x64x64, .f32⟩) main_call0_v2) (TRef.of (T := ⟨S32x1x64x64, .f32⟩) main_v0) Host.sqrt,
    nullary main_cst (constant S_ .f32 0x2B8CBCCC#32),
    unary main_cst main_v1 (broadcastInDim S32x1x64x64 ![] bcast_S_S32x1x64x64 : (⟨S_, .f32⟩ : BufTy).Contents (Elt F) → (⟨S32x1x64x64, .f32⟩ : BufTy).Contents (Elt F)),
    binary main_v0 main_v1 main_v2 (maximumf : (⟨S32x1x64x64, .f32⟩ : BufTy).Contents (Elt F) → (⟨S32x1x64x64, .f32⟩ : BufTy).Contents (Elt F) → (⟨S32x1x64x64, .f32⟩ : BufTy).Contents (Elt F)),
    unary main_v2 main_v3 (broadcastInDim S32x256x64x64 ![0, 1, 2, 3] bcast_S32x1x64x64_S32x256x64x64_0_1_2_3 : (⟨S32x1x64x64, .f32⟩ : BufTy).Contents (Elt F) → (⟨S32x256x64x64, .f32⟩ : BufTy).Contents (Elt F)),
    binary main_arg0 main_v3 main_v4 (Host.divf : (⟨S32x256x64x64, .f32⟩ : BufTy).Contents (Elt F) → (⟨S32x256x64x64, .f32⟩ : BufTy).Contents (Elt F) → (⟨S32x256x64x64, .f32⟩ : BufTy).Contents (Elt F)),
    reshape main_v4 main_v5 rfl shapeCasts_S32x256x64x64_S32x256x4096,
    TRef.binary (TRef.of (T := ⟨S32x256x64x64, .f32⟩) main_arg1) (TRef.of (T := ⟨S32x256x64x64, .f32⟩) main_arg1) (TRef.of (T := ⟨S32x256x64x64, .f32⟩) main_call1_v0) mulf,
    TRef.nullary (TRef.of (T := ⟨S_, .f32⟩) main_call1_cst) (constant S_ .f32 0x00000000#32),
    TRef.binary (TRef.of (T := ⟨S32x256x64x64, .f32⟩) main_call1_v0) (TRef.of (T := ⟨S_, .f32⟩) main_call1_cst) (TRef.of (T := ⟨S32x64x64, .f32⟩) main_call1_v1) (fun x v => Host.reduceAdd x v reducesTo_S32x256x64x64_S32x64x64_d1 h_S_),
    TRef.unary (TRef.of (T := ⟨S32x64x64, .f32⟩) main_call1_v1) (TRef.of (T := ⟨S32x1x64x64, .f32⟩) main_call1_v2) (broadcastInDim S32x1x64x64 ![0, 2, 3] bcast_S32x64x64_S32x1x64x64_0_2_3),
    TRef.unary (TRef.of (T := ⟨S32x1x64x64, .f32⟩) main_call1_v2) (TRef.of (T := ⟨S32x1x64x64, .f32⟩) main_v6) Host.sqrt,
    nullary main_cst_0 (constant S_ .f32 0x2B8CBCCC#32),
    unary main_cst_0 main_v7 (broadcastInDim S32x1x64x64 ![] bcast_S_S32x1x64x64 : (⟨S_, .f32⟩ : BufTy).Contents (Elt F) → (⟨S32x1x64x64, .f32⟩ : BufTy).Contents (Elt F)),
    binary main_v6 main_v7 main_v8 (maximumf : (⟨S32x1x64x64, .f32⟩ : BufTy).Contents (Elt F) → (⟨S32x1x64x64, .f32⟩ : BufTy).Contents (Elt F) → (⟨S32x1x64x64, .f32⟩ : BufTy).Contents (Elt F)),
    unary main_v8 main_v9 (broadcastInDim S32x256x64x64 ![0, 1, 2, 3] bcast_S32x1x64x64_S32x256x64x64_0_1_2_3 : (⟨S32x1x64x64, .f32⟩ : BufTy).Contents (Elt F) → (⟨S32x256x64x64, .f32⟩ : BufTy).Contents (Elt F)),
    binary main_arg1 main_v9 main_v10 (Host.divf : (⟨S32x256x64x64, .f32⟩ : BufTy).Contents (Elt F) → (⟨S32x256x64x64, .f32⟩ : BufTy).Contents (Elt F) → (⟨S32x256x64x64, .f32⟩ : BufTy).Contents (Elt F)),
    reshape main_v10 main_v11 rfl shapeCasts_S32x256x64x64_S32x256x4096 ]

/-- The buffers slice A writes. -/
abbrev opsA_W : List (Ref sig .tc) := [main_call0_v0, main_call0_cst, main_call0_v1, main_call0_v2, main_v0, main_cst, main_v1, main_v2, main_v3, main_v4, main_v5, main_call1_v0, main_call1_cst, main_call1_v1, main_call1_v2, main_v6, main_cst_0, main_v7, main_v8, main_v9, main_v10, main_v11]

/-- Slice B1: operations 23 to 54. -/
abbrev opsB1 : List (HloOp τ sig (Elt F)) :=
  [ unary main_arg2 main_v12 ((extractStridedSlice S32x64x1 ![0, 0, 0] · slices_S32x64x2_S32x64x1_0_0_0) : (⟨S32x64x2, .f32⟩ : BufTy).Contents (Elt F) → (⟨S32x64x1, .f32⟩ : BufTy).Contents (Elt F)),
    reshape main_v12 main_v13 rfl shapeCasts_S32x64x1_S32x64,
    nullary main_cst_1 (constant S_ .f32 0x41800000#32),
    unary main_cst_1 main_v14 (broadcastInDim S32x64 ![] bcast_S_S32x64 : (⟨S_, .f32⟩ : BufTy).Contents (Elt F) → (⟨S32x64, .f32⟩ : BufTy).Contents (Elt F)),
    binary main_v13 main_v14 main_v15 (Host.divf : (⟨S32x64, .f32⟩ : BufTy).Contents (Elt F) → (⟨S32x64, .f32⟩ : BufTy).Contents (Elt F) → (⟨S32x64, .f32⟩ : BufTy).Contents (Elt F)),
    unary main_v15 main_v16 (fptosi 32 : (⟨S32x64, .f32⟩ : BufTy).Contents (Elt F) → (⟨S32x64, .i32⟩ : BufTy).Contents (Elt F)),
    nullary main_c (constantI S_ 32 0#32),
    nullary main_c_2 (constantI S_ 32 63#32),
    TRef.unary (TRef.of (T := ⟨S_, .i32⟩) main_c) (TRef.of (T := ⟨S_, .i32⟩) main_call2_v0) id,
    TRef.unary (TRef.of (T := ⟨S_, .i32⟩) main_call2_v0) (TRef.of (T := ⟨S32x64, .i32⟩) main_call2_v1) (broadcastInDim S32x64 ![] bcast_S_S32x64),
    TRef.binary (TRef.of (T := ⟨S32x64, .i32⟩) main_call2_v1) (TRef.of (T := ⟨S32x64, .i32⟩) main_v16) (TRef.of (T := ⟨S32x64, .i32⟩) main_call2_v2) maxsi,
    TRef.unary (TRef.of (T := ⟨S_, .i32⟩) main_c_2) (TRef.of (T := ⟨S_, .i32⟩) main_call2_v3) id,
    TRef.unary (TRef.of (T := ⟨S_, .i32⟩) main_call2_v3) (TRef.of (T := ⟨S32x64, .i32⟩) main_call2_v4) (broadcastInDim S32x64 ![] bcast_S_S32x64),
    TRef.binary (TRef.of (T := ⟨S32x64, .i32⟩) main_call2_v4) (TRef.of (T := ⟨S32x64, .i32⟩) main_call2_v2) (TRef.of (T := ⟨S32x64, .i32⟩) main_v17) minsi,
    unary main_arg2 main_v18 ((extractStridedSlice S32x64x1 ![0, 0, 1] · slices_S32x64x2_S32x64x1_0_0_1) : (⟨S32x64x2, .f32⟩ : BufTy).Contents (Elt F) → (⟨S32x64x1, .f32⟩ : BufTy).Contents (Elt F)),
    reshape main_v18 main_v19 rfl shapeCasts_S32x64x1_S32x64,
    nullary main_cst_3 (constant S_ .f32 0x41800000#32),
    unary main_cst_3 main_v20 (broadcastInDim S32x64 ![] bcast_S_S32x64 : (⟨S_, .f32⟩ : BufTy).Contents (Elt F) → (⟨S32x64, .f32⟩ : BufTy).Contents (Elt F)),
    binary main_v19 main_v20 main_v21 (Host.divf : (⟨S32x64, .f32⟩ : BufTy).Contents (Elt F) → (⟨S32x64, .f32⟩ : BufTy).Contents (Elt F) → (⟨S32x64, .f32⟩ : BufTy).Contents (Elt F)),
    unary main_v21 main_v22 (fptosi 32 : (⟨S32x64, .f32⟩ : BufTy).Contents (Elt F) → (⟨S32x64, .i32⟩ : BufTy).Contents (Elt F)),
    nullary main_c_4 (constantI S_ 32 0#32),
    nullary main_c_5 (constantI S_ 32 63#32),
    TRef.unary (TRef.of (T := ⟨S_, .i32⟩) main_c_4) (TRef.of (T := ⟨S_, .i32⟩) main_call3_v0) id,
    TRef.unary (TRef.of (T := ⟨S_, .i32⟩) main_call3_v0) (TRef.of (T := ⟨S32x64, .i32⟩) main_call3_v1) (broadcastInDim S32x64 ![] bcast_S_S32x64),
    TRef.binary (TRef.of (T := ⟨S32x64, .i32⟩) main_call3_v1) (TRef.of (T := ⟨S32x64, .i32⟩) main_v22) (TRef.of (T := ⟨S32x64, .i32⟩) main_call3_v2) maxsi,
    TRef.unary (TRef.of (T := ⟨S_, .i32⟩) main_c_5) (TRef.of (T := ⟨S_, .i32⟩) main_call3_v3) id,
    TRef.unary (TRef.of (T := ⟨S_, .i32⟩) main_call3_v3) (TRef.of (T := ⟨S32x64, .i32⟩) main_call3_v4) (broadcastInDim S32x64 ![] bcast_S_S32x64),
    TRef.binary (TRef.of (T := ⟨S32x64, .i32⟩) main_call3_v4) (TRef.of (T := ⟨S32x64, .i32⟩) main_call3_v2) (TRef.of (T := ⟨S32x64, .i32⟩) main_v23) minsi,
    nullary main_c_6 (constantI S_ 32 64#32),
    unary main_c_6 main_v24 (broadcastInDim S32x64 ![] bcast_S_S32x64 : (⟨S_, .i32⟩ : BufTy).Contents (Elt F) → (⟨S32x64, .i32⟩ : BufTy).Contents (Elt F)),
    binary main_v23 main_v24 main_v25 (muli : (⟨S32x64, .i32⟩ : BufTy).Contents (Elt F) → (⟨S32x64, .i32⟩ : BufTy).Contents (Elt F) → (⟨S32x64, .i32⟩ : BufTy).Contents (Elt F)),
    binary main_v25 main_v17 main_v26 (addi : (⟨S32x64, .i32⟩ : BufTy).Contents (Elt F) → (⟨S32x64, .i32⟩ : BufTy).Contents (Elt F) → (⟨S32x64, .i32⟩ : BufTy).Contents (Elt F)) ]

/-- The buffers slice B1 writes. -/
abbrev opsB1_W : List (Ref sig .tc) := [main_v12, main_v13, main_cst_1, main_v14, main_v15, main_v16, main_c, main_c_2, main_call2_v0, main_call2_v1, main_call2_v2, main_call2_v3, main_call2_v4, main_v17, main_v18, main_v19, main_cst_3, main_v20, main_v21, main_v22, main_c_4, main_c_5, main_call3_v0, main_call3_v1, main_call3_v2, main_call3_v3, main_call3_v4, main_v23, main_c_6, main_v24, main_v25, main_v26]

/-- Slice B2: operations 55 to 86. -/
abbrev opsB2 : List (HloOp τ sig (Elt F)) :=
  [ unary main_arg3 main_v27 ((extractStridedSlice S32x64x1 ![0, 0, 0] · slices_S32x64x2_S32x64x1_0_0_0) : (⟨S32x64x2, .f32⟩ : BufTy).Contents (Elt F) → (⟨S32x64x1, .f32⟩ : BufTy).Contents (Elt F)),
    reshape main_v27 main_v28 rfl shapeCasts_S32x64x1_S32x64,
    nullary main_cst_7 (constant S_ .f32 0x41800000#32),
    unary main_cst_7 main_v29 (broadcastInDim S32x64 ![] bcast_S_S32x64 : (⟨S_, .f32⟩ : BufTy).Contents (Elt F) → (⟨S32x64, .f32⟩ : BufTy).Contents (Elt F)),
    binary main_v28 main_v29 main_v30 (Host.divf : (⟨S32x64, .f32⟩ : BufTy).Contents (Elt F) → (⟨S32x64, .f32⟩ : BufTy).Contents (Elt F) → (⟨S32x64, .f32⟩ : BufTy).Contents (Elt F)),
    unary main_v30 main_v31 (fptosi 32 : (⟨S32x64, .f32⟩ : BufTy).Contents (Elt F) → (⟨S32x64, .i32⟩ : BufTy).Contents (Elt F)),
    nullary main_c_8 (constantI S_ 32 0#32),
    nullary main_c_9 (constantI S_ 32 63#32),
    TRef.unary (TRef.of (T := ⟨S_, .i32⟩) main_c_8) (TRef.of (T := ⟨S_, .i32⟩) main_call4_v0) id,
    TRef.unary (TRef.of (T := ⟨S_, .i32⟩) main_call4_v0) (TRef.of (T := ⟨S32x64, .i32⟩) main_call4_v1) (broadcastInDim S32x64 ![] bcast_S_S32x64),
    TRef.binary (TRef.of (T := ⟨S32x64, .i32⟩) main_call4_v1) (TRef.of (T := ⟨S32x64, .i32⟩) main_v31) (TRef.of (T := ⟨S32x64, .i32⟩) main_call4_v2) maxsi,
    TRef.unary (TRef.of (T := ⟨S_, .i32⟩) main_c_9) (TRef.of (T := ⟨S_, .i32⟩) main_call4_v3) id,
    TRef.unary (TRef.of (T := ⟨S_, .i32⟩) main_call4_v3) (TRef.of (T := ⟨S32x64, .i32⟩) main_call4_v4) (broadcastInDim S32x64 ![] bcast_S_S32x64),
    TRef.binary (TRef.of (T := ⟨S32x64, .i32⟩) main_call4_v4) (TRef.of (T := ⟨S32x64, .i32⟩) main_call4_v2) (TRef.of (T := ⟨S32x64, .i32⟩) main_v32) minsi,
    unary main_arg3 main_v33 ((extractStridedSlice S32x64x1 ![0, 0, 1] · slices_S32x64x2_S32x64x1_0_0_1) : (⟨S32x64x2, .f32⟩ : BufTy).Contents (Elt F) → (⟨S32x64x1, .f32⟩ : BufTy).Contents (Elt F)),
    reshape main_v33 main_v34 rfl shapeCasts_S32x64x1_S32x64,
    nullary main_cst_10 (constant S_ .f32 0x41800000#32),
    unary main_cst_10 main_v35 (broadcastInDim S32x64 ![] bcast_S_S32x64 : (⟨S_, .f32⟩ : BufTy).Contents (Elt F) → (⟨S32x64, .f32⟩ : BufTy).Contents (Elt F)),
    binary main_v34 main_v35 main_v36 (Host.divf : (⟨S32x64, .f32⟩ : BufTy).Contents (Elt F) → (⟨S32x64, .f32⟩ : BufTy).Contents (Elt F) → (⟨S32x64, .f32⟩ : BufTy).Contents (Elt F)),
    unary main_v36 main_v37 (fptosi 32 : (⟨S32x64, .f32⟩ : BufTy).Contents (Elt F) → (⟨S32x64, .i32⟩ : BufTy).Contents (Elt F)),
    nullary main_c_11 (constantI S_ 32 0#32),
    nullary main_c_12 (constantI S_ 32 63#32),
    TRef.unary (TRef.of (T := ⟨S_, .i32⟩) main_c_11) (TRef.of (T := ⟨S_, .i32⟩) main_call5_v0) id,
    TRef.unary (TRef.of (T := ⟨S_, .i32⟩) main_call5_v0) (TRef.of (T := ⟨S32x64, .i32⟩) main_call5_v1) (broadcastInDim S32x64 ![] bcast_S_S32x64),
    TRef.binary (TRef.of (T := ⟨S32x64, .i32⟩) main_call5_v1) (TRef.of (T := ⟨S32x64, .i32⟩) main_v37) (TRef.of (T := ⟨S32x64, .i32⟩) main_call5_v2) maxsi,
    TRef.unary (TRef.of (T := ⟨S_, .i32⟩) main_c_12) (TRef.of (T := ⟨S_, .i32⟩) main_call5_v3) id,
    TRef.unary (TRef.of (T := ⟨S_, .i32⟩) main_call5_v3) (TRef.of (T := ⟨S32x64, .i32⟩) main_call5_v4) (broadcastInDim S32x64 ![] bcast_S_S32x64),
    TRef.binary (TRef.of (T := ⟨S32x64, .i32⟩) main_call5_v4) (TRef.of (T := ⟨S32x64, .i32⟩) main_call5_v2) (TRef.of (T := ⟨S32x64, .i32⟩) main_v38) minsi,
    nullary main_c_13 (constantI S_ 32 64#32),
    unary main_c_13 main_v39 (broadcastInDim S32x64 ![] bcast_S_S32x64 : (⟨S_, .i32⟩ : BufTy).Contents (Elt F) → (⟨S32x64, .i32⟩ : BufTy).Contents (Elt F)),
    binary main_v38 main_v39 main_v40 (muli : (⟨S32x64, .i32⟩ : BufTy).Contents (Elt F) → (⟨S32x64, .i32⟩ : BufTy).Contents (Elt F) → (⟨S32x64, .i32⟩ : BufTy).Contents (Elt F)),
    binary main_v40 main_v32 main_v41 (addi : (⟨S32x64, .i32⟩ : BufTy).Contents (Elt F) → (⟨S32x64, .i32⟩ : BufTy).Contents (Elt F) → (⟨S32x64, .i32⟩ : BufTy).Contents (Elt F)) ]

/-- The buffers slice B2 writes. -/
abbrev opsB2_W : List (Ref sig .tc) := [main_v27, main_v28, main_cst_7, main_v29, main_v30, main_v31, main_c_8, main_c_9, main_call4_v0, main_call4_v1, main_call4_v2, main_call4_v3, main_call4_v4, main_v32, main_v33, main_v34, main_cst_10, main_v35, main_v36, main_v37, main_c_11, main_c_12, main_call5_v0, main_call5_v1, main_call5_v2, main_call5_v3, main_call5_v4, main_v38, main_c_13, main_v39, main_v40, main_v41]

/-- Slice C: operations 87 to 110. -/
abbrev opsC : List (HloOp τ sig (Elt F)) :=
  [ unary main_v26 main_v42 (broadcastInDim S32x1x64 ![0, 2] bcast_S32x64_S32x1x64_0_2 : (⟨S32x64, .i32⟩ : BufTy).Contents (Elt F) → (⟨S32x1x64, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S32x1x64, .i32⟩) main_call6_v0) (broadcastInDim S32x1x64 ![] bcast_S_S32x1x64),
    TRef.binary (TRef.of (T := ⟨S32x1x64, .i32⟩) main_v42) (TRef.of (T := ⟨S32x1x64, .i32⟩) main_call6_v0) (TRef.of (T := ⟨S32x1x64, .i1⟩) main_call6_v1) (cmpi .slt),
    TRef.nullary (TRef.of (T := ⟨S_, .i32⟩) main_call6_c_0) (constantI S_ 32 4096#32),
    TRef.unary (TRef.of (T := ⟨S_, .i32⟩) main_call6_c_0) (TRef.of (T := ⟨S32x1x64, .i32⟩) main_call6_v2) (broadcastInDim S32x1x64 ![] bcast_S_S32x1x64),
    TRef.binary (TRef.of (T := ⟨S32x1x64, .i32⟩) main_v42) (TRef.of (T := ⟨S32x1x64, .i32⟩) main_call6_v2) (TRef.of (T := ⟨S32x1x64, .i32⟩) main_call6_v3) addi,
    TRef.ternary (TRef.of (T := ⟨S32x1x64, .i1⟩) main_call6_v1) (TRef.of (T := ⟨S32x1x64, .i32⟩) main_call6_v3) (TRef.of (T := ⟨S32x1x64, .i32⟩) main_v42) (TRef.of (T := ⟨S32x1x64, .i32⟩) main_call6_v4) select,
    TRef.reshape (TRef.of (T := ⟨S32x1x64, .i32⟩) main_call6_v4) (TRef.of (T := ⟨S32x64x1, .i32⟩) main_call6_v5) rfl shapeCasts_S32x1x64_S32x64x1,
    TRef.nullary (TRef.of (T := ⟨S1, .i32⟩) main_call6_c_1) (constantI S1 32 4095#32),
    TRef.nullary (TRef.of (T := ⟨S_, .i32⟩) main_call6_c_2) (constantI S_ 32 0#32),
    TRef.unary (TRef.of (T := ⟨S_, .i32⟩) main_call6_c_2) (TRef.of (T := ⟨S32x64x1, .i32⟩) main_call6_v6) (broadcastInDim S32x64x1 ![] bcast_S_S32x64x1),
    TRef.binary (TRef.of (T := ⟨S32x64x1, .i32⟩) main_call6_v5) (TRef.of (T := ⟨S32x64x1, .i32⟩) main_call6_v6) (TRef.of (T := ⟨S32x64x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S32x64x1, .i32⟩) main_call6_v9) (broadcastInDim S32x64x1 ![0, 1, 2] bcast_S1x1x1_S32x64x1_0_1_2),
    TRef.binary (TRef.of (T := ⟨S32x64x1, .i32⟩) main_call6_v5) (TRef.of (T := ⟨S32x64x1, .i32⟩) main_call6_v9) (TRef.of (T := ⟨S32x64x1, .i1⟩) main_call6_v10) (cmpi .sle),
    TRef.binary (TRef.of (T := ⟨S32x64x1, .i1⟩) main_call6_v7) (TRef.of (T := ⟨S32x64x1, .i1⟩) main_call6_v10) (TRef.of (T := ⟨S32x64x1, .i1⟩) main_call6_v11) andi,
    TRef.nullary (TRef.of (T := ⟨S_, .i1⟩) main_call6_c_3) (constantI S_ 1 1#1),
    TRef.binary (TRef.of (T := ⟨S32x64x1, .i1⟩) main_call6_v11) (TRef.of (T := ⟨S_, .i1⟩) main_call6_c_3) (TRef.of (T := ⟨S32x64, .i1⟩) main_call6_v12) (fun x v => Host.reduce IntOp.andi x v reducesTo_S32x64x1_S32x64_d2 h_S_),
    TRef.binary (TRef.of (T := ⟨S32x256x4096, .f32⟩) main_v5) (TRef.of (T := ⟨S32x64x1, .i32⟩) main_call6_v5) (TRef.of (T := ⟨S32x256x64, .f32⟩) main_call6_v13) (fun x i => Host.gather gather_S32x256x4096_S32x64x1_S32x256x64_1_2_0_0_2_2_12561 x i),
    TRef.unary (TRef.of (T := ⟨S32x64, .i1⟩) main_call6_v12) (TRef.of (T := ⟨S32x256x64, .i1⟩) main_call6_v14) (broadcastInDim S32x256x64 ![0, 2] bcast_S32x64_S32x256x64_0_2),
    TRef.nullary (TRef.of (T := ⟨S_, .f32⟩) main_call6_cst) (constant S_ .f32 0x7FC00000#32),
    TRef.unary (TRef.of (T := ⟨S_, .f32⟩) main_call6_cst) (TRef.of (T := ⟨S32x256x64, .f32⟩) main_call6_v15) (broadcastInDim S32x256x64 ![] bcast_S_S32x256x64),
    TRef.ternary (TRef.of (T := ⟨S32x256x64, .i1⟩) main_call6_v14) (TRef.of (T := ⟨S32x256x64, .f32⟩) main_call6_v13) (TRef.of (T := ⟨S32x256x64, .f32⟩) main_call6_v15) (TRef.of (T := ⟨S32x256x64, .f32⟩) main_v43) select ]

/-- The buffers slice C writes. -/
abbrev opsC_W : List (Ref sig .tc) := [main_v42, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v43]

/-- Slice D: operations 111 to 129. -/
abbrev opsD : List (HloOp τ sig (Elt F)) :=
  [ binary main_v43 main_v11 main_v44 ((fun l r => Host.dotGeneral dot_S32x256x64_S32x256x4096_S32x64x4096_1_1_2_2_0_0 none l r) : (⟨S32x256x64, .f32⟩ : BufTy).Contents (Elt F) → (⟨S32x256x4096, .f32⟩ : BufTy).Contents (Elt F) → (⟨S32x64x4096, .f32⟩ : BufTy).Contents (Elt F)),
    nullary main_cst_14 (constant S_ .f32 0x3C23D70A#32),
    unary main_cst_14 main_v45 (broadcastInDim S32x64x4096 ![] bcast_S_S32x64x4096 : (⟨S_, .f32⟩ : BufTy).Contents (Elt F) → (⟨S32x64x4096, .f32⟩ : BufTy).Contents (Elt F)),
    binary main_v44 main_v45 main_v46 (Host.divf : (⟨S32x64x4096, .f32⟩ : BufTy).Contents (Elt F) → (⟨S32x64x4096, .f32⟩ : BufTy).Contents (Elt F) → (⟨S32x64x4096, .f32⟩ : BufTy).Contents (Elt F)),
    TRef.nullary (TRef.of (T := ⟨S_, .f32⟩) main_call7_cst) (constant S_ .f32 0xFF800000#32),
    TRef.binary (TRef.of (T := ⟨S32x64x4096, .f32⟩) main_v46) (TRef.of (T := ⟨S_, .f32⟩) main_call7_cst) (TRef.of (T := ⟨S32x64, .f32⟩) main_call7_v0) (fun x v => Host.reduce FloatOps.maximumf x v reducesTo_S32x64x4096_S32x64_d2 h_S_),
    TRef.nullary (TRef.of (T := ⟨S_, .f32⟩) main_call7_cst_0) (constant S_ .f32 0xFF800000#32),
    TRef.unary (TRef.of (T := ⟨S_, .f32⟩) main_call7_cst_0) (TRef.of (T := ⟨S32x64, .f32⟩) main_call7_v1) (broadcastInDim S32x64 ![] bcast_S_S32x64),
    TRef.binary (TRef.of (T := ⟨S32x64, .f32⟩) main_call7_v1) (TRef.of (T := ⟨S32x64, .f32⟩) main_call7_v0) (TRef.of (T := ⟨S32x64, .f32⟩) main_call7_v2) maximumf,
    TRef.unary (TRef.of (T := ⟨S32x64, .f32⟩) main_call7_v2) (TRef.of (T := ⟨S32x64x1, .f32⟩) main_call7_v3) (broadcastInDim S32x64x1 ![0, 1] bcast_S32x64_S32x64x1_0_1),
    TRef.unary (TRef.of (T := ⟨S32x64x1, .f32⟩) main_call7_v3) (TRef.of (T := ⟨S32x64x4096, .f32⟩) main_call7_v4) (broadcastInDim S32x64x4096 ![0, 1, 2] bcast_S32x64x1_S32x64x4096_0_1_2),
    TRef.binary (TRef.of (T := ⟨S32x64x4096, .f32⟩) main_v46) (TRef.of (T := ⟨S32x64x4096, .f32⟩) main_call7_v4) (TRef.of (T := ⟨S32x64x4096, .f32⟩) main_call7_v5) subf,
    TRef.unary (TRef.of (T := ⟨S32x64x4096, .f32⟩) main_call7_v5) (TRef.of (T := ⟨S32x64x4096, .f32⟩) main_call7_v6) Host.exp,
    TRef.nullary (TRef.of (T := ⟨S_, .f32⟩) main_call7_cst_1) (constant S_ .f32 0x00000000#32),
    TRef.binary (TRef.of (T := ⟨S32x64x4096, .f32⟩) main_call7_v6) (TRef.of (T := ⟨S_, .f32⟩) main_call7_cst_1) (TRef.of (T := ⟨S32x64, .f32⟩) main_call7_v7) (fun x v => Host.reduceAdd x v reducesTo_S32x64x4096_S32x64_d2 h_S_),
    TRef.unary (TRef.of (T := ⟨S32x64, .f32⟩) main_call7_v7) (TRef.of (T := ⟨S32x64x1, .f32⟩) main_call7_v8) (broadcastInDim S32x64x1 ![0, 1] bcast_S32x64_S32x64x1_0_1),
    TRef.unary (TRef.of (T := ⟨S32x64x1, .f32⟩) main_call7_v8) (TRef.of (T := ⟨S32x64x1, .f32⟩) main_call7_v9) Host.log,
    TRef.unary (TRef.of (T := ⟨S32x64x1, .f32⟩) main_call7_v9) (TRef.of (T := ⟨S32x64x4096, .f32⟩) main_call7_v10) (broadcastInDim S32x64x4096 ![0, 1, 2] bcast_S32x64x1_S32x64x4096_0_1_2),
    TRef.binary (TRef.of (T := ⟨S32x64x4096, .f32⟩) main_call7_v5) (TRef.of (T := ⟨S32x64x4096, .f32⟩) main_call7_v10) (TRef.of (T := ⟨S32x64x4096, .f32⟩) main_v47) subf ]

/-- The buffers slice D writes. -/
abbrev opsD_W : List (Ref sig .tc) := [main_v44, main_cst_14, main_v45, main_v46, main_call7_cst, main_call7_v0, main_call7_cst_0, main_call7_v1, main_call7_v2, main_call7_v3, main_call7_v4, main_call7_v5, main_call7_v6, main_call7_cst_1, main_call7_v7, main_call7_v8, main_call7_v9, main_call7_v10, main_v47]

/-- Slice E: operations 130 to 154. -/
abbrev opsE : List (HloOp τ sig (Elt F)) :=
  [ unary main_v41 main_v48 (broadcastInDim S32x64x1 ![0, 1] bcast_S32x64_S32x64x1_0_1 : (⟨S32x64, .i32⟩ : BufTy).Contents (Elt F) → (⟨S32x64x1, .i32⟩ : BufTy).Contents (Elt F)),
    TRef.nullary (TRef.of (T := ⟨S_, .i32⟩) main_call8_c) (constantI S_ 32 0#32),
    TRef.unary (TRef.of (T := ⟨S_, .i32⟩) main_call8_c) (TRef.of (T := ⟨S32x64x1, .i32⟩) main_call8_v0) (broadcastInDim S32x64x1 ![] bcast_S_S32x64x1),
    TRef.binary (TRef.of (T := ⟨S32x64x1, .i32⟩) main_v48) (TRef.of (T := ⟨S32x64x1, .i32⟩) main_call8_v0) (TRef.of (T := ⟨S32x64x1, .i1⟩) main_call8_v1) (cmpi .slt),
    TRef.nullary (TRef.of (T := ⟨S_, .i32⟩) main_call8_c_0) (constantI S_ 32 4096#32),
    TRef.unary (TRef.of (T := ⟨S_, .i32⟩) main_call8_c_0) (TRef.of (T := ⟨S32x64x1, .i32⟩) main_call8_v2) (broadcastInDim S32x64x1 ![] bcast_S_S32x64x1),
    TRef.binary (TRef.of (T := ⟨S32x64x1, .i32⟩) main_v48) (TRef.of (T := ⟨S32x64x1, .i32⟩) main_call8_v2) (TRef.of (T := ⟨S32x64x1, .i32⟩) main_call8_v3) addi,
    TRef.ternary (TRef.of (T := ⟨S32x64x1, .i1⟩) main_call8_v1) (TRef.of (T := ⟨S32x64x1, .i32⟩) main_call8_v3) (TRef.of (T := ⟨S32x64x1, .i32⟩) main_v48) (TRef.of (T := ⟨S32x64x1, .i32⟩) main_call8_v4) select,
    TRef.reshape (TRef.of (T := ⟨S32x64x1, .i32⟩) main_call8_v4) (TRef.of (T := ⟨S32x64x1x1, .i32⟩) main_call8_v5) rfl shapeCasts_S32x64x1_S32x64x1x1,
    TRef.nullary (TRef.of (T := ⟨S1, .i32⟩) main_call8_c_1) (constantI S1 32 4095#32),
    TRef.nullary (TRef.of (T := ⟨S_, .i32⟩) main_call8_c_2) (constantI S_ 32 0#32),
    TRef.unary (TRef.of (T := ⟨S_, .i32⟩) main_call8_c_2) (TRef.of (T := ⟨S32x64x1x1, .i32⟩) main_call8_v6) (broadcastInDim S32x64x1x1 ![] bcast_S_S32x64x1x1),
    TRef.binary (TRef.of (T := ⟨S32x64x1x1, .i32⟩) main_call8_v5) (TRef.of (T := ⟨S32x64x1x1, .i32⟩) main_call8_v6) (TRef.of (T := ⟨S32x64x1x1, .i1⟩) main_call8_v7) (cmpi .sge),
    TRef.unary (TRef.of (T := ⟨S1, .i32⟩) main_call8_c_1) (TRef.of (T := ⟨S1x1x1x1, .i32⟩) main_call8_v8) (broadcastInDim S1x1x1x1 ![3] bcast_S1_S1x1x1x1_3),
    TRef.unary (TRef.of (T := ⟨S1x1x1x1, .i32⟩) main_call8_v8) (TRef.of (T := ⟨S32x64x1x1, .i32⟩) main_call8_v9) (broadcastInDim S32x64x1x1 ![0, 1, 2, 3] bcast_S1x1x1x1_S32x64x1x1_0_1_2_3),
    TRef.binary (TRef.of (T := ⟨S32x64x1x1, .i32⟩) main_call8_v5) (TRef.of (T := ⟨S32x64x1x1, .i32⟩) main_call8_v9) (TRef.of (T := ⟨S32x64x1x1, .i1⟩) main_call8_v10) (cmpi .sle),
    TRef.binary (TRef.of (T := ⟨S32x64x1x1, .i1⟩) main_call8_v7) (TRef.of (T := ⟨S32x64x1x1, .i1⟩) main_call8_v10) (TRef.of (T := ⟨S32x64x1x1, .i1⟩) main_call8_v11) andi,
    TRef.nullary (TRef.of (T := ⟨S_, .i1⟩) main_call8_c_3) (constantI S_ 1 1#1),
    TRef.binary (TRef.of (T := ⟨S32x64x1x1, .i1⟩) main_call8_v11) (TRef.of (T := ⟨S_, .i1⟩) main_call8_c_3) (TRef.of (T := ⟨S32x64x1, .i1⟩) main_call8_v12) (fun x v => Host.reduce IntOp.andi x v reducesTo_S32x64x1x1_S32x64x1_d3 h_S_),
    TRef.binary (TRef.of (T := ⟨S32x64x4096, .f32⟩) main_v47) (TRef.of (T := ⟨S32x64x1x1, .i32⟩) main_call8_v5) (TRef.of (T := ⟨S32x64x1, .f32⟩) main_call8_v13) (fun x i => Host.gather gather_S32x64x4096_S32x64x1x1_S32x64x1_n_2_01_01_2_3_111 x i),
    TRef.nullary (TRef.of (T := ⟨S_, .f32⟩) main_call8_cst) (constant S_ .f32 0x7FC00000#32),
    TRef.unary (TRef.of (T := ⟨S_, .f32⟩) main_call8_cst) (TRef.of (T := ⟨S32x64x1, .f32⟩) main_call8_v14) (broadcastInDim S32x64x1 ![] bcast_S_S32x64x1),
    TRef.ternary (TRef.of (T := ⟨S32x64x1, .i1⟩) main_call8_v12) (TRef.of (T := ⟨S32x64x1, .f32⟩) main_call8_v13) (TRef.of (T := ⟨S32x64x1, .f32⟩) main_call8_v14) (TRef.of (T := ⟨S32x64x1, .f32⟩) main_v49) select,
    reshape main_v49 main_v50 rfl shapeCasts_S32x64x1_S32x64,
    unary main_v50 main_v51 (Host.negf : (⟨S32x64, .f32⟩ : BufTy).Contents (Elt F) → (⟨S32x64, .f32⟩ : BufTy).Contents (Elt F)) ]

/-- The buffers slice E writes. -/
abbrev opsE_W : List (Ref sig .tc) := [main_v48, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v49, main_v50, main_v51]

/-- Slice F: operations 155 to 163. -/
abbrev opsF : List (HloOp τ sig (Elt F)) :=
  [ unary main_arg4 main_v52 (uitofp .f32 : (⟨S32x64, .i1⟩ : BufTy).Contents (Elt F) → (⟨S32x64, .f32⟩ : BufTy).Contents (Elt F)),
    nullary main_cst_15 (constant S_ .f32 0x00000000#32),
    binary main_v52 main_cst_15 main_v53 ((fun x v => Host.reduceAdd x v reducesTo_S32x64_S_d0_1 h_S_) : (⟨S32x64, .f32⟩ : BufTy).Contents (Elt F) → (⟨S_, .f32⟩ : BufTy).Contents (Elt F) → (⟨S_, .f32⟩ : BufTy).Contents (Elt F)),
    binary main_v51 main_v52 main_v54 (mulf : (⟨S32x64, .f32⟩ : BufTy).Contents (Elt F) → (⟨S32x64, .f32⟩ : BufTy).Contents (Elt F) → (⟨S32x64, .f32⟩ : BufTy).Contents (Elt F)),
    nullary main_cst_16 (constant S_ .f32 0x00000000#32),
    binary main_v54 main_cst_16 main_v55 ((fun x v => Host.reduceAdd x v reducesTo_S32x64_S_d0_1 h_S_) : (⟨S32x64, .f32⟩ : BufTy).Contents (Elt F) → (⟨S_, .f32⟩ : BufTy).Contents (Elt F) → (⟨S_, .f32⟩ : BufTy).Contents (Elt F)),
    nullary main_cst_17 (constant S_ .f32 0x3F800000#32),
    binary main_v53 main_cst_17 main_v56 (maximumf : (⟨S_, .f32⟩ : BufTy).Contents (Elt F) → (⟨S_, .f32⟩ : BufTy).Contents (Elt F) → (⟨S_, .f32⟩ : BufTy).Contents (Elt F)),
    binary main_v55 main_v56 main_v57 (Host.divf : (⟨S_, .f32⟩ : BufTy).Contents (Elt F) → (⟨S_, .f32⟩ : BufTy).Contents (Elt F) → (⟨S_, .f32⟩ : BufTy).Contents (Elt F)) ]

/-- The buffers slice F writes. -/
abbrev opsF_W : List (Ref sig .tc) := [main_v52, main_cst_15, main_v53, main_v54, main_cst_16, main_v55, main_cst_17, main_v56, main_v57]

/-- The operations are the seven slices in order. -/
theorem ops_split : (ops : List (HloOp τ sig (Elt F))) = opsA ++ opsB1 ++ opsB2 ++ opsC ++ opsD ++ opsE ++ opsF := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., unary_bufs_sub .., reshape_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., nullary_bufs_sub .., binary_bufs_sub .., binary_bufs_sub .., nullary_bufs_sub .., binary_bufs_sub .., nullary_bufs_sub .., binary_bufs_sub .., binary_bufs_sub ..⟩

/-! ## What each slice writes, and what it keeps -/

set_option maxRecDepth 8192 in
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer slice A does not write keeps its contents through it. -/
theorem keepA (W : Valuation τ sig (Elt F)) (r : Ref sig .tc) (h : r ∉ opsA_W) :
    after opsA W (Proc.devRef .tc r) = W (Proc.devRef .tc r) :=
  after_of_writes_sub opsA _ opsA_writes h

set_option maxRecDepth 8192 in
theorem opsB1_writes : (opsB1 : List (HloOp τ sig (Elt F))).Forall fun op => op.writes ⊆ (opsB1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer slice B1 does not write keeps its contents through it. -/
theorem keepB1 (W : Valuation τ sig (Elt F)) (r : Ref sig .tc) (h : r ∉ opsB1_W) :
    after opsB1 W (Proc.devRef .tc r) = W (Proc.devRef .tc r) :=
  after_of_writes_sub opsB1 _ opsB1_writes h

set_option maxRecDepth 8192 in
theorem opsB2_writes : (opsB2 : List (HloOp τ sig (Elt F))).Forall fun op => op.writes ⊆ (opsB2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer slice B2 does not write keeps its contents through it. -/
theorem keepB2 (W : Valuation τ sig (Elt F)) (r : Ref sig .tc) (h : r ∉ opsB2_W) :
    after opsB2 W (Proc.devRef .tc r) = W (Proc.devRef .tc r) :=
  after_of_writes_sub opsB2 _ opsB2_writes h

set_option maxRecDepth 8192 in
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer slice C does not write keeps its contents through it. -/
theorem keepC (W : Valuation τ sig (Elt F)) (r : Ref sig .tc) (h : r ∉ opsC_W) :
    after opsC W (Proc.devRef .tc r) = W (Proc.devRef .tc r) :=
  after_of_writes_sub opsC _ opsC_writes h

set_option maxRecDepth 8192 in
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer slice D does not write keeps its contents through it. -/
theorem keepD (W : Valuation τ sig (Elt F)) (r : Ref sig .tc) (h : r ∉ opsD_W) :
    after opsD W (Proc.devRef .tc r) = W (Proc.devRef .tc r) :=
  after_of_writes_sub opsD _ opsD_writes h

set_option maxRecDepth 8192 in
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer slice E does not write keeps its contents through it. -/
theorem keepE (W : Valuation τ sig (Elt F)) (r : Ref sig .tc) (h : r ∉ opsE_W) :
    after opsE W (Proc.devRef .tc r) = W (Proc.devRef .tc r) :=
  after_of_writes_sub opsE _ opsE_writes h

set_option maxRecDepth 8192 in
theorem opsF_writes : (opsF : List (HloOp τ sig (Elt F))).Forall fun op => op.writes ⊆ (opsF_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer slice F does not write keeps its contents through it. -/
theorem keepF (W : Valuation τ sig (Elt F)) (r : Ref sig .tc) (h : r ∉ opsF_W) :
    after opsF W (Proc.devRef .tc r) = W (Proc.devRef .tc r) :=
  after_of_writes_sub opsF _ opsF_writes h

end Cert.RefOps

end
-- ==== Proof.RefRun.lean ====
/-
  The reference program's run.

  The run of the reference's 163 operations leaves every buffer at the fold of the operations' results over the launch
  contents. The fold is taken slice by slice (RefOps), each slice over an arbitrary valuation of the buffers before it:
  a slice's result is its stage (RefStages) of the values it reads. Chaining the seven slices gives the result buffer
  at the last stage of the five arguments, and the arguments unchanged.
-/
import proofs.«121640_j13554916786246_2_alg».proof.Proof.Gen.ReferenceIdeal
import proofs.«121640_j13554916786246_2_alg».proof.Proof.RefStages
import proofs.«121640_j13554916786246_2_alg».proof.Proof.RefOps
import Idealize.ShloMosaic.Lib.StableHlo.Run
import proofs.«121640_j13554916786246_2_alg».proof.Proof.LibFold

noncomputable section

namespace Cert.RefRun

open Cert.Lib.Fold (ofBuf_toBuf)
open Cert.ReferenceIdeal Cert.ReferenceIdeal.Gen Cert.RefStages Cert.RefOps Idealize.ShloMosaic Idealize.ShloMosaic.TcCoe Idealize.SL.Sem Idealize.ShloMosaic.StableHlo

/-! ## What each slice computes, over any valuation of the buffers before it -/

section Steps
variable (W : Valuation τ sig (Elt Ideal))

set_option maxHeartbeats 2000000 in
theorem stepA_src : after opsA W (Proc.devRef .tc main_v5) = val_main_v5 (F := Ideal) (W (Proc.devRef .tc main_arg0)) := by
  after_results_simp <;> rfl

set_option maxHeartbeats 2000000 in
theorem stepA_trg : after opsA W (Proc.devRef .tc main_v11) = val_main_v11 (F := Ideal) (W (Proc.devRef .tc main_arg1)) := by
  after_results_simp <;> rfl

set_option maxHeartbeats 2000000 in
theorem stepB1 : after opsB1 W (Proc.devRef .tc main_v26) = val_main_v26 (F := Ideal) (W (Proc.devRef .tc main_arg2)) := by
  after_results_simp <;> rfl

set_option maxHeartbeats 2000000 in
theorem stepB2 : after opsB2 W (Proc.devRef .tc main_v41) = val_main_v41 (F := Ideal) (W (Proc.devRef .tc main_arg3)) := by
  after_results_simp <;> rfl

set_option maxHeartbeats 2000000 in
theorem stepC (x0 : (⟨S32x256x64x64, .f32⟩ : BufTy).Contents (Elt Ideal)) (x2 : (⟨S32x64x2, .f32⟩ : BufTy).Contents (Elt Ideal))
    (h5 : W (Proc.devRef .tc main_v5) = val_main_v5 (F := Ideal) x0)
    (h26 : W (Proc.devRef .tc main_v26) = val_main_v26 (F := Ideal) x2) :
    after opsC W (Proc.devRef .tc main_v43) = val_main_v43 (F := Ideal) x0 x2 := by
  after_results_simp
  rw [h5, h26]
  simp only [ofBuf_toBuf]
  rfl

set_option maxHeartbeats 2000000 in
theorem stepD (x0 x1 : (⟨S32x256x64x64, .f32⟩ : BufTy).Contents (Elt Ideal)) (x2 : (⟨S32x64x2, .f32⟩ : BufTy).Contents (Elt Ideal))
    (h43 : W (Proc.devRef .tc main_v43) = val_main_v43 (F := Ideal) x0 x2)
    (h11 : W (Proc.devRef .tc main_v11) = val_main_v11 (F := Ideal) x1) :
    after opsD W (Proc.devRef .tc main_v47) = val_main_v47 (F := Ideal) x0 x1 x2 := by
  after_results_simp
  rw [h43, h11]
  simp only [ofBuf_toBuf]
  rfl

set_option maxHeartbeats 2000000 in
theorem stepE (x0 x1 : (⟨S32x256x64x64, .f32⟩ : BufTy).Contents (Elt Ideal)) (x2 x3 : (⟨S32x64x2, .f32⟩ : BufTy).Contents (Elt Ideal))
    (h47 : W (Proc.devRef .tc main_v47) = val_main_v47 (F := Ideal) x0 x1 x2)
    (h41 : W (Proc.devRef .tc main_v41) = val_main_v41 (F := Ideal) x3) :
    after opsE W (Proc.devRef .tc main_v51) = val_main_v51 (F := Ideal) x0 x1 x2 x3 := by
  after_results_simp
  rw [h47, h41]
  simp only [ofBuf_toBuf]
  rfl

set_option maxHeartbeats 2000000 in
theorem stepF (x0 x1 : (⟨S32x256x64x64, .f32⟩ : BufTy).Contents (Elt Ideal)) (x2 x3 : (⟨S32x64x2, .f32⟩ : BufTy).Contents (Elt Ideal))
    (x4 : (⟨S32x64, .i1⟩ : BufTy).Contents (Elt Ideal))
    (h51 : W (Proc.devRef .tc main_v51) = val_main_v51 (F := Ideal) x0 x1 x2 x3)
    (h4 : W (Proc.devRef .tc main_arg4) = x4) :
    after opsF W (Proc.devRef .tc main_v57) = val_main_v57 (F := Ideal) x0 x1 x2 x3 x4 := by
  after_results_simp
  rw [h51, h4]
  rfl

end Steps

/-! ## The whole fold -/

/-- A buffer none of the seven slices writes keeps its contents through all 163 operations. -/
theorem keep_all (V : Valuation τ sig (Elt Ideal)) (r : Ref sig .tc) (hA : r ∉ opsA_W) (hB1 : r ∉ opsB1_W) (hB2 : r ∉ opsB2_W)
    (hC : r ∉ opsC_W) (hD : r ∉ opsD_W) (hE : r ∉ opsE_W) (hF : r ∉ opsF_W) :
    after ops V (Proc.devRef .tc r) = V (Proc.devRef .tc r) := by
  rw [ops_split]
  simp only [after_append]
  rw [keepF _ r hF, keepE _ r hE, keepD _ r hD, keepC _ r hC, keepB2 _ r hB2, keepB1 _ r hB1, keepA _ r hA]

/-- The result buffer after all 163 operations is the last stage of the five arguments. -/
theorem result_eq (V : Valuation τ sig (Elt Ideal)) :
    after ops V (Proc.devRef .tc main_v57)
      = val_main_v57 (F := Ideal) (V (Proc.devRef .tc main_arg0)) (V (Proc.devRef .tc main_arg1)) (V (Proc.devRef .tc main_arg2))
          (V (Proc.devRef .tc main_arg3)) (V (Proc.devRef .tc main_arg4)) := by
  rw [ops_split]
  simp only [after_append]
  refine stepF _ _ _ _ _ _ (stepE _ _ _ _ _ (stepD _ _ _ _ (stepC _ _ _ ?h5 ?h26) ?h11) ?h41) ?h4
  case h5 =>
    exact (keepB2 _ main_v5 (by decide)).trans ((keepB1 _ main_v5 (by decide)).trans (stepA_src V))
  case h26 =>
    refine (keepB2 _ main_v26 (by decide)).trans ((stepB1 _).trans ?_)
    rw [keepA V main_arg2 (by decide)]
  case h11 =>
    refine (keepC _ main_v11 (by decide)).trans ((keepB2 _ main_v11 (by decide)).trans ((keepB1 _ main_v11 (by decide)).trans (stepA_trg V)))
  case h41 =>
    refine (keepD _ main_v41 (by decide)).trans ((keepC _ main_v41 (by decide)).trans ((stepB2 _).trans ?_))
    rw [keepB1 _ main_arg3 (by decide), keepA V main_arg3 (by decide)]
  case h4 =>
    rw [keepE _ main_arg4 (by decide), keepD _ main_arg4 (by decide), keepC _ main_arg4 (by decide), keepB2 _ main_arg4 (by decide),
      keepB1 _ main_arg4 (by decide), keepA V main_arg4 (by decide)]

/-- On every device, from any memory with zero counters: every weakly fair execution of the reference's @main
    terminates with its result at the last stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57)
        = val_main_v57 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v57).trans (result_eq _),
      (h c main_arg0).trans (keep_all _ main_arg0 (by decide) (by decide) (by decide) (by decide) (by decide) (by decide) (by decide)),
      (h c main_arg1).trans (keep_all _ main_arg1 (by decide) (by decide) (by decide) (by decide) (by decide) (by decide) (by decide)),
      (h c main_arg2).trans (keep_all _ main_arg2 (by decide) (by decide) (by decide) (by decide) (by decide) (by decide) (by decide)),
      (h c main_arg3).trans (keep_all _ main_arg3 (by decide) (by decide) (by decide) (by decide) (by decide) (by decide) (by decide)),
      (h c main_arg4).trans (keep_all _ main_arg4 (by decide) (by decide) (by decide) (by decide) (by decide) (by decide) (by decide))⟩)
    (run_seq scopedRefs_eq scopedSems_eq defs main (fun _ => ops) main_eq (fun _ => ops_sub) m ρ)

end Cert.RefRun

end
-- ==== Proof.Spec.lean ====
/-
  The quantity both programs compute, over plain index types.

  For one batch member, with source features fs and target features ft given as 256 channels over 4096 grid cells:
  every cell's channel vector is scaled to unit Euclidean length (the length floored at a small constant); the query
  is the unit source vector at cell s; its logit against target cell m is the inner product over the channels with
  the unit target vector at m, divided by the temperature; the log-probability of cell t is the logit there less the
  row maximum less the logarithm of the sum of the exponentials of the logits less the row maximum; the loss is its
  negative.

  Two elementary facts about sums against an indicator close the distance between "multiply by a one-hot row and
  sum" and "read the entry": a product with zero is zero on every extended real, infinite ones included, so no
  finiteness is needed.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Grid cell hw (row hw / 64, column hw % 64) of channel c of batch member b, in the [32, 256, 64, 64] layout of the
    feature arguments. -/
abbrev cell4 (b : Fin 32) (c : Fin 256) (hw : Fin 4096) : (⟨4, ![32, 256, 64, 64]⟩ : Shape).Idx :=
  ix4 b c (⟨hw.val / 64, by omega⟩ : Fin 64) (⟨hw.val % 64, by omega⟩ : Fin 64)

/-- The floor of a vector's length, the temperature, and minus infinity, as the words both programs spell. -/
abbrev eps : EReal := Ideal.ofBits .f32 0x2B8CBCCC#32
abbrev tau : EReal := Ideal.ofBits .f32 0x3C23D70A#32
abbrev negInf : EReal := Ideal.ofBits .f32 0xFF800000#32

/-- Entry c of the channel vector x scaled to unit length: x c over the larger of the length and the floor. -/
def unitCol (x : Fin 256 → EReal) (c : Fin 256) : EReal :=
  Ideal.div (x c) (max (Ideal.sqrt (∑ k, x k * x k)) eps)

/-- The inner product of two channel vectors over the temperature. -/
def logit (q r : Fin 256 → EReal) : EReal := Ideal.div (∑ c, q c * r c) tau

/-- The largest of a row of 4096 logits, from minus infinity. -/
def rowMax (L : Fin 4096 → EReal) : EReal := Finset.univ.fold max negInf L

/-- The log-softmax of the row L at cell t, shifted by the row maximum as both programs shift it. -/
def logp (L : Fin 4096 → EReal) (t : Fin 4096) : EReal :=
  (L t - rowMax L) - Ideal.log (∑ k, Ideal.exp (L k - rowMax L))

/-- The loss of one keypoint: minus the log-probability, at target cell t, of the logits of the unit source vector at
    cell s against every unit target vector. -/
def nll (fs ft : Fin 256 → Fin 4096 → EReal) (s t : Fin 4096) : EReal :=
  -logp (fun m => logit (fun c => unitCol (fun k => fs k s) c) (fun c => unitCol (fun k => ft k m) c)) t

/-- A sum of products against the indicator of one index is the entry there. -/
theorem sum_mul_pick {n : ℕ} (f g : Fin n → EReal) (s : Fin n) (hg : ∀ k, g k = if k = s then 1 else 0) :
    ∑ k, f k * g k = f s := by
  rw [Finset.sum_eq_single s]
  · rw [hg s, if_pos rfl, mul_one]
  · intro k _ hk; rw [hg k, if_neg hk, mul_zero]
  · intro h; exact absurd (Finset.mem_univ s) h

/-- The word a comparison of two small numbers for equality yields, widened and read as a signed integer, is the
    indicator of their equality. -/
theorem pick_word (k s : ℕ) (hk : k < 2 ^ 31) (hs : s < 2 ^ 31) :
    (((((IntOp.cmpi .eq (BitVec.ofNat 32 k) (BitVec.ofNat 32 s)).setWidth 32).toInt : ℤ) : ℝ) : EReal)
      = if k = s then 1 else 0 := by
  by_cases h : k = s
  · subst h
    rw [if_pos rfl]
    have e : IntOp.cmpi .eq (BitVec.ofNat 32 k) (BitVec.ofNat 32 k) = 1#1 := by
      show BitVec.ofBool (BitVec.ofNat 32 k == BitVec.ofNat 32 k) = 1#1
      rw [beq_self_eq_true]; rfl
    rw [e]
    have : ((1#1 : BitVec 1).setWidth 32).toInt = 1 := by decide
    rw [this]; simp
  · rw [if_neg h]
    have hne : BitVec.ofNat 32 k ≠ BitVec.ofNat 32 s := by
      intro he
      have := congrArg BitVec.toNat he
      rw [BitVec.toNat_ofNat, BitVec.toNat_ofNat, Nat.mod_eq_of_lt (by omega), Nat.mod_eq_of_lt (by omega)] at this
      exact h this
    have e : IntOp.cmpi .eq (BitVec.ofNat 32 k) (BitVec.ofNat 32 s) = 0#1 := by
      show BitVec.ofBool (BitVec.ofNat 32 k == BitVec.ofNat 32 s) = 0#1
      rw [beq_eq_false_iff_ne.mpr hne]; rfl
    rw [e]
    have : ((0#1 : BitVec 1).setWidth 32).toInt = 0 := by decide
    rw [this]; simp

end Cert.Spec

end
-- ==== Proof.IdxWord.lean ====
/-
  The grid cell of a keypoint as a 32-bit word.

  A coordinate is clamped into [0, 63] as a signed word (the larger of it and 0, then the smaller of that and 63), so
  whatever word the float-to-integer conversion produced, the clamped word is a number below 64; row times 64 plus
  column of two such words is then a number below 4096 with no wrap-around. Every later use of the cell index — an
  equality test against a lane number, a clamped gather start, a bounds mask — depends only on that number.
-/
import Idealize.ShloMosaic.PureOps

namespace Cert.IdxWord

open Idealize.ShloMosaic

/-- A signed word clamped into [0, 63] is the word of a number below 64. -/
theorem clip_lt (a : BitVec 32) : ∃ k : ℕ, k < 64 ∧ IntOp.minsi 63#32 (IntOp.maxsi 0#32 a) = BitVec.ofNat 32 k := by
  unfold IntOp.maxsi IntOp.minsi
  by_cases h0 : a.slt 0#32 = true
  · refine ⟨0, by omega, ?_⟩
    rw [if_pos h0]
    have : (63#32 : BitVec 32).slt 0#32 = false := by decide
    rw [this]; rfl
  · rw [if_neg h0]
    have hge : ¬(a.toInt < 0) := by
      intro hlt; apply h0
      rw [BitVec.slt_eq_decide]; exact decide_eq_true (by rw [show (0#32 : BitVec 32).toInt = 0 from rfl]; exact hlt)
    by_cases h63 : (63#32 : BitVec 32).slt a = true
    · exact ⟨63, by omega, by rw [if_pos h63]⟩
    · rw [if_neg h63]
      have hle : ¬((63 : Int) < a.toInt) := by
        intro hlt; apply h63
        rw [BitVec.slt_eq_decide]; exact decide_eq_true (by rw [show (63#32 : BitVec 32).toInt = 63 from rfl]; exact hlt)
      have hn : a.toNat < 64 := by
        have e := BitVec.toInt_eq_toNat_cond a
        have hlt := a.isLt
        split at e <;> omega
      exact ⟨a.toNat, hn, BitVec.eq_of_toNat_eq (by rw [BitVec.toNat_ofNat, Nat.mod_eq_of_lt (by omega)])⟩

/-- Row times 64 plus column, of two clamped coordinates, is the word of a number below 4096. -/
theorem cell_lt (a b : BitVec 32) : ∃ k : ℕ, k < 4096 ∧
    IntOp.addi (IntOp.muli (IntOp.minsi 63#32 (IntOp.maxsi 0#32 a)) 64#32) (IntOp.minsi 63#32 (IntOp.maxsi 0#32 b))
      = BitVec.ofNat 32 k := by
  obtain ⟨r, hr, er⟩ := clip_lt a
  obtain ⟨c, hc, ec⟩ := clip_lt b
  refine ⟨r * 64 + c, by omega, ?_⟩
  rw [er, ec]
  unfold IntOp.addi IntOp.muli
  apply BitVec.eq_of_toNat_eq
  rw [BitVec.toNat_add, BitVec.toNat_mul, BitVec.toNat_ofNat, BitVec.toNat_ofNat, BitVec.toNat_ofNat, BitVec.toNat_ofNat,
    Nat.mod_eq_of_lt (show r < 2 ^ 32 by omega), Nat.mod_eq_of_lt (show c < 2 ^ 32 by omega),
    Nat.mod_eq_of_lt (show 64 < 2 ^ 32 by omega), Nat.mod_eq_of_lt (show r * 64 < 2 ^ 32 by omega),
    Nat.mod_eq_of_lt (show r * 64 + c < 2 ^ 32 by omega)]

end Cert.IdxWord
-- ==== Proof.CellWords.lean ====
/-
  The grid cells of the keypoints, as both programs compute them.

  A keypoint has two float coordinates. Each is divided by the stride 16, truncated to a 32-bit integer and clamped
  into [0, 63]; the cell is row * 64 + column. Both programs run exactly this chain of host operations on the [32, 64, 2]
  keypoint array, so it is stated once here. Whatever the truncation gives, the clamp makes every cell a number below
  4096 (IdxWord), and that number is what the rest of the proof speaks of.
-/
import Idealize.ShloMosaic.PureOps
import Idealize.ShloMosaic.PureOps.Ideal
import Idealize.ShloMosaic.Lib.ValueIdx
import proofs.«121640_j13554916786246_2_alg».proof.Proof.IdxWord

noncomputable section

namespace Cert.CellWords

open Idealize.ShloMosaic Idealize.ShloMosaic.ValueIdx

abbrev SK : Shape := ⟨3, ![32, 64, 2]⟩
abbrev SK1 : Shape := ⟨3, ![32, 64, 1]⟩
abbrev SW : Shape := ⟨2, ![32, 64]⟩
abbrev S0 : Shape := ⟨0, ![]⟩

theorem hs0 : SK.Slices ![0, 0, 0] SK1 := by decide
theorem hs1 : SK.Slices ![0, 0, 1] SK1 := by decide
theorem hc : SK1.ShapeCasts SW := by decide
theorem hb : S0.BroadcastsInDim SW (![] : Fin 0 → Fin SW.rank) := by decide

/-- One coordinate of every keypoint as a grid coordinate: the slice at offset o of the last axis, over the stride,
    truncated, clamped into [0, 63]. -/
def coord (kps : SK.Idx → EReal) (o : Fin 3 → Nat) (h : SK.Slices o SK1) : IVec SW 32 :=
  minsi (broadcastInDim SW ![] hb (id (constantI S0 32 63#32)))
    (maxsi (broadcastInDim SW ![] hb (id (constantI S0 32 0#32)))
      (fptosi 32 (Host.divf (shapeCast SW (extractStridedSlice SK1 o kps h) hc : FVec Ideal SW .f32)
        (broadcastInDim SW ![] hb (constant S0 .f32 0x41800000#32 : FVec Ideal S0 .f32)) : FVec Ideal SW .f32)))

/-- The cell words: row (the second coordinate) times 64 plus column (the first). -/
def words (kps : SK.Idx → EReal) : IVec SW 32 :=
  addi (muli (coord kps ![0, 0, 1] hs1) (broadcastInDim SW ![] hb (constantI S0 32 64#32))) (coord kps ![0, 0, 0] hs0)

/-- Every cell word is a number below 4096. -/
theorem words_lt (kps : SK.Idx → EReal) (i : SW.Idx) : ∃ k : ℕ, k < 4096 ∧ words kps i = BitVec.ofNat 32 k :=
  Cert.IdxWord.cell_lt _ _

/-- The cell of keypoint n of batch member b. -/
def cellOf (kps : SK.Idx → EReal) (b : Fin 32) (n : Fin 64) : Fin 4096 :=
  ⟨Classical.choose (words_lt kps (ix2 b n)), (Classical.choose_spec (words_lt kps (ix2 b n))).1⟩

theorem words_eq (kps : SK.Idx → EReal) (b : Fin 32) (n : Fin 64) :
    words kps (ix2 b n) = BitVec.ofNat 32 (cellOf kps b n).val :=
  (Classical.choose_spec (words_lt kps (ix2 b n))).2

end Cert.CellWords

end
-- ==== Proof.Loss.lean ====
/-
  The loss array and its masked mean.

  G is the loss of every keypoint of every batch member as one function of the four float arguments: entry (b, n, 0)
  is the specification's loss for member b's feature slabs at keypoint n's source and target cells. Both programs end
  by the same masked mean of the [32, 64] view of such an array.
-/
import proofs.«121640_j13554916786246_2_alg».proof.Proof.Spec
import proofs.«121640_j13554916786246_2_alg».proof.Proof.CellWords
import Idealize.ShloMosaic.Lib.Pipeline.Value
import Idealize.ShloMosaic.Lib.ValueIdx

noncomputable section

namespace Cert.Loss

open Idealize.ShloMosaic Idealize.ShloMosaic.ValueIdx

abbrev SF : Shape := ⟨4, ![32, 256, 64, 64]⟩
abbrev S2 : Shape := ⟨2, ![32, 64]⟩
abbrev S3 : Shape := ⟨3, ![32, 64, 1]⟩
abbrev S0 : Shape := ⟨0, ![]⟩

theorem hred : S2.ReducesTo [0, 1] S0 := by decide
theorem hpos : 0 < S0.numel := by decide
theorem hcast : S3.ShapeCasts S2 := by decide

/-- The loss of every keypoint of every batch member, as one function of the four argument arrays. -/
def G (x0 x1 : SF.Idx → EReal) (x2 x3 : Cert.CellWords.SK.Idx → EReal) : S3.Idx → EReal := fun i =>
  Cert.Spec.nll (fun c hw => x0 (Cert.Spec.cell4 (i 0) c hw)) (fun c hw => x1 (Cert.Spec.cell4 (i 0) c hw))
    (Cert.CellWords.cellOf x2 (i 0) (i 1)) (Cert.CellWords.cellOf x3 (i 0) (i 1))

/-- The masked mean of a [32, 64] array of losses: the sum of the kept losses over the larger of the number kept
    and one. -/
def meanLoss (nll : FVec Ideal S2 .f32) (mask : IVec S2 1) : FVec Ideal S0 .f32 :=
  Host.divf
    (Host.reduceAdd (mulf nll (uitofp .f32 mask : FVec Ideal S2 .f32)) (constant S0 .f32 0x00000000#32 : FVec Ideal S0 .f32) hred hpos)
    (maximumf (Host.reduceAdd (uitofp .f32 mask : FVec Ideal S2 .f32) (constant S0 .f32 0x00000000#32 : FVec Ideal S0 .f32) hred hpos)
      (constant S0 .f32 0x3F800000#32 : FVec Ideal S0 .f32))

/-- The losses as a [32, 64] array: G with its last axis dropped. -/
def lossArr (x0 x1 : SF.Idx → EReal) (x2 x3 : Cert.CellWords.SK.Idx → EReal) : FVec Ideal S2 .f32 :=
  shapeCast S2 (G x0 x1 x2 x3) hcast

theorem lossArr_apply (x0 x1 : SF.Idx → EReal) (x2 x3 : Cert.CellWords.SK.Idx → EReal) (b : Fin 32) (n : Fin 64) :
    lossArr x0 x1 x2 x3 (ix2 b n) = G x0 x1 x2 x3 (ix3 b n (0 : Fin 1)) :=
  shapeCast_apply _ _ _ _ (by
    rw [Shape.rowMajor_val_three, Shape.rowMajor_val_two]
    show (b.val * 64 + n.val) * 1 + 0 = b.val * 64 + n.val; omega)

end Cert.Loss

end
-- ==== Proof.KerLayout.lean ====
/-
  The kernel body's layout operations and lane reductions, read at an index.

  The body works on one batch member: [256, 4096] feature blocks (channels by cells), a [1, 64] row and a [64, 1]
  column of cell words, and [64, 4096] logits (keypoints by cells). Blocks arrive with a leading axis of one entry,
  which a cast drops or adds without moving anything; a row is copied down the channels and a column across the cells;
  a sum or maximum along an axis of a rank-2 array is the sum or maximum over that axis's coordinates.
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.KerLayout

open Idealize.ShloMosaic Idealize.ShloMosaic.ValueIdx

variable {α : Type}

/-! ## Casts that drop or add an axis of one entry -/

/-- A [1, 256, 4096] block viewed as [256, 4096]. -/
theorem drop_feat (v : (⟨3, ![1, 256, 4096]⟩ : Shape).Idx → α) (h : (⟨3, ![1, 256, 4096]⟩ : Shape).ShapeCasts ⟨2, ![256, 4096]⟩)
    (c : Fin 256) (hw : Fin 4096) : shapeCast ⟨2, ![256, 4096]⟩ v h (ix2 c hw) = v (ix3 (0 : Fin 1) c hw) :=
  shapeCast_apply v h _ _ (by
    rw [Shape.rowMajor_val_three, Shape.rowMajor_val_two]
    show (0 * 256 + c.val) * 4096 + hw.val = c.val * 4096 + hw.val; omega)

/-- A [1, 1, 64] block viewed as the row [1, 64]. -/
theorem drop_row (v : (⟨3, ![1, 1, 64]⟩ : Shape).Idx → α) (h : (⟨3, ![1, 1, 64]⟩ : Shape).ShapeCasts ⟨2, ![1, 64]⟩)
    (u : Fin 1) (n : Fin 64) : shapeCast ⟨2, ![1, 64]⟩ v h (ix2 u n) = v (ix3 (0 : Fin 1) (0 : Fin 1) n) :=
  shapeCast_apply v h _ _ (by
    rw [Shape.rowMajor_val_three, Shape.rowMajor_val_two]
    have hu := u.isLt
    show (0 * 1 + 0) * 64 + n.val = u.val * 64 + n.val; omega)

/-- A [1, 64, 1] block viewed as the column [64, 1]. -/
theorem drop_col (v : (⟨3, ![1, 64, 1]⟩ : Shape).Idx → α) (h : (⟨3, ![1, 64, 1]⟩ : Shape).ShapeCasts ⟨2, ![64, 1]⟩)
    (n : Fin 64) (u : Fin 1) : shapeCast ⟨2, ![64, 1]⟩ v h (ix2 n u) = v (ix3 (0 : Fin 1) n (0 : Fin 1)) :=
  shapeCast_apply v h _ _ (by
    rw [Shape.rowMajor_val_three, Shape.rowMajor_val_two]
    have hu := u.isLt
    show (0 * 64 + n.val) * 1 + 0 = n.val * 1 + u.val; omega)

/-- The column [64, 1] viewed as a [1, 64, 1] block. -/
theorem add_col (v : (⟨2, ![64, 1]⟩ : Shape).Idx → α) (h : (⟨2, ![64, 1]⟩ : Shape).ShapeCasts ⟨3, ![1, 64, 1]⟩)
    (u0 : Fin 1) (n : Fin 64) (u2 : Fin 1) : shapeCast ⟨3, ![1, 64, 1]⟩ v h (ix3 u0 n u2) = v (ix2 n (0 : Fin 1)) :=
  shapeCast_apply v h _ _ (by
    rw [Shape.rowMajor_val_two, Shape.rowMajor_val_three]
    have h0 := u0.isLt; have h2 := u2.isLt
    show n.val * 1 + 0 = (u0.val * 64 + n.val) * 1 + u2.val; omega)

/-- A vector of 4096 entries viewed as the row [1, 4096]. -/
theorem row_of_vec (v : (⟨1, ![4096]⟩ : Shape).Idx → α) (h : (⟨1, ![4096]⟩ : Shape).ShapeCasts ⟨2, ![1, 4096]⟩)
    (u : Fin 1) (hw : Fin 4096) : shapeCast ⟨2, ![1, 4096]⟩ v h (ix2 u hw) = v (ix1 hw) :=
  shapeCast_apply v h _ _ (by
    rw [Shape.rowMajor_val_one, Shape.rowMajor_val_two]
    have hu := u.isLt
    show hw.val = u.val * 4096 + hw.val; omega)

/-- A vector of 64 entries viewed as the column [64, 1]. -/
theorem col_of_vec (v : (⟨1, ![64]⟩ : Shape).Idx → α) (h : (⟨1, ![64]⟩ : Shape).ShapeCasts ⟨2, ![64, 1]⟩)
    (n : Fin 64) (u : Fin 1) : shapeCast ⟨2, ![64, 1]⟩ v h (ix2 n u) = v (ix1 n) :=
  shapeCast_apply v h _ _ (by
    rw [Shape.rowMajor_val_one, Shape.rowMajor_val_two]
    have hu := u.isLt
    show n.val = n.val * 1 + u.val; omega)

/-! ## Copies of a row and of a column -/

/-- The row [1, 4096] copied down 256 channels. -/
theorem bcast_row_feat (v : (⟨2, ![1, 4096]⟩ : Shape).Idx → α) (h : (⟨2, ![1, 4096]⟩ : Shape).Broadcasts ⟨2, ![256, 4096]⟩)
    (c : Fin 256) (hw : Fin 4096) : broadcastTo ⟨2, ![256, 4096]⟩ v h (ix2 c hw) = v (ix2 (0 : Fin 1) hw) := by
  refine broadcastTo_apply v h (ix2 c hw) (ix2 (0 : Fin 1) hw) fun ax => ?_
  match ax with
  | ⟨0, _⟩ => rfl
  | ⟨1, _⟩ => rfl

/-- The row [1, 64] copied down 4096 cells. -/
theorem bcast_row_sel (v : (⟨2, ![1, 64]⟩ : Shape).Idx → α) (h : (⟨2, ![1, 64]⟩ : Shape).Broadcasts ⟨2, ![4096, 64]⟩)
    (hw : Fin 4096) (n : Fin 64) : broadcastTo ⟨2, ![4096, 64]⟩ v h (ix2 hw n) = v (ix2 (0 : Fin 1) n) := by
  refine broadcastTo_apply v h (ix2 hw n) (ix2 (0 : Fin 1) n) fun ax => ?_
  match ax with
  | ⟨0, _⟩ => rfl
  | ⟨1, _⟩ => rfl

/-- The column [64, 1] copied across 4096 cells. -/
theorem bcast_col (v : (⟨2, ![64, 1]⟩ : Shape).Idx → α) (h : (⟨2, ![64, 1]⟩ : Shape).Broadcasts ⟨2, ![64, 4096]⟩)
    (n : Fin 64) (m : Fin 4096) : broadcastTo ⟨2, ![64, 4096]⟩ v h (ix2 n m) = v (ix2 n (0 : Fin 1)) := by
  refine broadcastTo_apply v h (ix2 n m) (ix2 n (0 : Fin 1)) fun ax => ?_
  match ax with
  | ⟨0, _⟩ => rfl
  | ⟨1, _⟩ => rfl

/-! ## Sums and a maximum along one axis of a rank-2 array, at the extended reals -/

/-- Summing a [256, 4096] array over its channels: entry hw is the sum over c of entry (c, hw). -/
theorem sum_channels (src : FVec Ideal ⟨2, ![256, 4096]⟩ .f32) (acc : BitVec 32)
    (h : (⟨2, ![256, 4096]⟩ : Shape).Reduces [0] (⟨1, ![4096]⟩ : Shape)) (hφ : FKind.Formats FTy.f32)
    (hacc : acc = FKind.add.neutral .f32 hφ) (hw : Fin 4096) :
    multiReduction .add [0] ⟨1, ![4096]⟩ src acc h hφ hacc (ix1 hw) = ∑ c : Fin 256, src (ix2 c hw) := by
  rw [Ideal.multiReduction_add_single]
  refine Finset.sum_congr rfl fun k _ => congrArg src ?_
  funext a; apply Fin.ext
  fin_cases a <;> rfl

/-- Summing a [64, 4096] array over its cells: entry n is the sum over m of entry (n, m). -/
theorem sum_cells (src : FVec Ideal ⟨2, ![64, 4096]⟩ .f32) (acc : BitVec 32)
    (h : (⟨2, ![64, 4096]⟩ : Shape).Reduces [1] (⟨1, ![64]⟩ : Shape)) (hφ : FKind.Formats FTy.f32)
    (hacc : acc = FKind.add.neutral .f32 hφ) (n : Fin 64) :
    multiReduction .add [1] ⟨1, ![64]⟩ src acc h hφ hacc (ix1 n) = ∑ m : Fin 4096, src (ix2 n m) := by
  rw [Ideal.multiReduction_add_single]
  refine Finset.sum_congr rfl fun k _ => congrArg src ?_
  funext a; apply Fin.ext
  fin_cases a <;> rfl

/-- The maximum of a [64, 4096] array over its cells: entry n is the fold of max over m of entry (n, m). -/
theorem max_cells (src : FVec Ideal ⟨2, ![64, 4096]⟩ .f32) (acc : BitVec 32)
    (h : (⟨2, ![64, 4096]⟩ : Shape).Reduces [1] (⟨1, ![64]⟩ : Shape)) (hφ : FKind.Formats FTy.f32)
    (hacc : acc = FKind.maximumf.neutral .f32 hφ) (n : Fin 64) :
    multiReduction .maximumf [1] ⟨1, ![64]⟩ src acc h hφ hacc (ix1 n)
      = (Finset.univ : Finset (Fin 4096)).fold max (Ideal.ofBits .f32 acc) (fun m => src (ix2 n m)) := by
  rw [Ideal.multiReduction_maximumf_single]
  refine congrArg (fun f => Finset.fold max (Ideal.ofBits .f32 acc) f (Finset.univ : Finset (Fin 4096))) ?_
  funext k
  refine congrArg src ?_
  funext a; apply Fin.ext
  fin_cases a <;> rfl

end Cert.KerLayout

end
-- ==== Proof.KerPay.lean ====
/-
  What the kernel body computes for one batch member, index by index.

  From a source block fs and a target block ft, both [256, 4096] (channels by cells), a row of 64 source cell words and
  a column of 64 target cell words, the body forms: the unit channel vectors of both blocks; a [4096, 64] selector whose
  entry (hw, n) is one when lane hw is keypoint n's source cell and zero otherwise; the queries, the product of the unit
  source block with the selector — by the indicator sum, column n of it is the unit source vector at keypoint n's cell;
  the logits, queries transposed times the unit target block over the temperature; each row's maximum; and the masked
  sum of the shifted log-probabilities against the indicator of the target cell, negated — by the indicator sum again,
  minus the log-probability at the target cell.
-/
import proofs.«121640_j13554916786246_2_alg».proof.Proof.Gen.KernelIdeal.Skeleton
import proofs.«121640_j13554916786246_2_alg».proof.Proof.Spec
import proofs.«121640_j13554916786246_2_alg».proof.Proof.KerLayout
import Idealize.ShloMosaic.Lib.ValueIdx
import Idealize.ShloMosaic.Lib.Pipeline.Value
import Idealize.ShloMosaic.PureOps.Ideal.Laws

noncomputable section

namespace Cert.KerPay

open Cert.KernelIdeal Cert.KernelIdeal.Gen Idealize.ShloMosaic Idealize.ShloMosaic.ValueIdx

abbrev Blk := Vec Ideal S1x256x4096 .f32
abbrev SrcRow := Vec Ideal S1x1x64 .i32
abbrev TrgCol := Vec Ideal S1x64x1 .i32

/-! ## The body's values, named -/

/-- The unit channel vectors of a block. -/
def feat (v : Blk) : FVec Ideal S256x4096 .f32 :=
  divf (shapeCast S256x4096 v shapeCasts_S1x256x4096_S256x4096)
    (broadcastTo S256x4096
      (maximumf
        (sqrt (shapeCast S1x4096
          (multiReduction .add [0] S4096
            (mulf (shapeCast S256x4096 v shapeCasts_S1x256x4096_S256x4096) (shapeCast S256x4096 v shapeCasts_S1x256x4096_S256x4096))
            0x00000000#32 reduces_S256x4096_S4096 (.inl rfl) rfl)
          shapeCasts_S4096_S1x4096))
        (broadcast S1x4096 (Scalar.ofBits .f32 0x2B8CBCCC#32)))
      broadcasts_S1x4096_S256x4096)

/-- The selector of the source cells: lane number against each keypoint's cell word. -/
def sel (s : SrcRow) : FVec Ideal S4096x64 .f32 :=
  sitofp .f32 (extui 32 (cmpi .eq (iota .tc S4096x64 32 [0] iota_S4096x64_d0_w32)
    (broadcastTo S4096x64 (shapeCast S1x64 s shapeCasts_S1x1x64_S1x64) broadcasts_S1x64_S4096x64)) natLt_1_32)

/-- The queries: unit source block times selector. -/
def queries (v0 : Blk) (s : SrcRow) : FVec Ideal S256x64 .f32 :=
  matmul dot_S256x4096_S4096x64_S256x64_1_0_0_1_n_n none
    (truncf .bf16 (feat v0) bitsLt_bf16_f32 : FVec Ideal S256x4096 .bf16)
    (truncf .bf16 (sel s) bitsLt_bf16_f32 : FVec Ideal S4096x64 .bf16)
    (constant S256x64 .f32 0x00000000#32)

/-- The logits: queries, contracted over the channels with the unit target block, over the temperature. -/
def logits (v0 v2 : Blk) (s : SrcRow) : FVec Ideal S64x4096 .f32 :=
  divf (matmul dot_S256x64_S256x4096_S64x4096_0_0_1_1_n_n none
      (truncf .bf16 (queries v0 s) bitsLt_bf16_f32 : FVec Ideal S256x64 .bf16)
      (truncf .bf16 (feat v2) bitsLt_bf16_f32 : FVec Ideal S256x4096 .bf16)
      (constant S64x4096 .f32 0x00000000#32))
    (broadcast S64x4096 (Scalar.ofBits .f32 0x3C23D70A#32))

theorem pay3_eq (v0 v2 : Blk) (s : SrcRow) : k0_pay3 (F := Ideal) v0 v2 s = logits v0 v2 s := rfl

/-! ## Read at an index -/

/-- Entry (c, hw) of a block's unit vectors is entry c of the unit vector of the block's channel vector at cell hw. -/
theorem feat_apply (v : Blk) (c : Fin 256) (hw : Fin 4096) :
    feat v (ix2 c hw) = Cert.Spec.unitCol (fun k => v (ix3 (0 : Fin 1) k hw)) c := by
  unfold feat Cert.Spec.unitCol
  rw [divf_apply, KerLayout.drop_feat, KerLayout.bcast_row_feat, maximumf_apply]
  show Ideal.div _ (max (Ideal.sqrt (shapeCast S1x4096 _ shapeCasts_S4096_S1x4096 (ix2 (0 : Fin 1) hw))) _) = _
  rw [KerLayout.row_of_vec]
  have hsum : multiReduction (F := Ideal) (φ := .f32) .add [0] S4096
      (mulf (F := Ideal) (φ := .f32) (shapeCast S256x4096 v shapeCasts_S1x256x4096_S256x4096)
        (shapeCast S256x4096 v shapeCasts_S1x256x4096_S256x4096))
      0x00000000#32 reduces_S256x4096_S4096 (.inl rfl) rfl (ix1 hw)
      = ∑ k : Fin 256, v (ix3 (0 : Fin 1) k hw) * v (ix3 (0 : Fin 1) k hw) := by
    refine (KerLayout.sum_channels
      (mulf (F := Ideal) (φ := .f32) (shapeCast S256x4096 v shapeCasts_S1x256x4096_S256x4096)
        (shapeCast S256x4096 v shapeCasts_S1x256x4096_S256x4096))
      _ reduces_S256x4096_S4096 _ _ hw).trans ?_
    refine Finset.sum_congr rfl fun k _ => ?_
    rw [mulf_apply, KerLayout.drop_feat]
  exact congrArg (fun z => Ideal.div (v (ix3 (0 : Fin 1) c hw)) (max (Ideal.sqrt z) Cert.Spec.eps)) hsum

/-! ## The two products' operand indices -/

section DotIdx
local notation "D₁" => dot_S256x4096_S4096x64_S256x64_1_0_0_1_n_n
local notation "D₂" => dot_S256x64_S256x4096_S64x4096_0_0_1_1_n_n

theorem d1_lhs0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl
theorem d1_lhs1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem d1_rhs0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem d1_rhs1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl

theorem d2_lhs0 (i : S64x4096.Idx) (q : dot_S256x64_S256x4096_S64x4096_0_0_1_1_n_n.contr.Idx) :
    (dot_S256x64_S256x4096_S64x4096_0_0_1_1_n_n.lhsIdx i q 0).val = (q ⟨0, by decide⟩).val :=
  dot_S256x64_S256x4096_S64x4096_0_0_1_1_n_n.lhsIdx_val_of_single rfl i q
theorem d2_lhs1 (i : S64x4096.Idx) (q : dot_S256x64_S256x4096_S64x4096_0_0_1_1_n_n.contr.Idx) :
    (dot_S256x64_S256x4096_S64x4096_0_0_1_1_n_n.lhsIdx i q 1).val = (i 0).val := by
  unfold DotDims.lhsIdx
  rw [dif_neg (show ¬(1 : Fin S256x64.rank) ∈ dot_S256x64_S256x4096_S64x4096_0_0_1_1_n_n.lhsBatch by decide),
    dif_pos (show (1 : Fin S256x64.rank) ∈ dot_S256x64_S256x4096_S64x4096_0_0_1_1_n_n.lhsNonContracting by decide)]
  rfl
theorem d2_rhs0 (i : S64x4096.Idx) (q : dot_S256x64_S256x4096_S64x4096_0_0_1_1_n_n.contr.Idx) :
    (dot_S256x64_S256x4096_S64x4096_0_0_1_1_n_n.rhsIdx i q 0).val = (q ⟨0, by decide⟩).val :=
  dot_S256x64_S256x4096_S64x4096_0_0_1_1_n_n.rhsIdx_val_of_single rfl i q
theorem d2_rhs1 (i : S64x4096.Idx) (q : dot_S256x64_S256x4096_S64x4096_0_0_1_1_n_n.contr.Idx) :
    (dot_S256x64_S256x4096_S64x4096_0_0_1_1_n_n.rhsIdx i q 1).val = (i 1).val := by
  unfold DotDims.rhsIdx
  rw [dif_neg (show ¬(1 : Fin S256x4096.rank) ∈ dot_S256x64_S256x4096_S64x4096_0_0_1_1_n_n.rhsBatch by decide),
    dif_pos (show (1 : Fin S256x4096.rank) ∈ dot_S256x64_S256x4096_S64x4096_0_0_1_1_n_n.rhsNonContracting by decide)]
  rfl

end DotIdx

/-- Entry (hw, n) of the selector is one when hw is keypoint n's source cell and zero otherwise. -/
theorem sel_apply (s : SrcRow) (hw : Fin 4096) (n : Fin 64) (k : Fin 4096)
    (hs : s (ix3 (0 : Fin 1) (0 : Fin 1) n) = BitVec.ofNat 32 k.val) :
    sel s (ix2 hw n) = if hw = k then 1 else 0 := by
  unfold sel
  rw [sitofp_apply, extui_apply]
  show FloatOps.sitofp .f32 ((IntOp.cmpi .eq (iota .tc S4096x64 32 [0] iota_S4096x64_d0_w32 (ix2 hw n))
    (broadcastTo S4096x64 (shapeCast S1x64 s shapeCasts_S1x1x64_S1x64) broadcasts_S1x64_S4096x64 (ix2 hw n))).setWidth 32) = _
  rw [iota_single_apply, KerLayout.bcast_row_sel, KerLayout.drop_row, hs]
  refine (Cert.Spec.pick_word hw.val k.val (by have := hw.isLt; omega) (by have := k.isLt; omega)).trans ?_
  exact if_congr Fin.ext_iff.symm rfl rfl

/-- Column n of the queries is the unit source vector at keypoint n's cell. -/
theorem queries_apply (v0 : Blk) (s : SrcRow) (c : Fin 256) (n : Fin 64) (k : Fin 4096)
    (hs : s (ix3 (0 : Fin 1) (0 : Fin 1) n) = BitVec.ofNat 32 k.val) :
    queries v0 s (ix2 c n) = Cert.Spec.unitCol (fun j => v0 (ix3 (0 : Fin 1) j k)) c := by
  unfold queries
  simp only [matmul]
  rw [Ideal.matmul_constant_zero_apply,
    ← Equiv.sum_comp (contrEquiv1 dot_S256x4096_S4096x64_S256x64_1_0_0_1_n_n 4096 rfl rfl).symm]
  have el : ∀ q : Fin 4096, dot_S256x4096_S4096x64_S256x64_1_0_0_1_n_n.lhsIdx (ix2 c n)
      ((contrEquiv1 dot_S256x4096_S4096x64_S256x64_1_0_0_1_n_n 4096 rfl rfl).symm q) = ix2 c q := by
    intro q
    have hq := contrEquiv1_symm_val dot_S256x4096_S4096x64_S256x64_1_0_0_1_n_n 4096 rfl rfl q
    funext a; refine Fin.ext ?_
    match a with
    | ⟨0, _⟩ => exact d1_lhs0 _ _
    | ⟨1, _⟩ => exact (d1_lhs1 _ _).trans hq
  have er : ∀ q : Fin 4096, dot_S256x4096_S4096x64_S256x64_1_0_0_1_n_n.rhsIdx (ix2 c n)
      ((contrEquiv1 dot_S256x4096_S4096x64_S256x64_1_0_0_1_n_n 4096 rfl rfl).symm q) = ix2 q n := by
    intro q
    have hq := contrEquiv1_symm_val dot_S256x4096_S4096x64_S256x64_1_0_0_1_n_n 4096 rfl rfl q
    funext a; refine Fin.ext ?_
    match a with
    | ⟨0, _⟩ => exact (d1_rhs0 _ _).trans hq
    | ⟨1, _⟩ => exact d1_rhs1 _ _
  simp only [el, er, truncf_apply]
  rw [Cert.Spec.sum_mul_pick (fun q => feat v0 (ix2 c q)) (fun q => sel s (ix2 q n)) k (fun q => sel_apply s q n k hs)]
  exact feat_apply v0 c k

/-- Entry (n, m) of the logits: the unit source vector at keypoint n's cell against the unit target vector at cell m. -/
theorem logits_apply (v0 v2 : Blk) (s : SrcRow) (n : Fin 64) (m : Fin 4096) (k : Fin 4096)
    (hs : s (ix3 (0 : Fin 1) (0 : Fin 1) n) = BitVec.ofNat 32 k.val) :
    logits v0 v2 s (ix2 n m)
      = Cert.Spec.logit (fun c => Cert.Spec.unitCol (fun j => v0 (ix3 (0 : Fin 1) j k)) c)
          (fun c => Cert.Spec.unitCol (fun j => v2 (ix3 (0 : Fin 1) j m)) c) := by
  unfold logits Cert.Spec.logit
  rw [divf_apply]
  simp only [matmul]
  rw [Ideal.matmul_constant_zero_apply,
    ← Equiv.sum_comp (contrEquiv1 dot_S256x64_S256x4096_S64x4096_0_0_1_1_n_n 256 rfl rfl).symm]
  have el : ∀ q : Fin 256, dot_S256x64_S256x4096_S64x4096_0_0_1_1_n_n.lhsIdx (ix2 n m)
      ((contrEquiv1 dot_S256x64_S256x4096_S64x4096_0_0_1_1_n_n 256 rfl rfl).symm q) = ix2 q n := by
    intro q
    have hq := contrEquiv1_symm_val dot_S256x64_S256x4096_S64x4096_0_0_1_1_n_n 256 rfl rfl q
    funext a; refine Fin.ext ?_
    match a with
    | ⟨0, _⟩ => exact (d2_lhs0 _ _).trans hq
    | ⟨1, _⟩ => exact d2_lhs1 _ _
  have er : ∀ q : Fin 256, dot_S256x64_S256x4096_S64x4096_0_0_1_1_n_n.rhsIdx (ix2 n m)
      ((contrEquiv1 dot_S256x64_S256x4096_S64x4096_0_0_1_1_n_n 256 rfl rfl).symm q) = ix2 q m := by
    intro q
    have hq := contrEquiv1_symm_val dot_S256x64_S256x4096_S64x4096_0_0_1_1_n_n 256 rfl rfl q
    funext a; refine Fin.ext ?_
    match a with
    | ⟨0, _⟩ => exact (d2_rhs0 _ _).trans hq
    | ⟨1, _⟩ => exact d2_rhs1 _ _
  simp only [el, er, truncf_apply, queries_apply v0 s _ n k hs, feat_apply]
  rfl

/-! ## The row maximum and the masked sum -/

/-- Row n of the row maxima is the largest logit of keypoint n. -/
theorem pay4_apply (v0 v2 : Blk) (s : SrcRow) (n : Fin 64) (u : Fin 1) :
    k0_pay4 (F := Ideal) v0 v2 s (ix2 n u) = Cert.Spec.rowMax (fun m => logits v0 v2 s (ix2 n m)) := by
  show shapeCast S64x1 (multiReduction .maximumf [1] S64 (logits v0 v2 s) 0xFF800000#32 reduces_S64x4096_S64 (.inl rfl) rfl)
    shapeCasts_S64_S64x1 (ix2 n u) = _
  rw [KerLayout.col_of_vec]
  exact KerLayout.max_cells (logits v0 v2 s) _ reduces_S64x4096_S64 _ _ n

/-- The logits less the row maxima. -/
def shifted (L : FVec Ideal S64x4096 .f32) (M : FVec Ideal S64x1 .f32) : FVec Ideal S64x4096 .f32 :=
  subf L (broadcastTo S64x4096 M broadcasts_S64x1_S64x4096)

/-- The shifted log-probabilities. -/
def logpK (L : FVec Ideal S64x4096 .f32) (M : FVec Ideal S64x1 .f32) : FVec Ideal S64x4096 .f32 :=
  subf (shifted L M) (broadcastTo S64x4096
    (log (shapeCast S64x1 (multiReduction .add [1] S64 (exp (shifted L M)) 0x00000000#32 reduces_S64x4096_S64 (.inl rfl) rfl)
      shapeCasts_S64_S64x1)) broadcasts_S64x1_S64x4096)

/-- The indicator of the target cells: lane number against each keypoint's cell word. -/
def tsel (t : IVec S64x1 32) : FVec Ideal S64x4096 .f32 :=
  sitofp .f32 (extui 32 (cmpi .eq (iota .tc S64x4096 32 [1] iota_S64x4096_d1_w32)
    (broadcastTo S64x4096 t broadcasts_S64x1_S64x4096)) natLt_1_32)

/-- What the body stores. -/
def stored (t : IVec S64x1 32) (L : FVec Ideal S64x4096 .f32) (M : FVec Ideal S64x1 .f32) : FVec Ideal S1x64x1 .f32 :=
  shapeCast S1x64x1
    (subf (broadcast S64x1 (Scalar.ofBits .f32 0x00000000#32))
      (shapeCast S64x1 (multiReduction .add [1] S64 (mulf (logpK L M) (tsel t)) 0x00000000#32 reduces_S64x4096_S64 (.inl rfl) rfl)
        shapeCasts_S64_S64x1))
    shapeCasts_S64x1_S1x64x1

theorem pay1_eq (t : IVec S64x1 32) (L : FVec Ideal S64x4096 .f32) (M : FVec Ideal S64x1 .f32) :
    k0_pay1 (F := Ideal) t L M = stored t L M := rfl

theorem shifted_apply (L : FVec Ideal S64x4096 .f32) (M : FVec Ideal S64x1 .f32) (n : Fin 64) (m : Fin 4096) :
    shifted L M (ix2 n m) = L (ix2 n m) - M (ix2 n (0 : Fin 1)) := by
  unfold shifted
  rw [subf_apply, KerLayout.bcast_col]

theorem logpK_apply (L : FVec Ideal S64x4096 .f32) (M : FVec Ideal S64x1 .f32) (n : Fin 64) (m : Fin 4096) :
    logpK L M (ix2 n m) = (L (ix2 n m) - M (ix2 n (0 : Fin 1)))
      - Ideal.log (∑ j : Fin 4096, Ideal.exp (L (ix2 n j) - M (ix2 n (0 : Fin 1)))) := by
  unfold logpK
  rw [subf_apply, KerLayout.bcast_col, shifted_apply]
  show _ - Ideal.log (shapeCast S64x1 _ shapeCasts_S64_S64x1 (ix2 n (0 : Fin 1))) = _
  rw [KerLayout.col_of_vec]
  refine congrArg (fun z => (L (ix2 n m) - M (ix2 n (0 : Fin 1))) - Ideal.log z) ?_
  refine (KerLayout.sum_cells (exp (shifted L M)) _ reduces_S64x4096_S64 _ _ n).trans ?_
  refine Finset.sum_congr rfl fun j _ => ?_
  show Ideal.exp (shifted L M (ix2 n j)) = _
  rw [shifted_apply]

theorem tsel_apply (t : IVec S64x1 32) (n : Fin 64) (m : Fin 4096) (k : Fin 4096)
    (ht : t (ix2 n (0 : Fin 1)) = BitVec.ofNat 32 k.val) : tsel t (ix2 n m) = if m = k then 1 else 0 := by
  unfold tsel
  rw [sitofp_apply, extui_apply]
  show FloatOps.sitofp .f32 ((IntOp.cmpi .eq (iota .tc S64x4096 32 [1] iota_S64x4096_d1_w32 (ix2 n m))
    (broadcastTo S64x4096 t broadcasts_S64x1_S64x4096 (ix2 n m))).setWidth 32) = _
  rw [iota_single_apply, KerLayout.bcast_col, ht]
  refine (Cert.Spec.pick_word m.val k.val (by have := m.isLt; omega) (by have := k.isLt; omega)).trans ?_
  exact if_congr Fin.ext_iff.symm rfl rfl

/-- Entry (0, n, 0) of what the body stores: minus the log-probability at keypoint n's target cell, the row shifted
    by M. -/
theorem stored_apply (t : IVec S64x1 32) (L : FVec Ideal S64x4096 .f32) (M : FVec Ideal S64x1 .f32) (n : Fin 64) (k : Fin 4096)
    (ht : t (ix2 n (0 : Fin 1)) = BitVec.ofNat 32 k.val) (u0 u2 : Fin 1) :
    stored t L M (ix3 u0 n u2) = -((L (ix2 n k) - M (ix2 n (0 : Fin 1)))
      - Ideal.log (∑ j : Fin 4096, Ideal.exp (L (ix2 n j) - M (ix2 n (0 : Fin 1))))) := by
  unfold stored
  rw [KerLayout.add_col, subf_apply, KerLayout.col_of_vec]
  have hsum : multiReduction .add [1] S64 (mulf (logpK L M) (tsel t)) 0x00000000#32 reduces_S64x4096_S64 (.inl rfl) rfl (ix1 n)
      = logpK L M (ix2 n k) :=
    (KerLayout.sum_cells (mulf (logpK L M) (tsel t)) _ reduces_S64x4096_S64 _ _ n).trans
      (Cert.Spec.sum_mul_pick (fun j => logpK L M (ix2 n j)) (fun j => tsel t (ix2 n j)) k (fun j => tsel_apply t n j k ht))
  refine (congrArg (fun z => broadcast S64x1 (Scalar.ofBits (F := Ideal) .f32 0x00000000#32) (ix2 n (0 : Fin 1)) - z) hsum).trans ?_
  rw [logpK_apply]
  show Ideal.ofBits .f32 0x00000000#32 - _ = _
  rw [Ideal.ofBits_zero_f32, zero_sub]

/-! ## One batch member -/

/-- The body's stored block, at keypoint n, is the loss of keypoint n for the blocks' channel vectors, given the
    numbers the two cell words denote. -/
theorem block_apply (v0 v2 : Blk) (s : SrcRow) (tc : TrgCol) (S T : Fin 64 → Fin 4096)
    (hS : ∀ n : Fin 64, s (ix3 (0 : Fin 1) (0 : Fin 1) n) = BitVec.ofNat 32 (S n).val)
    (hT : ∀ n : Fin 64, tc (ix3 (0 : Fin 1) n (0 : Fin 1)) = BitVec.ofNat 32 (T n).val) (n : Fin 64) (u0 u2 : Fin 1) :
    k0_pay1 (F := Ideal) (k0_pay2 tc) (k0_pay3 v0 v2 s) (k0_pay4 v0 v2 s) (ix3 u0 n u2)
      = Cert.Spec.nll (fun c hw => v0 (ix3 (0 : Fin 1) c hw)) (fun c hw => v2 (ix3 (0 : Fin 1) c hw)) (S n) (T n) := by
  have ht : k0_pay2 (F := Ideal) tc (ix2 n (0 : Fin 1)) = BitVec.ofNat 32 (T n).val := by
    show shapeCast S64x1 tc shapeCasts_S1x64x1_S64x1 (ix2 n (0 : Fin 1)) = _
    rw [KerLayout.drop_col, hT]
  rw [pay1_eq, stored_apply _ _ _ n (T n) ht, pay4_apply, pay3_eq]
  unfold Cert.Spec.nll Cert.Spec.logp
  simp only [logits_apply v0 v2 s n _ (S n) (hS n)]

end Cert.KerPay

end
-- ==== Proof.KerArr.lean ====
/-
  The kernel's output array after the run.

  The kernel is launched once per batch member: point t stages block t of each operand (the whole [256, 4096] feature
  slab of member t, its row of source cell words and its column of target cell words) and writes back block t of the
  [32, 64, 1] result. The operands were made on the host before the launch: the feature arrays viewed as
  [32, 256, 4096] (cell hw is row hw / 64, column hw % 64), and the cell words of the keypoints laid out as a
  [32, 1, 64] and a [32, 64, 1] array. So what point t writes back is block t of ONE function of the argument arrays:
  entry (b, n, 0) is the loss of keypoint n of member b. The 32 blocks tile the result, which therefore ends equal to
  that function everywhere.
-/
import proofs.«121640_j13554916786246_2_alg».proof.Proof.Gen.KernelIdeal.Frame
import proofs.«121640_j13554916786246_2_alg».proof.Proof.KerPay
import proofs.«121640_j13554916786246_2_alg».proof.Proof.CellWords
import proofs.«121640_j13554916786246_2_alg».proof.Proof.Spec
import proofs.«121640_j13554916786246_2_alg».proof.Proof.Loss
import Idealize.ShloMosaic.Lib.Pipeline.Value
import Idealize.ShloMosaic.Lib.StableHlo.Run
import Idealize.ShloMosaic.Lib.ValueIdx

set_option maxRecDepth 16384

noncomputable section

namespace Cert.KerArr

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The argument arrays of core c. -/
abbrev a0 (c : Dev nD) : S32x256x64x64.Idx → EReal := m ((c : Thread nD τ).loc main_arg0)
abbrev a1 (c : Dev nD) : S32x256x64x64.Idx → EReal := m ((c : Thread nD τ).loc main_arg1)
abbrev a2 (c : Dev nD) : S32x64x2.Idx → EReal := m ((c : Thread nD τ).loc main_arg2)
abbrev a3 (c : Dev nD) : S32x64x2.Idx → EReal := m ((c : Thread nD τ).loc main_arg3)

open Cert.Loss (G)

/-! ## The operands as the region finds them -/

theorem entry0 (c : Dev nD) : (V m c main_v0 : S32x256x4096.Idx → EReal)
    = shapeCast S32x256x4096 (a0 m c) shapeCasts_S32x256x64x64_S32x256x4096 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

theorem entry1 (c : Dev nD) : (V m c main_v1 : S32x256x4096.Idx → EReal)
    = shapeCast S32x256x4096 (a1 m c) shapeCasts_S32x256x64x64_S32x256x4096 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

theorem entry2 (c : Dev nD) : (V m c main_v17 : S32x1x64.Idx → BitVec 32)
    = shapeCast S32x1x64 (Cert.CellWords.words (a2 m c)) shapeCasts_S32x64_S32x1x64 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

theorem entry3 (c : Dev nD) : (V m c main_v33 : S32x64x1.Idx → BitVec 32)
    = shapeCast S32x64x1 (Cert.CellWords.words (a3 m c)) shapeCasts_S32x64_S32x64x1 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

/-! ## The blocks -/

theorem hz3 : (![0, 0, 0] : Fin 3 → Nat) = fun _ => 0 := funext fun a => by fin_cases a <;> rfl

/-- Every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The batch member point t works on. -/
abbrev member (t : Fin cfg0.N) : Fin 32 := ⟨t.val, by have h := t.isLt; have e : cfg0.N = 32 := N_0; omega⟩

/-- The source feature block of point t at (0, c, hw) is the source argument at the cell. -/
theorem blk0_apply (c : Dev nD) (t : Fin cfg0.N) (ch : Fin 256) (hw : Fin 4096) :
    iblk m c 0 t (ix3 (0 : Fin 1) ch hw) = a0 m c (Cert.Spec.cell4 (member t) ch hw) := by
  obtain ⟨e0, e1, e2, -⟩ := idx_facts t
  show V m c main_v0 (((cfg0.win 0).blk t).view.emb (ix3 (0 : Fin 1) ch hw)) = _
  rw [entry0]
  refine shapeCast_apply _ _ _ _ ?_
  rw [Shape.rowMajor_val_four, Shape.rowMajor_val_three]
  have hc := ch.isLt; have hh := hw.isLt; have ht := (member t).isLt
  show ((t.val * 256 + ch.val) * 64 + hw.val / 64) * 64 + hw.val % 64
    = ((win0_0.index t (0 : Fin 3) * 1 + 1 * 0) * 256 + (win0_0.index t (1 : Fin 3) * 256 + 1 * ch.val)) * 4096
      + (win0_0.index t (2 : Fin 3) * 4096 + 1 * hw.val)
  omega

/-- The target feature block likewise. -/
theorem blk1_apply (c : Dev nD) (t : Fin cfg0.N) (ch : Fin 256) (hw : Fin 4096) :
    iblk m c 1 t (ix3 (0 : Fin 1) ch hw) = a1 m c (Cert.Spec.cell4 (member t) ch hw) := by
  obtain ⟨-, -, -, e0, e1, e2, -⟩ := idx_facts t
  show V m c main_v1 (((cfg0.win 1).blk t).view.emb (ix3 (0 : Fin 1) ch hw)) = _
  rw [entry1]
  refine shapeCast_apply _ _ _ _ ?_
  rw [Shape.rowMajor_val_four, Shape.rowMajor_val_three]
  have hc := ch.isLt; have hh := hw.isLt; have ht := (member t).isLt
  show ((t.val * 256 + ch.val) * 64 + hw.val / 64) * 64 + hw.val % 64
    = ((win0_1.index t (0 : Fin 3) * 1 + 1 * 0) * 256 + (win0_1.index t (1 : Fin 3) * 256 + 1 * ch.val)) * 4096
      + (win0_1.index t (2 : Fin 3) * 4096 + 1 * hw.val)
  omega

/-- The row of source cell words of point t, at keypoint n, is the word of member t's source cell. -/
theorem blk2_apply (c : Dev nD) (t : Fin cfg0.N) (n : Fin 64) :
    iblk m c 2 t (ix3 (0 : Fin 1) (0 : Fin 1) n) = BitVec.ofNat 32 (Cert.CellWords.cellOf (a2 m c) (member t) n).val := by
  obtain ⟨-, -, -, -, -, -, e0, e1, e2, -⟩ := idx_facts t
  show V m c main_v17 (((cfg0.win 2).blk t).view.emb (ix3 (0 : Fin 1) (0 : Fin 1) n)) = _
  rw [entry2, ← Cert.CellWords.words_eq]
  refine shapeCast_apply _ _ _ _ ?_
  rw [Shape.rowMajor_val_two, Shape.rowMajor_val_three]
  have hn := n.isLt; have ht := (member t).isLt
  show t.val * 64 + n.val
    = ((win0_2.index t (0 : Fin 3) * 1 + 1 * 0) * 1 + (win0_2.index t (1 : Fin 3) * 1 + 1 * 0)) * 64
      + (win0_2.index t (2 : Fin 3) * 64 + 1 * n.val)
  omega

/-- The column of target cell words of point t likewise. -/
theorem blk3_apply (c : Dev nD) (t : Fin cfg0.N) (n : Fin 64) :
    iblk m c 3 t (ix3 (0 : Fin 1) n (0 : Fin 1)) = BitVec.ofNat 32 (Cert.CellWords.cellOf (a3 m c) (member t) n).val := by
  obtain ⟨-, -, -, -, -, -, -, -, -, e0, e1, e2, -⟩ := idx_facts t
  show V m c main_v33 (((cfg0.win 3).blk t).view.emb (ix3 (0 : Fin 1) n (0 : Fin 1))) = _
  rw [entry3, ← Cert.CellWords.words_eq]
  refine shapeCast_apply _ _ _ _ ?_
  rw [Shape.rowMajor_val_two, Shape.rowMajor_val_three]
  have hn := n.isLt; have ht := (member t).isLt
  show t.val * 64 + n.val
    = ((win0_3.index t (0 : Fin 3) * 1 + 1 * 0) * 64 + (win0_3.index t (1 : Fin 3) * 64 + 1 * n.val)) * 1
      + (win0_3.index t (2 : Fin 3) * 1 + 1 * 0)
  omega

/-- WHAT POINT t WRITES BACK is block t of G of the argument arrays. -/
theorem flushed_eq (c : Dev nD) (t : Fin cfg0.N) :
    (dats m 0 c).flushed 4 t = ((cfg0.win 4).blk t).view.read (Elt Ideal) (G (a0 m c) (a1 m c) (a2 m c) (a3 m c)) := by
  show (cfg0.win 4).cut (grid0.coords t) ((dats m 0 c).after 4 t) = _
  rw [after0_4]
  unfold out0_4
  rw [View.canon_unit_zero hz3]
  simp only [View.ld_unit_zero (S := S1x256x4096) hz3, View.ld_unit_zero (S := S1x1x64) hz3, View.ld_unit_zero (S := S1x64x1) hz3]
  obtain ⟨-, -, -, -, -, -, -, -, -, -, -, -, e0, e1, e2⟩ := idx_facts t
  funext y
  have hy : (y : S1x64x1.Idx) = ix3 (y 0) (y 1) (y 2) := eq_ix3 y
  show k0_pay1 (F := Ideal) (k0_pay2 (iblk m c 3 t)) (k0_pay3 (iblk m c 0 t) (iblk m c 1 t) (iblk m c 2 t))
      (k0_pay4 (iblk m c 0 t) (iblk m c 1 t) (iblk m c 2 t)) y
    = G (a0 m c) (a1 m c) (a2 m c) (a3 m c) (((cfg0.win 4).blk t).view.emb y)
  rw [hy]
  refine (Cert.KerPay.block_apply (iblk m c 0 t) (iblk m c 1 t) (iblk m c 2 t) (iblk m c 3 t)
    (fun n => Cert.CellWords.cellOf (a2 m c) (member t) n) (fun n => Cert.CellWords.cellOf (a3 m c) (member t) n)
    (fun n => blk2_apply m c t n) (fun n => blk3_apply m c t n) (y 1) (y 0) (y 2)).trans ?_
  have hemb : ((cfg0.win 4).blk t).view.emb (ix3 (y 0) (y 1) (y 2)) = ix3 (member t) (y 1) (0 : Fin 1) := by
    funext a; apply Fin.ext
    have h0 : (y 0).val < 1 := (y 0).isLt; have h2 : (y 2).val < 1 := (y 2).isLt
    match a with
    | ⟨0, _⟩ => show win0_4.index t (0 : Fin 3) * 1 + 1 * (y 0).val = t.val; omega
    | ⟨1, _⟩ => show win0_4.index t (1 : Fin 3) * 64 + 1 * (y 1).val = (y 1).val; omega
    | ⟨2, _⟩ => show win0_4.index t (2 : Fin 3) * 1 + 1 * (y 2).val = 0; omega
  refine Eq.trans ?_ (congrArg (G (a0 m c) (a1 m c) (a2 m c) (a3 m c)) hemb).symm
  have h0 : (fun ch hw => iblk m c 0 t (ix3 (0 : Fin 1) ch hw))
      = fun (ch : Fin 256) (hw : Fin 4096) => a0 m c (Cert.Spec.cell4 (member t) ch hw) :=
    funext fun ch => funext fun hw => blk0_apply m c t ch hw
  have h1 : (fun ch hw => iblk m c 1 t (ix3 (0 : Fin 1) ch hw))
      = fun (ch : Fin 256) (hw : Fin 4096) => a1 m c (Cert.Spec.cell4 (member t) ch hw) :=
    funext fun ch => funext fun hw => blk1_apply m c t ch hw
  rw [h0, h1]
  rfl

/-- An index of the result is in point t's block iff each coordinate is in the block's range on its axis. -/
theorem mem_blk (t : Fin cfg0.N) (i : S32x64x1.Idx) :
    i ∈ ((cfg0.win 4).blk t).view.set ↔ ∀ a : Fin 3, win0_4.index t a * S1x64x1.size a ≤ (i a).val
      ∧ (i a).val < win0_4.index t a * S1x64x1.size a + S1x64x1.size a := by
  show i ∈ ((View.whole main_v34).slice (win0_4.rect t)).set ↔ _
  rw [View.set_slice_whole, Rect.mem_set_unit]
  exact Iff.rfl

/-- Every index of the result is in the block of the point its batch coordinate names. -/
theorem cover (i : S32x64x1.Idx) : ∃ t : Fin cfg0.N, (cfg0.win 4).flush t = true ∧ i ∈ ((cfg0.win 4).blk t).view.set := by
  have hi0 : (i 0).val < 32 := (i 0).isLt
  have hi1 : (i 1).val < 64 := (i 1).isLt
  have hi2 : (i 2).val < 1 := (i 2).isLt
  let t : Fin cfg0.N := ⟨(i 0).val, by rw [show cfg0.N = 32 from N_0]; exact hi0⟩
  obtain ⟨-, -, -, -, -, -, -, -, -, -, -, -, e0, e1, e2⟩ := idx_facts t
  refine ⟨t, flush0_4 t, ?_⟩
  rw [mem_blk]
  intro a
  have ht : t.val = (i 0).val := rfl
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 1 ≤ (i 2).val ∧ (i 2).val < win0_4.index t (2 : Fin 3) * 1 + 1; omega

/-- THE RESULT ARRAY after the run is G of the argument arrays. -/
theorem final (c : Dev nD) : (dats m 0 c).arrAt 4 cfg0.N = G (a0 m c) (a1 m c) (a2 m c) (a3 m c) :=
  (dats m 0 c).arrAt_eq_of_cover 4 _ (fun t _ => flushed_eq m c t) cover

end Cert.KerArr

end
-- ==== Proof.KerRun.lean ====
/-
  The kernel program's run, with its result named.

  After the launch the program views the [32, 64, 1] result as [32, 64], multiplies by the mask, sums, and divides by
  the larger of the mask's sum and one. The launch leaves the result array at G of the arguments (KerArr) and the mask
  argument untouched, so the program's result is the masked mean of the losses.
-/
import proofs.«121640_j13554916786246_2_alg».proof.Proof.Gen.KernelIdeal.Frame
import proofs.«121640_j13554916786246_2_alg».proof.Proof.KerArr
import proofs.«121640_j13554916786246_2_alg».proof.Proof.Loss
import Idealize.ShloMosaic.Lib.Pipeline.Value
import Idealize.ShloMosaic.Lib.StableHlo.Run

set_option maxRecDepth 16384

noncomputable section

namespace Cert.KerRun

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.Loss (meanLoss lossArr)

variable (m : (ℓ : Loc nD τ sig) → Buf (Elt Ideal) ℓ) (ρ : Dev nD → PrngReg)

/-- The kernel program's result, after the host lines that follow the launch, is the masked mean of the losses. -/
theorem ker_mean (c : Dev nD) :
    Pipeline.afterTail₀ cfgs (dats m) 0 (V0 m) [hostOps1] c main_v41
      = meanLoss (lossArr (Cert.KerArr.a0 m c) (Cert.KerArr.a1 m c) (Cert.KerArr.a2 m c) (Cert.KerArr.a3 m c))
          (m ((c : Thread nD τ).loc main_arg4)) := by
  unfold Pipeline.afterTail₀
  show StableHlo.after hostOps1 _ (Proc.devRef .tc main_v41) = _
  after_results
  rw [Pipeline.withArrays_arr spec0 launch0.win.arr_inj c _ _ 4, Cert.KerArr.final,
    Pipeline.withArrays_of_ne spec0 c _ _ main_arg4 (by intro w; fin_cases w <;> decide)]
  have h4 : V0 m c (Proc.devRef .tc main_arg4) = m ((c : Thread nD τ).loc main_arg4) := V_main_arg4 m c
  rw [h4]
  rfl

/-- The kernel program's run: the result at the masked mean, the arguments unchanged. -/
theorem ker_run : θ_run defs (onTc (τ := τ) (main (F := Ideal))) ⟨m, fun _ => 0, ρ⟩ (fun r => ∀ c : Dev nD,
      r.2.mem ((c.tc : Thread nD τ).loc main_v41)
        = meanLoss (lossArr (Cert.KerArr.a0 m c) (Cert.KerArr.a1 m c) (Cert.KerArr.a2 m c) (Cert.KerArr.a3 m c))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v41 (Pipeline.mem_restRefs_of main_v41 (by decide) (by decide))).trans (ker_mean m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KerRun

end
-- ==== Proof.LibWords.lean ====
/-
  Small natural numbers as 32-bit words.

  A natural number `n` below 2^31 written as a 32-bit word has its sign bit clear, so read unsigned or signed it is `n`
  itself. Everything a program computes on such words with signed comparisons and a signed remainder is then the
  arithmetic of the naturals: the word is not negative, it is at most any larger such word, and its remainder by a larger
  positive word is the word itself (a remainder by a divisor that is neither zero nor minus one is never at the
  division's corner, whatever unit computes it).
-/
import Idealize.ShloMosaic.PureOps

namespace Cert.Lib.Words

open Idealize.ShloMosaic

/-- Read unsigned, the word of `n < 2^31` is `n`. -/
theorem toNat_ofNat (n : Nat) (h : n < 2 ^ 31) : (BitVec.ofNat 32 n).toNat = n := by
  rw [BitVec.toNat_ofNat]; exact Nat.mod_eq_of_lt (by omega)

/-- Its sign bit is clear. -/
theorem msb_ofNat (n : Nat) (h : n < 2 ^ 31) : (BitVec.ofNat 32 n).msb = false := by
  rw [BitVec.msb_eq_false_iff_two_mul_lt, toNat_ofNat n h]; omega

/-- Read signed, it is `n` too. -/
theorem toInt_ofNat (n : Nat) (h : n < 2 ^ 31) : (BitVec.ofNat 32 n).toInt = (n : Int) := by
  rw [BitVec.toInt_eq_toNat_of_msb (msb_ofNat n h), toNat_ofNat n h]

/-- Two such words are equal only if the numbers are. -/
theorem ofNat_ne (n k : Nat) (hn : n < 2 ^ 31) (hk : k < 2 ^ 31) (hne : n ≠ k) : BitVec.ofNat 32 n ≠ BitVec.ofNat 32 k :=
  fun e => hne (by rw [← toNat_ofNat n hn, ← toNat_ofNat k hk, e])

/-- The signed remainder of `n` by a larger `d` is `n`: the truncated remainder of two numbers that are not negative is
    the remainder of the naturals. -/
theorem srem_ofNat (n d : Nat) (hn : n < d) (hd : d < 2 ^ 31) :
    (BitVec.ofNat 32 n).srem (BitVec.ofNat 32 d) = BitVec.ofNat 32 n := by
  apply BitVec.eq_of_toInt_eq
  rw [BitVec.toInt_srem, toInt_ofNat n (by omega), toInt_ofNat d hd]
  exact Int.tmod_eq_of_lt (by omega) (by omega)

/-- A positive `d < 2^31` is not a corner of the signed division: it is not the zero word, and it is not minus one (whose
    sign bit is set). -/
theorem not_corner (x : BitVec 32) (d : Nat) (h0 : 0 < d) (hd : d < 2 ^ 31) : ¬IntOp.SDivCorner x (BitVec.ofNat 32 d) := by
  rintro (h | ⟨-, h⟩)
  · exact ofNat_ne d 0 hd (by omega) (by omega) h
  · have hm := msb_ofNat d hd
    rw [h] at hm
    exact absurd hm (by decide)

/-- So on any unit the remainder of `n` by a larger `d` is `n`. -/
theorem remsi_ofNat (u : ArithUnit) (n d : Nat) (hn : n < d) (hd : d < 2 ^ 31) :
    IntOp.remsi u (BitVec.ofNat 32 n) (BitVec.ofNat 32 d) = BitVec.ofNat 32 n := by
  unfold IntOp.remsi
  rw [if_neg (not_corner _ d (by omega) hd)]
  exact srem_ofNat n d hn hd

/-- Such a word is not below zero (signed) … -/
theorem cmpi_slt_zero (n : Nat) (h : n < 2 ^ 31) : IntOp.cmpi .slt (BitVec.ofNat 32 n) 0#32 = 0#1 := by
  have e : (BitVec.ofNat 32 n).slt 0#32 = false := by
    rw [BitVec.slt_eq_decide, toInt_ofNat n h]
    exact decide_eq_false (by show ¬((n : Int) < (0#32 : BitVec 32).toInt); rw [show (0#32 : BitVec 32).toInt = 0 from rfl]; omega)
  show BitVec.ofBool ((BitVec.ofNat 32 n).slt 0#32) = 0#1
  rw [e]; rfl

/-- … it is at least zero … -/
theorem cmpi_sge_zero (n : Nat) (h : n < 2 ^ 31) : IntOp.cmpi .sge (BitVec.ofNat 32 n) 0#32 = 1#1 := by
  have e : (0#32 : BitVec 32).sle (BitVec.ofNat 32 n) = true := by
    rw [BitVec.sle_eq_decide, toInt_ofNat n h]
    exact decide_eq_true (by rw [show (0#32 : BitVec 32).toInt = 0 from rfl]; omega)
  show BitVec.ofBool ((0#32 : BitVec 32).sle (BitVec.ofNat 32 n)) = 1#1
  rw [e]; rfl

/-- … and at most any such word of a number at least `n`. -/
theorem cmpi_sle (n k : Nat) (hnk : n ≤ k) (hk : k < 2 ^ 31) :
    IntOp.cmpi .sle (BitVec.ofNat 32 n) (BitVec.ofNat 32 k) = 1#1 := by
  have e : (BitVec.ofNat 32 n).sle (BitVec.ofNat 32 k) = true := by
    rw [BitVec.sle_eq_decide, toInt_ofNat n (by omega), toInt_ofNat k hk]
    exact decide_eq_true (by omega)
  show BitVec.ofBool ((BitVec.ofNat 32 n).sle (BitVec.ofNat 32 k)) = 1#1
  rw [e]; rfl

/-- Read signed and cut off below at zero, it is `n`. -/
theorem toInt_toNat_ofNat (n : Nat) (h : n < 2 ^ 31) : (BitVec.ofNat 32 n).toInt.toNat = n := by
  rw [toInt_ofNat n h]; exact Int.toNat_natCast n

end Cert.Lib.Words
-- ==== Proof.LibMaskAll.lean ====
/-
  A mask that is one everywhere reduces by `and` to one.

  A host reduction by `and` folds the operand's bits that reduce to a result index into the initial bit, in some order.
  If every operand bit is one and the initial bit is one, every step of the fold is `1 and 1 = 1`, so the result is one
  at every index, whatever the axes and the order.
-/
import Idealize.ShloMosaic.PureOps
import Idealize.ShloMosaic.Lib.ReduceAll

namespace Cert.Lib.MaskAll

open Idealize.ShloMosaic

/-- A left fold of `and` from one over bits that are all one stays at one. -/
theorem foldl_andi_ones {ι : Type} (x : ι → BitVec 1) :
    ∀ l : List ι, (∀ i ∈ l, x i = 1#1) → l.foldl (fun r i => IntOp.andi r (x i)) 1#1 = 1#1
  | [], _ => rfl
  | a :: l, h => by
    have e : IntOp.andi (1#1 : BitVec 1) 1#1 = 1#1 := by decide
    rw [List.foldl_cons, h a List.mem_cons_self, e]
    exact foldl_andi_ones x l fun i hi => h i (List.mem_cons_of_mem _ hi)

/-- A reduction by `and`, from an initial one, of a mask that is one everywhere is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1)
    (j : t.Idx) : Host.reduce IntOp.andi x init h hu j = 1#1 := by
  rw [Host.reduce_eq_foldl, hi]
  exact foldl_andi_ones x _ fun i _ => hx i

end Cert.Lib.MaskAll
-- ==== Proof.RefIdx.lean ====
/-
  The reference's keypoint cells.

  The reference computes the cell words of the source and of the target keypoints by the common chain of operations
  (CellWords), so each is the word of a number below 4096. Everything the reference then does with the cell
  word before its gathers is an identity on such a number: adding 4096 to a negative index (it is not negative), and
  the bounds mask "0 <= index <= 4095", which is one everywhere.
-/
import proofs.«121640_j13554916786246_2_alg».proof.Proof.RefStages
import proofs.«121640_j13554916786246_2_alg».proof.Proof.CellWords
import proofs.«121640_j13554916786246_2_alg».proof.Proof.LibWords
import proofs.«121640_j13554916786246_2_alg».proof.Proof.LibMaskAll

noncomputable section

namespace Cert.RefIdx

open Cert.ReferenceIdeal Cert.RefStages Idealize.ShloMosaic Idealize.ShloMosaic.ValueIdx

abbrev Kps := (⟨S32x64x2, .f32⟩ : BufTy).Contents (Elt Ideal)

/-- The reference's source cell words are the common cell words of the source keypoints. -/
theorem src_words (x2 : Kps) : val_main_v26 (F := Ideal) x2 = Cert.CellWords.words x2 := rfl

/-- Its target cell words are those of the target keypoints. -/
theorem trg_words (x3 : Kps) : val_main_v41 (F := Ideal) x3 = Cert.CellWords.words x3 := rfl

/-- The source cell of keypoint n of batch b, as a cell of the 4096. -/
abbrev srcCell (x2 : Kps) (b : Fin 32) (n : Fin 64) : Fin 4096 := Cert.CellWords.cellOf x2 b n

theorem src_eq (x2 : Kps) (b : Fin 32) (n : Fin 64) :
    val_main_v26 (F := Ideal) x2 (ix2 b n) = BitVec.ofNat 32 (srcCell x2 b n).val := by
  rw [src_words]; exact Cert.CellWords.words_eq x2 b n

/-- The target cell of keypoint n of batch b. -/
abbrev trgCell (x3 : Kps) (b : Fin 32) (n : Fin 64) : Fin 4096 := Cert.CellWords.cellOf x3 b n

theorem trg_eq (x3 : Kps) (b : Fin 32) (n : Fin 64) :
    val_main_v41 (F := Ideal) x3 (ix2 b n) = BitVec.ofNat 32 (trgCell x3 b n).val := by
  rw [trg_words]; exact Cert.CellWords.words_eq x3 b n

/-! ## Words of numbers below 4096 -/

/-- "If negative add the axis length" leaves the word of a small number alone. -/
theorem wrap_id (k : ℕ) (hk : k < 4096) (y : BitVec 32) :
    Scalar.select (IntOp.cmpi .slt (BitVec.ofNat 32 k) 0#32) y (BitVec.ofNat 32 k) = BitVec.ofNat 32 k := by
  rw [Cert.Lib.Words.cmpi_slt_zero k (by omega)]; exact select_zero _ _

/-- The bounds test 0 <= k <= 4095 of such a word is one. -/
theorem inb_one (k : ℕ) (hk : k < 4096) :
    IntOp.andi (IntOp.cmpi .sge (BitVec.ofNat 32 k) 0#32) (IntOp.cmpi .sle (BitVec.ofNat 32 k) 4095#32) = 1#1 := by
  rw [Cert.Lib.Words.cmpi_sge_zero k (by omega), show (4095#32 : BitVec 32) = BitVec.ofNat 32 4095 from rfl,
    Cert.Lib.Words.cmpi_sle k 4095 (by omega) (by omega)]
  decide

/-- The clamped start of a gather at such a word is the number. -/
theorem start_eq (k : ℕ) (hk : k < 4096) : min (BitVec.ofNat 32 k).toInt.toNat 4095 = k := by
  rw [Cert.Lib.Words.toInt_toNat_ofNat k (by omega)]; omega

/-! ## The index arrays the two gathers are given -/

/-- The first gather's start index at (b, n, 0) is the source cell word. -/
theorem srcStart (x2 : Kps) (b : Fin 32) (n : Fin 64) (u : Fin 1) :
    val_main_call6_v5 (F := Ideal) x2 (ix3 b n u) = BitVec.ofNat 32 (srcCell x2 b n).val := by
  have e : idx_main_v42 (idx_main_call6_v5 (ix3 b n u)) = ix2 b n := by
    funext a; refine Fin.ext ?_
    have hb := b.isLt; have hn := n.isLt; have hu := u.isLt
    match a with
    | ⟨0, _⟩ => show ((b.val * 64 + n.val) * 1 + u.val) / 64 = b.val; omega
    | ⟨1, _⟩ => show ((b.val * 64 + n.val) * 1 + u.val) % 64 = n.val; omega
  rw [val_main_call6_v5_apply, val_main_call6_v4_apply, val_main_call6_v1_apply, val_main_v42_apply, e, src_eq,
    val_main_call6_v0_apply, val_main_call6_c_apply]
  exact wrap_id _ (srcCell x2 b n).isLt _

/-- The first gather's bounds mask is one at every (batch, keypoint). -/
theorem srcMask (x2 : Kps) (j : S32x64.Idx) : val_main_call6_v12 (F := Ideal) x2 j = 1#1 := by
  unfold val_main_call6_v12
  refine Cert.Lib.MaskAll.reduce_andi_ones _ _ _ _ (fun i => ?_) rfl j
  obtain ⟨b, n, u, rfl⟩ : ∃ (b : Fin 32) (n : Fin 64) (u : Fin 1), i = ix3 b n u := ⟨i 0, i 1, i 2, eq_ix3 i⟩
  rw [val_main_call6_v11_apply, val_main_call6_v7_apply, val_main_call6_v10_apply, srcStart, val_main_call6_v6_apply,
    val_main_call6_c_2_apply, val_main_call6_v9_apply, val_main_call6_v8_apply, val_main_call6_c_1_apply]
  exact inb_one _ (srcCell x2 b n).isLt

/-- The second gather's start index at (b, n, 0, 0) is the target cell word. -/
theorem trgStart (x3 : Kps) (b : Fin 32) (n : Fin 64) (u v : Fin 1) :
    val_main_call8_v5 (F := Ideal) x3 (ix4 b n u v) = BitVec.ofNat 32 (trgCell x3 b n).val := by
  have e : idx_main_v48 (idx_main_call8_v5 (ix4 b n u v)) = ix2 b n := by
    funext a; refine Fin.ext ?_
    have hb := b.isLt; have hn := n.isLt; have hu := u.isLt; have hv := v.isLt
    match a with
    | ⟨0, _⟩ => show (((b.val * 64 + n.val) * 1 + u.val) * 1 + v.val) / 64 = b.val; omega
    | ⟨1, _⟩ => show (((b.val * 64 + n.val) * 1 + u.val) * 1 + v.val) / 1 % 64 = n.val; omega
  rw [val_main_call8_v5_apply, val_main_call8_v4_apply, val_main_call8_v1_apply, val_main_v48_apply, e, trg_eq,
    val_main_call8_v0_apply, val_main_call8_c_apply]
  exact wrap_id _ (trgCell x3 b n).isLt _

/-- The second gather's bounds mask is one at every (batch, keypoint, 0). -/
theorem trgMask (x3 : Kps) (j : S32x64x1.Idx) : val_main_call8_v12 (F := Ideal) x3 j = 1#1 := by
  unfold val_main_call8_v12
  refine Cert.Lib.MaskAll.reduce_andi_ones _ _ _ _ (fun i => ?_) rfl j
  obtain ⟨b, n, u, v, rfl⟩ : ∃ (b : Fin 32) (n : Fin 64) (u v : Fin 1), i = ix4 b n u v := ⟨i 0, i 1, i 2, i 3, eq_ix4 i⟩
  rw [val_main_call8_v11_apply, val_main_call8_v7_apply, val_main_call8_v10_apply, trgStart, val_main_call8_v6_apply,
    val_main_call8_c_2_apply, val_main_call8_v9_apply, val_main_call8_v8_apply, val_main_call8_c_1_apply]
  exact inb_one _ (trgCell x3 b n).isLt

end Cert.RefIdx

end
-- ==== Proof.RefFeat.lean ====
/-
  The reference's unit feature vectors.

  The reference divides every entry of a [32, 256, 64, 64] feature array by the larger of the Euclidean length of its
  cell's 256-channel vector and a floor, then views the result as [32, 256, 4096]. Entry (b, c, hw) of that view is
  therefore entry c of the unit vector of the channel vector at cell hw of batch member b: the view keeps batch and
  channel and flattens row and column, so hw names row hw / 64 and column hw % 64.
-/
import proofs.«121640_j13554916786246_2_alg».proof.Proof.RefStages
import proofs.«121640_j13554916786246_2_alg».proof.Proof.Spec

noncomputable section

namespace Cert.RefFeat

open Cert.ReferenceIdeal Cert.RefStages Idealize.ShloMosaic Idealize.ShloMosaic.ValueIdx

abbrev Feats := (⟨S32x256x64x64, .f32⟩ : BufTy).Contents (Elt Ideal)

/-- The flattened view reads the rank-4 array at the cell. -/
theorem view_cell (b : Fin 32) (c : Fin 256) (hw : Fin 4096) : idx_main_v5 (ix3 b c hw) = Cert.Spec.cell4 b c hw := by
  funext a; refine Fin.ext ?_
  have hb := b.isLt; have hc := c.isLt; have hh := hw.isLt
  match a with
  | ⟨0, _⟩ => show ((b.val * 256 + c.val) * 4096 + hw.val) / 1048576 = b.val; omega
  | ⟨1, _⟩ => show ((b.val * 256 + c.val) * 4096 + hw.val) / 4096 % 256 = c.val; omega
  | ⟨2, _⟩ => show ((b.val * 256 + c.val) * 4096 + hw.val) / 64 % 64 = hw.val / 64; omega
  | ⟨3, _⟩ => show ((b.val * 256 + c.val) * 4096 + hw.val) % 64 = hw.val % 64; omega

theorem view_cell' (b : Fin 32) (c : Fin 256) (hw : Fin 4096) : idx_main_v11 (ix3 b c hw) = Cert.Spec.cell4 b c hw := by
  funext a; refine Fin.ext ?_
  have hb := b.isLt; have hc := c.isLt; have hh := hw.isLt
  match a with
  | ⟨0, _⟩ => show ((b.val * 256 + c.val) * 4096 + hw.val) / 1048576 = b.val; omega
  | ⟨1, _⟩ => show ((b.val * 256 + c.val) * 4096 + hw.val) / 4096 % 256 = c.val; omega
  | ⟨2, _⟩ => show ((b.val * 256 + c.val) * 4096 + hw.val) / 64 % 64 = hw.val / 64; omega
  | ⟨3, _⟩ => show ((b.val * 256 + c.val) * 4096 + hw.val) % 64 = hw.val % 64; omega

/-- The source features, normalised and flattened, at (b, c, hw). -/
theorem src_feat (x0 : Feats) (b : Fin 32) (c : Fin 256) (hw : Fin 4096) :
    val_main_v5 (F := Ideal) x0 (ix3 b c hw) = Cert.Spec.unitCol (fun k => x0 (Cert.Spec.cell4 b k hw)) c := by
  have ek : ∀ k : Fin 256, idx_main_call0_v1 (idx_main_call0_v2 (idx_main_v3 (Cert.Spec.cell4 b c hw))) k = Cert.Spec.cell4 b k hw := by
    intro k; funext a; refine Fin.ext ?_
    match a with
    | ⟨0, _⟩ => rfl
    | ⟨1, _⟩ => rfl
    | ⟨2, _⟩ => rfl
    | ⟨3, _⟩ => rfl
  rw [val_main_v5_apply, view_cell, val_main_v4_apply, val_main_v3_apply, val_main_v2_apply, val_main_v0_apply,
    val_main_call0_v2_apply, val_main_call0_v1_apply, val_main_v1_apply, val_main_cst_apply, val_main_call0_cst_apply]
  simp only [ek, val_main_call0_v0_apply]
  unfold Cert.Spec.unitCol
  simp only [Ideal.hostDivf_def, Ideal.maximumf_def, Ideal.hostUnary_sqrt_def, Ideal.ofBits_def, Ideal.mulf_def,
    Ideal.ofBits_zero_f32, zero_add]

/-- The target features likewise. -/
theorem trg_feat (x1 : Feats) (b : Fin 32) (c : Fin 256) (hw : Fin 4096) :
    val_main_v11 (F := Ideal) x1 (ix3 b c hw) = Cert.Spec.unitCol (fun k => x1 (Cert.Spec.cell4 b k hw)) c := by
  have ek : ∀ k : Fin 256, idx_main_call1_v1 (idx_main_call1_v2 (idx_main_v9 (Cert.Spec.cell4 b c hw))) k = Cert.Spec.cell4 b k hw := by
    intro k; funext a; refine Fin.ext ?_
    match a with
    | ⟨0, _⟩ => rfl
    | ⟨1, _⟩ => rfl
    | ⟨2, _⟩ => rfl
    | ⟨3, _⟩ => rfl
  rw [val_main_v11_apply, view_cell', val_main_v10_apply, val_main_v9_apply, val_main_v8_apply, val_main_v6_apply,
    val_main_call1_v2_apply, val_main_call1_v1_apply, val_main_v7_apply, val_main_cst_0_apply, val_main_call1_cst_apply]
  simp only [ek, val_main_call1_v0_apply]
  unfold Cert.Spec.unitCol
  simp only [Ideal.hostDivf_def, Ideal.maximumf_def, Ideal.hostUnary_sqrt_def, Ideal.ofBits_def, Ideal.mulf_def,
    Ideal.ofBits_zero_f32, zero_add]

end Cert.RefFeat

end
-- ==== Proof.GatherRead.lean ====
/-
  The reference's two gathers read at an index.

  Both take one entry along the last axis of a rank-3 array, at a position another array names, batch by batch: the
  first for every (batch, channel) pair and keypoint — the channel axis is carried whole —, the second for every
  (batch, keypoint) pair. A gather reads its start position signed and clamps it into the axis, so the entry read is
  the one at the smaller of that signed number (cut off below at zero) and the last position, 4095.
-/
import Idealize.ShloMosaic.PureOps
import Idealize.ShloMosaic.Lib.ValueIdx

namespace Cert.GatherRead

open Idealize.ShloMosaic Idealize.ShloMosaic.ValueIdx

variable {α : Type}

/-- Columns of a [32, 256, 4096] array at positions given per (batch, keypoint): the result is [32, 256, 64]. -/
abbrev colsDims (wf : GatherDims.WF ⟨3, ![32, 256, 4096]⟩ ⟨3, ![32, 64, 1]⟩ ⟨3, ![32, 256, 64]⟩ [1] [2] [0] [2] [0] 2 ![1, 256, 1]) :
    GatherDims ⟨3, ![32, 256, 4096]⟩ ⟨3, ![32, 64, 1]⟩ ⟨3, ![32, 256, 64]⟩ where
  offsetDims := [1]
  collapsedSliceDims := [2]
  operandBatchingDims := [0]
  startIndicesBatchingDims := [0]
  startIndexMap := [2]
  indexVectorDim := 2
  sliceSizes := ![1, 256, 1]
  wf := wf

/-- Entry (b, c, n) of the gathered columns is the array at (b, c, p), p the clamped position idx (b, n, 0). -/
theorem cols_apply (wf) (x : (⟨3, ![32, 256, 4096]⟩ : Shape).Idx → α) (idx : IVec ⟨3, ![32, 64, 1]⟩ 32)
    (b : Fin 32) (c : Fin 256) (n : Fin 64) :
    Host.gather (colsDims wf) x idx (ix3 b c n)
      = x (ix3 b c (⟨min (idx (ix3 b n (0 : Fin 1))).toInt.toNat 4095, by omega⟩ : Fin 4096)) := by
  unfold Host.gather
  congr 1
  funext a
  refine Fin.ext ?_
  show (colsDims wf).start (ix3 b c n) idx a + (colsDims wf).batchCoord (ix3 b c n) a + (colsDims wf).offCoord (ix3 b c n) a = _
  match a with
  | ⟨0, _⟩ =>
    have h1 : (colsDims wf).start (ix3 b c n) idx ⟨0, by decide⟩ = 0 := rfl
    have h2 : (colsDims wf).batchCoord (ix3 b c n) ⟨0, by decide⟩ = b.val := rfl
    have h3 : (colsDims wf).offCoord (ix3 b c n) ⟨0, by decide⟩ = 0 := rfl
    rw [h1, h2, h3]; show 0 + b.val + 0 = b.val; omega
  | ⟨1, _⟩ =>
    have h1 : (colsDims wf).start (ix3 b c n) idx ⟨1, by decide⟩ = 0 := rfl
    have h2 : (colsDims wf).batchCoord (ix3 b c n) ⟨1, by decide⟩ = 0 := rfl
    have h3 : (colsDims wf).offCoord (ix3 b c n) ⟨1, by decide⟩ = c.val := rfl
    rw [h1, h2, h3]; show 0 + 0 + c.val = c.val; omega
  | ⟨2, _⟩ =>
    have h1 : (colsDims wf).start (ix3 b c n) idx ⟨2, by decide⟩ = min (idx (ix3 b n (0 : Fin 1))).toInt.toNat 4095 := by
      unfold GatherDims.start
      rw [dif_pos (show (⟨2, by decide⟩ : Fin 3) ∈ (colsDims wf).startIndexMap from List.mem_singleton.mpr rfl)]
      have hsi : (colsDims wf).siIdx (ix3 b c n) ⟨List.idxOf (⟨2, by decide⟩ : Fin 3) (colsDims wf).startIndexMap,
          List.idxOf_lt_length_iff.2 (List.mem_singleton.mpr rfl)⟩ = ix3 b n (0 : Fin 1) := by
        funext d; refine Fin.ext ?_
        match d with
        | ⟨0, _⟩ => rfl
        | ⟨1, _⟩ => rfl
        | ⟨2, _⟩ => rfl
      rw [hsi]; rfl
    have h2 : (colsDims wf).batchCoord (ix3 b c n) ⟨2, by decide⟩ = 0 := rfl
    have h3 : (colsDims wf).offCoord (ix3 b c n) ⟨2, by decide⟩ = 0 := rfl
    rw [h1, h2, h3]; rfl

/-- One entry per (batch, keypoint) of a [32, 64, 4096] array, at positions given per pair: the result is [32, 64, 1]. -/
abbrev cellDims (wf : GatherDims.WF ⟨3, ![32, 64, 4096]⟩ ⟨4, ![32, 64, 1, 1]⟩ ⟨3, ![32, 64, 1]⟩ [] [2] [0, 1] [2] [0, 1] 3 ![1, 1, 1]) :
    GatherDims ⟨3, ![32, 64, 4096]⟩ ⟨4, ![32, 64, 1, 1]⟩ ⟨3, ![32, 64, 1]⟩ where
  offsetDims := []
  collapsedSliceDims := [2]
  operandBatchingDims := [0, 1]
  startIndicesBatchingDims := [0, 1]
  startIndexMap := [2]
  indexVectorDim := 3
  sliceSizes := ![1, 1, 1]
  wf := wf

/-- Entry (b, n, 0) of the gathered cells is the array at (b, n, p), p the clamped position idx (b, n, 0, 0). -/
theorem cell_apply (wf) (x : (⟨3, ![32, 64, 4096]⟩ : Shape).Idx → α) (idx : IVec ⟨4, ![32, 64, 1, 1]⟩ 32)
    (b : Fin 32) (n : Fin 64) (u : Fin 1) :
    Host.gather (cellDims wf) x idx (ix3 b n u)
      = x (ix3 b n (⟨min (idx (ix4 b n (0 : Fin 1) (0 : Fin 1))).toInt.toNat 4095, by omega⟩ : Fin 4096)) := by
  unfold Host.gather
  congr 1
  funext a
  refine Fin.ext ?_
  show (cellDims wf).start (ix3 b n u) idx a + (cellDims wf).batchCoord (ix3 b n u) a + (cellDims wf).offCoord (ix3 b n u) a = _
  have hu : u = 0 := Subsingleton.elim _ _
  subst hu
  match a with
  | ⟨0, _⟩ =>
    have h1 : (cellDims wf).start (ix3 b n (0 : Fin 1)) idx ⟨0, by decide⟩ = 0 := rfl
    have h2 : (cellDims wf).batchCoord (ix3 b n (0 : Fin 1)) ⟨0, by decide⟩ = b.val := rfl
    have h3 : (cellDims wf).offCoord (ix3 b n (0 : Fin 1)) ⟨0, by decide⟩ = 0 := rfl
    rw [h1, h2, h3]; show 0 + b.val + 0 = b.val; omega
  | ⟨1, _⟩ =>
    have h1 : (cellDims wf).start (ix3 b n (0 : Fin 1)) idx ⟨1, by decide⟩ = 0 := rfl
    have h2 : (cellDims wf).batchCoord (ix3 b n (0 : Fin 1)) ⟨1, by decide⟩ = n.val := rfl
    have h3 : (cellDims wf).offCoord (ix3 b n (0 : Fin 1)) ⟨1, by decide⟩ = 0 := rfl
    rw [h1, h2, h3]; show 0 + n.val + 0 = n.val; omega
  | ⟨2, _⟩ =>
    have h1 : (cellDims wf).start (ix3 b n (0 : Fin 1)) idx ⟨2, by decide⟩
        = min (idx (ix4 b n (0 : Fin 1) (0 : Fin 1))).toInt.toNat 4095 := by
      unfold GatherDims.start
      rw [dif_pos (show (⟨2, by decide⟩ : Fin 3) ∈ (cellDims wf).startIndexMap from List.mem_singleton.mpr rfl)]
      have hsi : (cellDims wf).siIdx (ix3 b n (0 : Fin 1)) ⟨List.idxOf (⟨2, by decide⟩ : Fin 3) (cellDims wf).startIndexMap,
          List.idxOf_lt_length_iff.2 (List.mem_singleton.mpr rfl)⟩ = ix4 b n (0 : Fin 1) (0 : Fin 1) := by
        funext d; refine Fin.ext ?_
        match d with
        | ⟨0, _⟩ => rfl
        | ⟨1, _⟩ => rfl
        | ⟨2, _⟩ => rfl
        | ⟨3, _⟩ => rfl
      rw [hsi]; rfl
    have h2 : (cellDims wf).batchCoord (ix3 b n (0 : Fin 1)) ⟨2, by decide⟩ = 0 := rfl
    have h3 : (cellDims wf).offCoord (ix3 b n (0 : Fin 1)) ⟨2, by decide⟩ = 0 := rfl
    rw [h1, h2, h3]; rfl

end Cert.GatherRead
-- ==== Proof.RefNll.lean ====
/-
  The reference's per-keypoint loss.

  For batch member b and keypoint n the reference gathers the unit source vector at the keypoint's source cell (the
  bounds mask is one, so the gathered entry is kept), contracts it over the channels with every unit target vector and
  divides by the temperature (the logits), subtracts the row maximum (taken from minus infinity, then once more against
  minus infinity, which changes nothing), subtracts the logarithm of the sum of the exponentials, gathers the entry at
  the keypoint's target cell, and negates it.
-/
import proofs.«121640_j13554916786246_2_alg».proof.Proof.RefStages
import proofs.«121640_j13554916786246_2_alg».proof.Proof.Spec
import proofs.«121640_j13554916786246_2_alg».proof.Proof.RefIdx
import proofs.«121640_j13554916786246_2_alg».proof.Proof.RefFeat
import proofs.«121640_j13554916786246_2_alg».proof.Proof.GatherRead
import Idealize.ShloMosaic.PureOps.Reduce
import Mathlib.Data.Finset.Fold
import Idealize.ShloMosaic.PureOps.Ideal.Laws

noncomputable section

namespace Cert.RefNll

open Cert.ReferenceIdeal Cert.ReferenceIdeal.Gen Cert.RefStages Idealize.ShloMosaic Idealize.ShloMosaic.ValueIdx
open Cert.RefIdx Cert.RefFeat

/-- The gathered queries: entry (b, c, n) is entry c of the unit source vector at keypoint n's source cell. -/
theorem query (x0 : Feats) (x2 : Kps) (b : Fin 32) (c : Fin 256) (n : Fin 64) :
    val_main_v43 (F := Ideal) x0 x2 (ix3 b c n)
      = Cert.Spec.unitCol (fun k => x0 (Cert.Spec.cell4 b k (srcCell x2 b n))) c := by
  rw [val_main_v43_apply, val_main_call6_v14_apply, srcMask, select_one]
  unfold val_main_call6_v13
  refine (Cert.GatherRead.cols_apply _ (val_main_v5 (F := Ideal) x0) (val_main_call6_v5 (F := Ideal) x2) b c n).trans ?_
  have e : (⟨min (val_main_call6_v5 (F := Ideal) x2 (ix3 b n (0 : Fin 1))).toInt.toNat 4095, by omega⟩ : Fin 4096)
      = srcCell x2 b n := Fin.ext (by
    show min (val_main_call6_v5 (F := Ideal) x2 (ix3 b n (0 : Fin 1))).toInt.toNat 4095 = _
    rw [srcStart]; exact start_eq _ (srcCell x2 b n).isLt)
  exact (congrArg (fun p => val_main_v5 (F := Ideal) x0 (ix3 b c p)) e).trans (src_feat x0 b c _)

/-- The logits: entry (b, n, m). -/
theorem logit_at (x0 x1 : Feats) (x2 : Kps) (b : Fin 32) (n : Fin 64) (m : Fin 4096) :
    val_main_v46 (F := Ideal) x0 x1 x2 (ix3 b n m)
      = Cert.Spec.logit (fun c => Cert.Spec.unitCol (fun k => x0 (Cert.Spec.cell4 b k (srcCell x2 b n))) c)
          (fun c => Cert.Spec.unitCol (fun k => x1 (Cert.Spec.cell4 b k m)) c) := by
  have el : ∀ k : Fin 256, lidx_main_v44 (ix3 b n m) k = ix3 b k n := fun k => funext fun a => Fin.ext (by
    match a with
    | ⟨0, _⟩ => rfl
    | ⟨1, _⟩ => rfl
    | ⟨2, _⟩ => rfl)
  have er : ∀ k : Fin 256, ridx_main_v44 (ix3 b n m) k = ix3 b k m := fun k => funext fun a => Fin.ext (by
    match a with
    | ⟨0, _⟩ => rfl
    | ⟨1, _⟩ => rfl
    | ⟨2, _⟩ => rfl)
  rw [val_main_v46_apply, val_main_v44_apply, val_main_v45_apply, val_main_cst_14_apply]
  simp only [el, er, query, trg_feat]
  rfl

/-- The row maximum of keypoint n of batch member b. -/
theorem rowmax_at (x0 x1 : Feats) (x2 : Kps) (b : Fin 32) (n : Fin 64) :
    val_main_call7_v0 (F := Ideal) x0 x1 x2 (ix2 b n)
      = Cert.Spec.rowMax (fun m => val_main_v46 (F := Ideal) x0 x1 x2 (ix3 b n m)) := by
  unfold val_main_call7_v0
  rw [Host.reduce_eq_fold_single FloatOps.maximumf _ _ reducesTo_S32x64x4096_S32x64_d2
    (by decide : S32x64x4096.Reduces [2] S32x64) h_S_]
  unfold Cert.Spec.rowMax
  exact congrArg (fun f => Finset.fold max (Ideal.ofBits .f32 0xFF800000#32) f (Finset.univ : Finset (Fin 4096)))
    (funext fun k => congrArg (val_main_v46 (F := Ideal) x0 x1 x2) (by
      funext a; apply Fin.ext
      fin_cases a <;> rfl))

/-- The larger of minus infinity and a row maximum taken from minus infinity is the row maximum. -/
theorem max_negInf_rowMax (L : Fin 4096 → EReal) : max Cert.Spec.negInf (Cert.Spec.rowMax L) = Cert.Spec.rowMax L :=
  max_eq_right ((Finset.le_fold_max _).mpr (Or.inl le_rfl))

/-- The shifted logits: entry (b, n, k) less the row maximum. -/
theorem shifted_at (x0 x1 : Feats) (x2 : Kps) (b : Fin 32) (n : Fin 64) (k : Fin 4096) :
    val_main_call7_v5 (F := Ideal) x0 x1 x2 (ix3 b n k)
      = val_main_v46 (F := Ideal) x0 x1 x2 (ix3 b n k)
        - Cert.Spec.rowMax (fun j => val_main_v46 (F := Ideal) x0 x1 x2 (ix3 b n j)) := by
  have e4 : idx_main_call7_v3 (idx_main_call7_v4 (ix3 b n k)) = ix2 b n := funext fun a => Fin.ext (by
    match a with
    | ⟨0, _⟩ => rfl
    | ⟨1, _⟩ => rfl)
  rw [val_main_call7_v5_apply, val_main_call7_v4_apply, val_main_call7_v3_apply, e4, val_main_call7_v2_apply,
    val_main_call7_v1_apply, val_main_call7_cst_0_apply, rowmax_at]
  show _ - max Cert.Spec.negInf _ = _
  rw [max_negInf_rowMax]

/-- The log-probabilities: entry (b, n, m). -/
theorem logp_at (x0 x1 : Feats) (x2 : Kps) (b : Fin 32) (n : Fin 64) (m : Fin 4096) :
    val_main_v47 (F := Ideal) x0 x1 x2 (ix3 b n m)
      = Cert.Spec.logp (fun j => val_main_v46 (F := Ideal) x0 x1 x2 (ix3 b n j)) m := by
  have e10 : idx_main_call7_v8 (idx_main_call7_v10 (ix3 b n m)) = ix2 b n := funext fun a => Fin.ext (by
    match a with
    | ⟨0, _⟩ => rfl
    | ⟨1, _⟩ => rfl)
  have e7 : ∀ k : Fin 4096, idx_main_call7_v7 (ix2 b n) k = ix3 b n k := fun k => funext fun a => Fin.ext (by
    match a with
    | ⟨0, _⟩ => rfl
    | ⟨1, _⟩ => rfl
    | ⟨2, _⟩ => rfl)
  rw [val_main_v47_apply, shifted_at, val_main_call7_v10_apply, val_main_call7_v9_apply, val_main_call7_v8_apply, e10,
    val_main_call7_v7_apply, val_main_call7_cst_1_apply]
  simp only [e7, val_main_call7_v6_apply, shifted_at]
  unfold Cert.Spec.logp
  simp only [Ideal.subf_def, Ideal.hostUnary_log_def, Ideal.hostUnary_exp_def, Ideal.ofBits_def, Ideal.ofBits_zero_f32,
    zero_add]

/-- THE REFERENCE'S LOSS of keypoint n of batch member b. -/
theorem nll_at (x0 x1 : Feats) (x2 x3 : Kps) (b : Fin 32) (n : Fin 64) :
    val_main_v51 (F := Ideal) x0 x1 x2 x3 (ix2 b n)
      = Cert.Spec.nll (fun c hw => x0 (Cert.Spec.cell4 b c hw)) (fun c hw => x1 (Cert.Spec.cell4 b c hw))
          (srcCell x2 b n) (trgCell x3 b n) := by
  have e50 : idx_main_v50 (ix2 b n) = ix3 b n (0 : Fin 1) := funext fun a => Fin.ext (by
    have hb := b.isLt; have hn := n.isLt
    match a with
    | ⟨0, _⟩ => show (b.val * 64 + n.val) / 64 = b.val; omega
    | ⟨1, _⟩ => show (b.val * 64 + n.val) / 1 % 64 = n.val; omega
    | ⟨2, _⟩ => rfl)
  rw [val_main_v51_apply, val_main_v50_apply, e50, val_main_v49_apply, trgMask, select_one]
  unfold val_main_call8_v13
  have hg := Cert.GatherRead.cell_apply gather_S32x64x4096_S32x64x1x1_S32x64x1_n_2_01_01_2_3_111_wf (val_main_v47 (F := Ideal) x0 x1 x2) (val_main_call8_v5 (F := Ideal) x3) b n (0 : Fin 1)
  have e : (⟨min (val_main_call8_v5 (F := Ideal) x3 (ix4 b n (0 : Fin 1) (0 : Fin 1))).toInt.toNat 4095, by omega⟩ : Fin 4096)
      = trgCell x3 b n := Fin.ext (by
    show min (val_main_call8_v5 (F := Ideal) x3 (ix4 b n (0 : Fin 1) (0 : Fin 1))).toInt.toNat 4095 = _
    rw [trgStart]; exact start_eq _ (trgCell x3 b n).isLt)
  have hv : Host.gather gather_S32x64x4096_S32x64x1x1_S32x64x1_n_2_01_01_2_3_111 (val_main_v47 (F := Ideal) x0 x1 x2)
      (val_main_call8_v5 (F := Ideal) x3) (ix3 b n (0 : Fin 1))
      = Cert.Spec.logp (fun j => val_main_v46 (F := Ideal) x0 x1 x2 (ix3 b n j)) (trgCell x3 b n) :=
    hg.trans ((congrArg (fun p => val_main_v47 (F := Ideal) x0 x1 x2 (ix3 b n p)) e).trans (logp_at x0 x1 x2 b n _))
  rw [hv]
  unfold Cert.Spec.nll
  simp only [logit_at]
  rfl

end Cert.RefNll

end
-- ==== Proof.Claims.lean ====
/-
  The five claims.

  Both programs end by the same masked mean (Loss): the per-keypoint losses, a [32, 64] array, are multiplied by the
  mask read as zeros and ones and summed, and the sum is divided by the larger of the mask's sum and one. The kernel's
  losses are its [32, 64, 1] result viewed as [32, 64] (KerRun); the reference's are its gathered, negated
  log-probabilities (RefNll), read off its run (RefRun). Entry by entry both are the loss of keypoint n of batch member b as the specification
  states it, so the two means are one number. The precondition is never opened: every law used holds on all extended
  reals.
-/
import proofs.«121640_j13554916786246_2_alg».proof.Defs
import proofs.«121640_j13554916786246_2_alg».proof.Proof.Gen.Kernel.Frame
import proofs.«121640_j13554916786246_2_alg».proof.Proof.Gen.KernelIdeal.Frame
import proofs.«121640_j13554916786246_2_alg».proof.Proof.Gen.ReferenceIdeal
import proofs.«121640_j13554916786246_2_alg».proof.Proof.RefStages
import proofs.«121640_j13554916786246_2_alg».proof.Proof.RefRun
import proofs.«121640_j13554916786246_2_alg».proof.Proof.Gen.Pre_finite_inputs
import proofs.«121640_j13554916786246_2_alg».proof.Proof.Loss
import proofs.«121640_j13554916786246_2_alg».proof.Proof.KerRun
import proofs.«121640_j13554916786246_2_alg».proof.Proof.RefNll

set_option maxRecDepth 16384

noncomputable section

namespace Cert.Claims

open Idealize.ShloMosaic Idealize.ShloMosaic.TcCoe Idealize.ShloMosaic.ValueIdx
open Idealize.SL Idealize.SL.Sem
open Cert.Loss (meanLoss lossArr lossArr_apply)

/-! ## The reference -/

section Reference
open Cert.ReferenceIdeal Cert.ReferenceIdeal.Gen Cert.RefStages

/-- The reference's result is the masked mean of its losses. -/
theorem ref_mean (x0 x1 : Cert.RefFeat.Feats) (x2 x3 : Cert.RefIdx.Kps) (x4 : (⟨S32x64, .i1⟩ : BufTy).Contents (Elt Ideal)) :
    val_main_v57 (F := Ideal) x0 x1 x2 x3 x4 = meanLoss (val_main_v51 (F := Ideal) x0 x1 x2 x3) x4 := rfl

/-- Its losses are the specification's. -/
theorem ref_loss (x0 x1 : Cert.RefFeat.Feats) (x2 x3 : Cert.RefIdx.Kps) :
    val_main_v51 (F := Ideal) x0 x1 x2 x3 = lossArr x0 x1 x2 x3 := by
  funext j
  obtain ⟨b, n, rfl⟩ : ∃ (b : Fin 32) (n : Fin 64), j = ix2 b n := ⟨j 0, j 1, eq_ix2 j⟩
  rw [Cert.RefNll.nll_at, lossArr_apply]
  rfl

end Reference

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefRun.run m ρ)

theorem preserves : Cert.preserves_Kernel_KernelIdeal := trivial

/-- Run from memories that agree on the arguments, both programs end at the masked mean of the same losses. -/
theorem algebraic : Cert.algebraic_KernelIdeal_ReferenceIdeal := by
  intro m ρ m' ρ' _ hagree
  refine ⟨_, Cert.KerRun.ker_run m ρ, ?_⟩
  refine (θ_run Cert.ReferenceIdeal.defs _ _).mono (fun _ h c => ⟨(h c).1.trans ?_, (h c).2⟩)
    (Cert.RefRun.run m' ρ')
  rw [ref_mean, ref_loss, (hagree c).1, (hagree c).2.1, (hagree c).2.2.1,
    (hagree c).2.2.2.1, (hagree c).2.2.2.2]

end Cert.Claims

end
-- ==== Proof.lean ====
/-
  A dense contrastive cross-entropy over a 64 x 64 feature grid, 32 batch members of 64 keypoints each.

  For every keypoint the source features at the keypoint's source cell, scaled to unit length over the 256 channels,
  are compared with the unit target features at all 4096 cells; the inner products over the temperature are the
  logits, and the loss is minus the log-softmax of the logits at the keypoint's target cell. The result is the mean of
  the losses over the keypoints the mask keeps.

  The kernel picks the query vector out of the unit source block by multiplying with a one-hot selector and picks the
  log-probability at the target cell by multiplying with a one-hot row and summing; the reference gathers both. A
  product with zero is zero on every extended real, so a sum against a one-hot row is the entry it marks; and the
  cell index of a keypoint is clamped into the grid before use, so each gather reads inside its axis and its bounds
  mask never fires. With that the two programs' per-keypoint losses are one function of the four float arguments, and
  both finish by the same masked mean. No step needs the inputs finite.

  The modules: Spec (the loss as mathematics, and the one-hot sum), IdxWord and CellWords (a keypoint's cell, computed
  the same way by both programs, is a number below 4096), Loss (the loss array and its masked mean), GatherRead (the
  two gathers read at an index), KerLayout and KerPay (the kernel body, index by index), KerArr and KerRun (the
  kernel's result array after the run, and the program's result), RefStages, RefOps and RefRun (the reference's operations as stages, their list in seven slices, and its run
  taken slice by slice over LibFold), RefIdx, RefFeat and RefNll (the reference read stage by stage), Claims (the five claims).
-/
import proofs.«121640_j13554916786246_2_alg».proof.Defs
import proofs.«121640_j13554916786246_2_alg».proof.Proof.Gen.Kernel
import proofs.«121640_j13554916786246_2_alg».proof.Proof.Gen.Kernel.Skeleton
import proofs.«121640_j13554916786246_2_alg».proof.Proof.Gen.Kernel.Launch
import proofs.«121640_j13554916786246_2_alg».proof.Proof.Gen.Kernel.Points
import proofs.«121640_j13554916786246_2_alg».proof.Proof.Gen.Kernel.Frame
import proofs.«121640_j13554916786246_2_alg».proof.Proof.Gen.KernelIdeal
import proofs.«121640_j13554916786246_2_alg».proof.Proof.Gen.KernelIdeal.Skeleton
import proofs.«121640_j13554916786246_2_alg».proof.Proof.Gen.KernelIdeal.Launch
import proofs.«121640_j13554916786246_2_alg».proof.Proof.Gen.KernelIdeal.Points
import proofs.«121640_j13554916786246_2_alg».proof.Proof.Gen.KernelIdeal.Frame
import proofs.«121640_j13554916786246_2_alg».proof.Proof.Gen.ReferenceIdeal
import proofs.«121640_j13554916786246_2_alg».proof.Proof.Gen.Pre_finite_inputs
import proofs.«121640_j13554916786246_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Claims.frame_k, Cert.Claims.frame_ki, Cert.Claims.frame_ri, Cert.Claims.preserves, Cert.Claims.algebraic⟩

end Cert.Proof

end
